-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x128x56x56 : Shape := ⟨4, ![32, 128, 56, 56]⟩
abbrev S256x128x3x3 : Shape := ⟨4, ![256, 128, 3, 3]⟩
abbrev S256 : Shape := ⟨1, ![256]⟩
abbrev S_ : Shape := ⟨0, ![]⟩

class Facts : Prop where
  bcast_S_S32x128x56x56 : S_.BroadcastsInDim S32x128x56x56 (![] : Fin 0 → Fin S32x128x56x56.rank)
  reducesTo_S32x128x56x56_S_d0_1_2_3 : S32x128x56x56.ReducesTo [0, 1, 2, 3] S_
  h_S_ : 0 < S_.numel
  bcast_S_S256x128x3x3 : S_.BroadcastsInDim S256x128x3x3 (![] : Fin 0 → Fin S256x128x3x3.rank)
  reducesTo_S256x128x3x3_S_d0_1_2_3 : S256x128x3x3.ReducesTo [0, 1, 2, 3] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S32x128x56x56 .f32) (main_arg1 : FVec F S256x128x3x3 .f32) (main_arg2 : FVec F S256 .f32) (main_arg3 : FVec F S256 .f32) : IVec S_ 1 :=
  let main_v0 : FVec F S32x128x56x56 .f32 := Host.absf main_arg0
  let main_cst : FVec F S_ .f32 := constant S_ .f32 0x7F800000#32
  let main_v1 : FVec F S32x128x56x56 .f32 := broadcastInDim S32x128x56x56 ![] bcast_S_S32x128x56x56 main_cst
  let main_v2 : IVec S32x128x56x56 1 := cmpf .olt main_v0 main_v1
  let main_c : IVec S_ 1 := constantI S_ 1 1#1
  let main_v3 : IVec S_ 1 := (fun x v => Host.reduce IntOp.andi x v reducesTo_S32x128x56x56_S_d0_1_2_3 h_S_) main_v2 main_c
  let main_v4 : FVec F S256x128x3x3 .f32 := Host.absf main_arg1
  let main_cst_0 : FVec F S_ .f32 := constant S_ .f32 0x7F800000#32
  let main_v5 : FVec F S256x128x3x3 .f32 := broadcastInDim S256x128x3x3 ![] bcast_S_S256x128x3x3 main_cst_0
  let main_v6 : IVec S256x128x3x3 1 := cmpf .olt main_v4 main_v5
  let main_c_1 : IVec S_ 1 := constantI S_ 1 1#1
  let main_v7 : IVec S_ 1 := (fun x v => Host.reduce IntOp.andi x v reducesTo_S256x128x3x3_S_d0_1_2_3 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S32x128x56x56 : Shape := ⟨4, ![32, 128, 56, 56]⟩
abbrev S256x128x3x3 : Shape := ⟨4, ![256, 128, 3, 3]⟩
abbrev S256 : Shape := ⟨1, ![256]⟩
abbrev S32x56x56x128 : Shape := ⟨4, ![32, 56, 56, 128]⟩
abbrev S3x3x128x256 : Shape := ⟨4, ![3, 3, 128, 256]⟩
abbrev S1152x256 : Shape := ⟨2, ![1152, 256]⟩
abbrev S32x3136x256 : Shape := ⟨3, ![32, 3136, 256]⟩
abbrev S16x2x256 : Shape := ⟨3, ![16, 2, 256]⟩
abbrev S2x56x56x128 : Shape := ⟨4, ![2, 56, 56, 128]⟩
abbrev S2x3136x256 : Shape := ⟨3, ![2, 3136, 256]⟩
abbrev S1x2x256 : Shape := ⟨3, ![1, 2, 256]⟩
abbrev S56x1x128 : Shape := ⟨3, ![56, 1, 128]⟩
abbrev S1x58x128 : Shape := ⟨3, ![1, 58, 128]⟩
abbrev S1x56x56x128 : Shape := ⟨4, ![1, 56, 56, 128]⟩
abbrev S56x56x128 : Shape := ⟨3, ![56, 56, 128]⟩
abbrev S56x58x128 : Shape := ⟨3, ![56, 58, 128]⟩
abbrev S58x58x128 : Shape := ⟨3, ![58, 58, 128]⟩
abbrev S58x56x128 : Shape := ⟨3, ![58, 56, 128]⟩
abbrev S3136x128 : Shape := ⟨2, ![3136, 128]⟩
abbrev S3136x1152 : Shape := ⟨2, ![3136, 1152]⟩
abbrev S6272x1152 : Shape := ⟨2, ![6272, 1152]⟩
abbrev S6272x256 : Shape := ⟨2, ![6272, 256]⟩
abbrev S1x256 : Shape := ⟨2, ![1, 256]⟩
abbrev S1x1x256 : Shape := ⟨3, ![1, 1, 256]⟩
abbrev S4x3136x256 : Shape := ⟨3, ![4, 3136, 256]⟩
abbrev S2x256 : Shape := ⟨2, ![2, 256]⟩
abbrev S32x56x56x256 : Shape := ⟨4, ![32, 56, 56, 256]⟩
abbrev S32x256x56x56 : Shape := ⟨4, ![32, 256, 56, 56]⟩

abbrev nBuf : Space → Nat
  | .hbm => 15
  | .vmem => 14
  | .smem => 0
  | _ => 0

abbrev bufTy : (tb : Table) → Fin (tcTables nBuf tb) → BufTy
  | .hbm, ⟨0, _⟩ => ⟨S32x128x56x56, .f32⟩
  | .hbm, ⟨1, _⟩ => ⟨S256x128x3x3, .f32⟩
  | .hbm, ⟨2, _⟩ => ⟨S256, .f32⟩
  | .hbm, ⟨3, _⟩ => ⟨S256, .f32⟩
  | .hbm, ⟨4, _⟩ => ⟨S32x56x56x128, .f32⟩
  | .hbm, ⟨5, _⟩ => ⟨S3x3x128x256, .f32⟩
  | .hbm, ⟨6, _⟩ => ⟨S1152x256, .f32⟩
  | .hbm, ⟨7, _⟩ => ⟨S1152x256, .bf16⟩
  | .hbm, ⟨8, _⟩ => ⟨S32x3136x256, .bf16⟩
  | .hbm, ⟨9, _⟩ => ⟨S16x2x256, .f32⟩
  | .hbm, ⟨10, _⟩ => ⟨S1x256, .f32⟩
  | .hbm, ⟨11, _⟩ => ⟨S1x256, .f32⟩
  | .hbm, ⟨12, _⟩ => ⟨S32x3136x256, .f32⟩
  | .hbm, ⟨13, _⟩ => ⟨S32x56x56x256, .f32⟩
  | .hbm, ⟨14, _⟩ => ⟨S32x256x56x56, .f32⟩
  | .local _ .vmem, ⟨0, _⟩ => ⟨S2x56x56x128, .f32⟩
  | .local _ .vmem, ⟨1, _⟩ => ⟨S2x56x56x128, .f32⟩
  | .local _ .vmem, ⟨2, _⟩ => ⟨S1152x256, .bf16⟩
  | .local _ .vmem, ⟨3, _⟩ => ⟨S2x3136x256, .bf16⟩
  | .local _ .vmem, ⟨4, _⟩ => ⟨S2x3136x256, .bf16⟩
  | .local _ .vmem, ⟨5, _⟩ => ⟨S1x2x256, .f32⟩
  | .local _ .vmem, ⟨6, _⟩ => ⟨S1x2x256, .f32⟩
  | .local _ .vmem, ⟨7, _⟩ => ⟨S4x3136x256, .bf16⟩
  | .local _ .vmem, ⟨8, _⟩ => ⟨S4x3136x256, .bf16⟩
  | .local _ .vmem, ⟨9, _⟩ => ⟨S16x2x256, .f32⟩
  | .local _ .vmem, ⟨10, _⟩ => ⟨S1x256, .f32⟩
  | .local _ .vmem, ⟨11, _⟩ => ⟨S1x256, .f32⟩
  | .local _ .vmem, ⟨12, _⟩ => ⟨S4x3136x256, .f32⟩
  | .local _ .vmem, ⟨13, _⟩ => ⟨S4x3136x256, .f32⟩
  | _, _ => ⟨S32x128x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x56x56x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1152x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x3136x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S4x3136x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x2x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4x3136x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  transposes_S32x128x56x56_S32x56x56x128_0_2_3_1 : S32x128x56x56.Transposes [0, 2, 3, 1] S32x56x56x128
  transposes_S256x128x3x3_S3x3x128x256_2_3_1_0 : S256x128x3x3.Transposes [2, 3, 1, 0] S3x3x128x256
  shapeCasts_S3x3x128x256_S1152x256 : S3x3x128x256.ShapeCasts S1152x256
  bitsLt_bf16_f32 : FTy.bits .bf16 < FTy.bits .f32
  inb_S2x56x56x128_S1x56x56x128_0_0_0_0 : ∀ a, (![0, 0, 0, 0] : Fin 4 → Nat) a + S1x56x56x128.size a ≤ S2x56x56x128.size a
  h_S1x56x56x128 : 0 < S1x56x56x128.numel
  shapeCasts_S1x56x56x128_S56x56x128 : S1x56x56x128.ShapeCasts S56x56x128
  concatenates_S56x1x128_S56x56x128_S56x1x128_S56x58x128_d1 : Shape.Concatenates [S56x1x128, S56x56x128, S56x1x128] S56x58x128 1
  concatenates_S1x58x128_S56x58x128_S1x58x128_S58x58x128_d0 : Shape.Concatenates [S1x58x128, S56x58x128, S1x58x128] S58x58x128 0
  slices_S58x58x128_o0_0_0_S58x56x128 : S58x58x128.Slices ![0, 0, 0] S58x56x128
  slices_S58x58x128_o0_1_0_S58x56x128 : S58x58x128.Slices ![0, 1, 0] S58x56x128
  slices_S58x58x128_o0_2_0_S58x56x128 : S58x58x128.Slices ![0, 2, 0] S58x56x128
  slices_S58x56x128_o0_0_0_S56x56x128 : S58x56x128.Slices ![0, 0, 0] S56x56x128
  shapeCasts_S56x56x128_S3136x128 : S56x56x128.ShapeCasts S3136x128
  slices_S58x56x128_o1_0_0_S56x56x128 : S58x56x128.Slices ![1, 0, 0] S56x56x128
  slices_S58x56x128_o2_0_0_S56x56x128 : S58x56x128.Slices ![2, 0, 0] S56x56x128
  concatenates_S3136x128_S3136x128_S3136x128_S3136x128_S3136x128_S3136x128_S3136x128_S3136x128_S3136x128_S3136x1152_d1 : Shape.Concatenates [S3136x128, S3136x128, S3136x128, S3136x128, S3136x128, S3136x128, S3136x128, S3136x128, S3136x128] S3136x1152 1
  inb_S2x56x56x128_S1x56x56x128_1_0_0_0 : ∀ a, (![1, 0, 0, 0] : Fin 4 → Nat) a + S1x56x56x128.size a ≤ S2x56x56x128.size a
  concatenates_S3136x1152_S3136x1152_S6272x1152_d0 : Shape.Concatenates [S3136x1152, S3136x1152] S6272x1152 0
  inb_S1152x256_S1152x256_0_0 : ∀ a, (![0, 0] : Fin 2 → Nat) a + S1152x256.size a ≤ S1152x256.size a
  h_S1152x256 : 0 < S1152x256.numel
  shapeCasts_S1152x256_S1152x256 : S1152x256.ShapeCasts S1152x256
  shapeCasts_S6272x256_S2x3136x256 : S6272x256.ShapeCasts S2x3136x256
  inb_S2x3136x256_S2x3136x256_0_0_0 : ∀ a, (![0, 0, 0] : Fin 3 → Nat) a + S2x3136x256.size a ≤ S2x3136x256.size a
  h_S2x3136x256 : 0 < S2x3136x256.numel
  packedbf16_S2x3136x256_S2x3136x256_0_0_0 : (Rect.unit (s := S2x3136x256) ![0, 0, 0] S2x3136x256.size inb_S2x3136x256_S2x3136x256_0_0_0).PackedRows (EltTy.packing .bf16)
  reduces_S6272x256_S256 : S6272x256.Reduces [0] S256
  shapeCasts_S256_S1x256 : S256.ShapeCasts S1x256
  inb_S1x2x256_S1x1x256_0_0_0 : ∀ a, (![0, 0, 0] : Fin 3 → Nat) a + S1x1x256.size a ≤ S1x2x256.size a
  h_S1x1x256 : 0 < S1x1x256.numel
  shapeCasts_S1x1x256_S1x256 : S1x1x256.ShapeCasts S1x256
  shapeCasts_S1x256_S1x1x256 : S1x256.ShapeCasts S1x1x256
  inb_S1x2x256_S1x1x256_0_1_0 : ∀ a, (![0, 1, 0] : Fin 3 → Nat) a + S1x1x256.size a ≤ S1x2x256.size a
  inb_S16x2x256_S16x2x256_0_0_0 : ∀ a, (![0, 0, 0] : Fin 3 → Nat) a + S16x2x256.size a ≤ S16x2x256.size a
  h_S16x2x256 : 0 < S16x2x256.numel
  shapeCasts_S16x2x256_S16x2x256 : S16x2x256.ShapeCasts S16x2x256
  reduces_S16x2x256_S2x256 : S16x2x256.Reduces [0] S2x256
  slices_S2x256_o0_0_S1x256 : S2x256.Slices ![0, 0] S1x256
  slices_S2x256_o1_0_S1x256 : S2x256.Slices ![1, 0] S1x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S4x3136x256_S4x3136x256_0_0_0 : ∀ a, (![0, 0, 0] : Fin 3 → Nat) a + S4x3136x256.size a ≤ S4x3136x256.size a
  h_S4x3136x256 : 0 < S4x3136x256.numel
  shapeCasts_S4x3136x256_S4x3136x256 : S4x3136x256.ShapeCasts S4x3136x256
  broadcasts_S1x1x256_S4x3136x256 : S1x1x256.Broadcasts S4x3136x256
  shapeCasts_S32x3136x256_S32x56x56x256 : S32x3136x256.ShapeCasts S32x56x56x256
  transposes_S32x56x56x256_S32x256x56x56_0_3_1_2 : S32x56x56x256.Transposes [0, 3, 1, 2] S32x256x56x56
  dot_S6272x1152_S1152x256_S6272x256_1_0_0_1_n_n_wf : DotDims.WF S6272x1152 S1152x256 S6272x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x56x56x128.size a ≤ S32x56x56x128.size a
  hwx0_0 : ∀ i : grid0.Coords, EltTy.bits .f32 = 32 ∨ (Rect.block (s := S32x56x56x128) S2x56x56x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1152x256.size a ≤ S1152x256.size a
  hwx0_1 : ∀ i : grid0.Coords, EltTy.bits .bf16 = 32 ∨ (Rect.block (s := S1152x256) S1152x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x3136x256.size a ≤ S32x3136x256.size a
  hwx0_2 : ∀ i : grid0.Coords, EltTy.bits .bf16 = 32 ∨ (Rect.block (s := S32x3136x256) S2x3136x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2x256.size a ≤ S16x2x256.size a
  hwx0_3 : ∀ i : grid0.Coords, EltTy.bits .f32 = 32 ∨ (Rect.block (s := S16x2x256) S1x2x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x3136x256.size a ≤ S32x3136x256.size a
  hwx1_0 : ∀ i : grid1.Coords, EltTy.bits .bf16 = 32 ∨ (Rect.block (s := S32x3136x256) S4x3136x256.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x2x256.size a ≤ S16x2x256.size a
  hwx1_1 : ∀ i : grid1.Coords, EltTy.bits .f32 = 32 ∨ (Rect.block (s := S16x2x256) S16x2x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4x3136x256.size a ≤ S32x3136x256.size a
  hwx1_4 : ∀ i : grid1.Coords, EltTy.bits .f32 = 32 ∨ (Rect.block (s := S32x3136x256) S4x3136x256.size (cc1_transform_4 i) (hinb1_4 i)).WholeWords (EltTy.packing .f32)

variable [Facts₀]

def dot_S6272x1152_S1152x256_S6272x256_1_0_0_1_n_n : DotDims S6272x1152 S1152x256 S6272x256 where
  lhsContracting := [1]
  rhsContracting := [0]
  lhsNonContracting := [0]
  rhsNonContracting := [1]
  lhsBatch := []
  rhsBatch := []
  wf := dot_S6272x1152_S1152x256_S6272x256_1_0_0_1_n_n_wf

abbrev win0_0 : Pipeline.Window sig grid0 :=
  Pipeline.Window.ofSpec (Memref.whole main_v0) S2x56x56x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1152x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4_0) S2x3136x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4_1) S1x2x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v4_0) S4x3136x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4_1) S16x2x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S4x3136x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S32x128x56x56 : Shape := ⟨4, ![32, 128, 56, 56]⟩
abbrev S256x128x3x3 : Shape := ⟨4, ![256, 128, 3, 3]⟩
abbrev S256 : Shape := ⟨1, ![256]⟩
abbrev S32x56x56x128 : Shape := ⟨4, ![32, 56, 56, 128]⟩
abbrev S_ : Shape := ⟨0, ![]⟩
abbrev S32x58x58x128 : Shape := ⟨4, ![32, 58, 58, 128]⟩
abbrev S3x3x128x256 : Shape := ⟨4, ![3, 3, 128, 256]⟩
abbrev S9x128x256 : Shape := ⟨3, ![9, 128, 256]⟩
abbrev S100352x256 : Shape := ⟨2, ![100352, 256]⟩
abbrev S32x2x256 : Shape := ⟨3, ![32, 2, 256]⟩
abbrev S1x58x58x128 : Shape := ⟨4, ![1, 58, 58, 128]⟩
abbrev S3136x256 : Shape := ⟨2, ![3136, 256]⟩
abbrev S1x2x256 : Shape := ⟨3, ![1, 2, 256]⟩
abbrev S1x56x56x128 : Shape := ⟨4, ![1, 56, 56, 128]⟩
abbrev S56x56x128 : Shape := ⟨3, ![56, 56, 128]⟩
abbrev S3136x128 : Shape := ⟨2, ![3136, 128]⟩
abbrev S1x128x256 : Shape := ⟨3, ![1, 128, 256]⟩
abbrev S128x256 : Shape := ⟨2, ![128, 256]⟩
abbrev S1x256 : Shape := ⟨2, ![1, 256]⟩
abbrev S1x1x256 : Shape := ⟨3, ![1, 1, 256]⟩
abbrev S2x256 : Shape := ⟨2, ![2, 256]⟩
abbrev S1024x256 : Shape := ⟨2, ![1024, 256]⟩
abbrev S32x3136x256 : Shape := ⟨3, ![32, 3136, 256]⟩
abbrev S32x56x56x256 : Shape := ⟨4, ![32, 56, 56, 256]⟩
abbrev S32x256x56x56 : Shape := ⟨4, ![32, 256, 56, 56]⟩

abbrev nBuf : Space → Nat
  | .hbm => 52
  | .vmem => 13
  | .smem => 0
  | _ => 0

abbrev bufTy : (tb : Table) → Fin (tcTables nBuf tb) → BufTy
  | .hbm, ⟨0, _⟩ => ⟨S32x128x56x56, .f32⟩
  | .hbm, ⟨1, _⟩ => ⟨S256x128x3x3, .f32⟩
  | .hbm, ⟨2, _⟩ => ⟨S256, .f32⟩
  | .hbm, ⟨3, _⟩ => ⟨S256, .f32⟩
  | .hbm, ⟨4, _⟩ => ⟨S32x56x56x128, .f32⟩
  | .hbm, ⟨5, _⟩ => ⟨S_, .i32⟩
  | .hbm, ⟨6, _⟩ => ⟨S_, .f32⟩
  | .hbm, ⟨7, _⟩ => ⟨S32x58x58x128, .f32⟩
  | .hbm, ⟨8, _⟩ => ⟨S3x3x128x256, .f32⟩
  | .hbm, ⟨9, _⟩ => ⟨S9x128x256, .f32⟩
  | .hbm, ⟨10, _⟩ => ⟨S_, .i32⟩
  | .hbm, ⟨11, _⟩ => ⟨S_, .f32⟩
  | .hbm, ⟨12, _⟩ => ⟨S9x128x256, .f32⟩
  | .hbm, ⟨13, _⟩ => ⟨S_, .f32⟩
  | .hbm, ⟨14, _⟩ => ⟨S_, .f32⟩
  | .hbm, ⟨15, _⟩ => ⟨S256, .f32⟩
  | .hbm, ⟨16, _⟩ => ⟨S_, .i32⟩
  | .hbm, ⟨17, _⟩ => ⟨S_, .f32⟩
  | .hbm, ⟨18, _⟩ => ⟨S256, .f32⟩
  | .hbm, ⟨19, _⟩ => ⟨S100352x256, .f32⟩
  | .hbm, ⟨20, _⟩ => ⟨S32x2x256, .f32⟩
  | .hbm, ⟨21, _⟩ => ⟨S_, .f32⟩
  | .hbm, ⟨22, _⟩ => ⟨S2x256, .f32⟩
  | .hbm, ⟨23, _⟩ => ⟨S1x256, .f32⟩
  | .hbm, ⟨24, _⟩ => ⟨S256, .f32⟩
  | .hbm, ⟨25, _⟩ => ⟨S_, .f32⟩
  | .hbm, ⟨26, _⟩ => ⟨S256, .f32⟩
  | .hbm, ⟨27, _⟩ => ⟨S256, .f32⟩
  | .hbm, ⟨28, _⟩ => ⟨S1x256, .f32⟩
  | .hbm, ⟨29, _⟩ => ⟨S256, .f32⟩
  | .hbm, ⟨30, _⟩ => ⟨S_, .f32⟩
  | .hbm, ⟨31, _⟩ => ⟨S256, .f32⟩
  | .hbm, ⟨32, _⟩ => ⟨S256, .f32⟩
  | .hbm, ⟨33, _⟩ => ⟨S256, .f32⟩
  | .hbm, ⟨34, _⟩ => ⟨S256, .f32⟩
  | .hbm, ⟨35, _⟩ => ⟨S_, .f32⟩
  | .hbm, ⟨36, _⟩ => ⟨S256, .f32⟩
  | .hbm, ⟨37, _⟩ => ⟨S256, .f32⟩
  | .hbm, ⟨38, _⟩ => ⟨S_, .f32⟩
  | .hbm, ⟨39, _⟩ => ⟨S256, .f32⟩
  | .hbm, ⟨40, _⟩ => ⟨S256, .f32⟩
  | .hbm, ⟨41, _⟩ => ⟨S256, .f32⟩
  | .hbm, ⟨42, _⟩ => ⟨S256, .f32⟩
  | .hbm, ⟨43, _⟩ => ⟨S1x256, .f32⟩
  | .hbm, ⟨44, _⟩ => ⟨S256, .f32⟩
  | .hbm, ⟨45, _⟩ => ⟨S256, .f32⟩
  | .hbm, ⟨46, _⟩ => ⟨S256, .f32⟩
  | .hbm, ⟨47, _⟩ => ⟨S1x256, .f32⟩
  | .hbm, ⟨48, _⟩ => ⟨S100352x256, .f32⟩
  | .hbm, ⟨49, _⟩ => ⟨S32x3136x256, .f32⟩
  | .hbm, ⟨50, _⟩ => ⟨S32x56x56x256, .f32⟩
  | .hbm, ⟨51, _⟩ => ⟨S32x256x56x56, .f32⟩
  | .local _ .vmem, ⟨0, _⟩ => ⟨S1x58x58x128, .f32⟩
  | .local _ .vmem, ⟨1, _⟩ => ⟨S1x58x58x128, .f32⟩
  | .local _ .vmem, ⟨2, _⟩ => ⟨S9x128x256, .f32⟩
  | .local _ .vmem, ⟨3, _⟩ => ⟨S3136x256, .f32⟩
  | .local _ .vmem, ⟨4, _⟩ => ⟨S3136x256, .f32⟩
  | .local _ .vmem, ⟨5, _⟩ => ⟨S1x2x256, .f32⟩
  | .local _ .vmem, ⟨6, _⟩ => ⟨S1x2x256, .f32⟩
  | .local _ .vmem, ⟨7, _⟩ => ⟨S1024x256, .f32⟩
  | .local _ .vmem, ⟨8, _⟩ => ⟨S1024x256, .f32⟩
  | .local _ .vmem, ⟨9, _⟩ => ⟨S1x256, .f32⟩
  | .local _ .vmem, ⟨10, _⟩ => ⟨S1x256, .f32⟩
  | .local _ .vmem, ⟨11, _⟩ => ⟨S1024x256, .f32⟩
  | .local _ .vmem, ⟨12, _⟩ => ⟨S1024x256, .f32⟩
  | _, _ => ⟨S32x128x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_call1_v0 : Ref sig .tc := ⟨.hbm, 11, rfl⟩
abbrev main_v4 : Ref sig .tc := ⟨.hbm, 12, rfl⟩
abbrev main_cst : Ref sig .tc := ⟨.hbm, 13, rfl⟩
abbrev main_call2_v0 : Ref sig .tc := ⟨.hbm, 14, rfl⟩
abbrev main_v5 : Ref sig .tc := ⟨.hbm, 15, rfl⟩
abbrev main_c_1 : Ref sig .tc := ⟨.hbm, 16, rfl⟩
abbrev main_call3_v0 : Ref sig .tc := ⟨.hbm, 17, rfl⟩
abbrev main_v6 : Ref sig .tc := ⟨.hbm, 18, rfl⟩
abbrev main_v7_0 : Ref sig .tc := ⟨.hbm, 19, rfl⟩
abbrev main_v7_1 : Ref sig .tc := ⟨.hbm, 20, rfl⟩
abbrev main_cst_2 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_3 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_4 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_5 : Ref sig .tc := ⟨.hbm, 35, rfl⟩
abbrev main_v19 : Ref sig .tc := ⟨.hbm, 36, rfl⟩
abbrev main_v20 : Ref sig .tc := ⟨.hbm, 37, rfl⟩
abbrev main_cst_6 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x58x58x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9x128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S3136x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![98], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  transposes_S32x128x56x56_S32x56x56x128_0_2_3_1 : S32x128x56x56.Transposes [0, 2, 3, 1] S32x56x56x128
  pads_S32x56x56x128_S32x58x58x128_000_110_110_000 : S32x56x56x128.Pads (![0, 1, 1, 0] : Fin 4 → Nat) ![0, 1, 1, 0] ![0, 0, 0, 0] S32x58x58x128
  h_S_ : 0 < S_.numel
  transposes_S256x128x3x3_S3x3x128x256_2_3_1_0 : S256x128x3x3.Transposes [2, 3, 1, 0] S3x3x128x256
  shapeCasts_S3x3x128x256_S9x128x256 : S3x3x128x256.ShapeCasts S9x128x256
  pads_S9x128x256_S9x128x256_000_000_000 : S9x128x256.Pads (![0, 0, 0] : Fin 3 → Nat) ![0, 0, 0] ![0, 0, 0] S9x128x256
  pads_S256_S256_000 : S256.Pads (![0] : Fin 1 → Nat) ![0] ![0] S256
  inb_S1x58x58x128_S1x56x56x128_0_0_0_0 : ∀ a, (![0, 0, 0, 0] : Fin 4 → Nat) a + S1x56x56x128.size a ≤ S1x58x58x128.size a
  h_S1x56x56x128 : 0 < S1x56x56x128.numel
  shapeCasts_S1x56x56x128_S56x56x128 : S1x56x56x128.ShapeCasts S56x56x128
  shapeCasts_S56x56x128_S3136x128 : S56x56x128.ShapeCasts S3136x128
  inb_S9x128x256_S1x128x256_0_0_0 : ∀ a, (![0, 0, 0] : Fin 3 → Nat) a + S1x128x256.size a ≤ S9x128x256.size a
  h_S1x128x256 : 0 < S1x128x256.numel
  shapeCasts_S1x128x256_S128x256 : S1x128x256.ShapeCasts S128x256
  inb_S1x58x58x128_S1x56x56x128_0_0_1_0 : ∀ a, (![0, 0, 1, 0] : Fin 4 → Nat) a + S1x56x56x128.size a ≤ S1x58x58x128.size a
  inb_S9x128x256_S1x128x256_1_0_0 : ∀ a, (![1, 0, 0] : Fin 3 → Nat) a + S1x128x256.size a ≤ S9x128x256.size a
  inb_S1x58x58x128_S1x56x56x128_0_0_2_0 : ∀ a, (![0, 0, 2, 0] : Fin 4 → Nat) a + S1x56x56x128.size a ≤ S1x58x58x128.size a
  inb_S9x128x256_S1x128x256_2_0_0 : ∀ a, (![2, 0, 0] : Fin 3 → Nat) a + S1x128x256.size a ≤ S9x128x256.size a
  inb_S1x58x58x128_S1x56x56x128_0_1_0_0 : ∀ a, (![0, 1, 0, 0] : Fin 4 → Nat) a + S1x56x56x128.size a ≤ S1x58x58x128.size a
  inb_S9x128x256_S1x128x256_3_0_0 : ∀ a, (![3, 0, 0] : Fin 3 → Nat) a + S1x128x256.size a ≤ S9x128x256.size a
  inb_S1x58x58x128_S1x56x56x128_0_1_1_0 : ∀ a, (![0, 1, 1, 0] : Fin 4 → Nat) a + S1x56x56x128.size a ≤ S1x58x58x128.size a
  inb_S9x128x256_S1x128x256_4_0_0 : ∀ a, (![4, 0, 0] : Fin 3 → Nat) a + S1x128x256.size a ≤ S9x128x256.size a
  inb_S1x58x58x128_S1x56x56x128_0_1_2_0 : ∀ a, (![0, 1, 2, 0] : Fin 4 → Nat) a + S1x56x56x128.size a ≤ S1x58x58x128.size a
  inb_S9x128x256_S1x128x256_5_0_0 : ∀ a, (![5, 0, 0] : Fin 3 → Nat) a + S1x128x256.size a ≤ S9x128x256.size a
  inb_S1x58x58x128_S1x56x56x128_0_2_0_0 : ∀ a, (![0, 2, 0, 0] : Fin 4 → Nat) a + S1x56x56x128.size a ≤ S1x58x58x128.size a
  inb_S9x128x256_S1x128x256_6_0_0 : ∀ a, (![6, 0, 0] : Fin 3 → Nat) a + S1x128x256.size a ≤ S9x128x256.size a
  inb_S1x58x58x128_S1x56x56x128_0_2_1_0 : ∀ a, (![0, 2, 1, 0] : Fin 4 → Nat) a + S1x56x56x128.size a ≤ S1x58x58x128.size a
  inb_S9x128x256_S1x128x256_7_0_0 : ∀ a, (![7, 0, 0] : Fin 3 → Nat) a + S1x128x256.size a ≤ S9x128x256.size a
  inb_S1x58x58x128_S1x56x56x128_0_2_2_0 : ∀ a, (![0, 2, 2, 0] : Fin 4 → Nat) a + S1x56x56x128.size a ≤ S1x58x58x128.size a
  inb_S9x128x256_S1x128x256_8_0_0 : ∀ a, (![8, 0, 0] : Fin 3 → Nat) a + S1x128x256.size a ≤ S9x128x256.size a
  inb_S3136x256_S3136x256_0_0 : ∀ a, (![0, 0] : Fin 2 → Nat) a + S3136x256.size a ≤ S3136x256.size a
  h_S3136x256 : 0 < S3136x256.numel
  reduces_S3136x256_S256 : S3136x256.Reduces [0] S256
  shapeCasts_S256_S1x256 : S256.ShapeCasts S1x256
  inb_S1x2x256_S1x1x256_0_0_0 : ∀ a, (![0, 0, 0] : Fin 3 → Nat) a + S1x1x256.size a ≤ S1x2x256.size a
  h_S1x1x256 : 0 < S1x1x256.numel
  shapeCasts_S1x1x256_S1x256 : S1x1x256.ShapeCasts S1x256
  shapeCasts_S1x256_S1x1x256 : S1x256.ShapeCasts S1x1x256
  inb_S1x2x256_S1x1x256_0_1_0 : ∀ a, (![0, 1, 0] : Fin 3 → Nat) a + S1x1x256.size a ≤ S1x2x256.size a
  reducesTo_S32x2x256_S2x256_d0 : S32x2x256.ReducesTo [0] S2x256
  slices_S2x256_S1x256_0_0 : S2x256.Slices ![0, 0] S1x256
  shapeCasts_S1x256_S256 : S1x256.ShapeCasts S256
  bcast_S_S256 : S_.BroadcastsInDim S256 (![] : Fin 0 → Fin S256.rank)
  slices_S2x256_S1x256_1_0 : S2x256.Slices ![1, 0] S1x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  shapeCasts_S100352x256_S32x3136x256 : S100352x256.ShapeCasts S32x3136x256
  shapeCasts_S32x3136x256_S32x56x56x256 : S32x3136x256.ShapeCasts S32x56x56x256
  transposes_S32x56x56x256_S32x256x56x56_0_3_1_2 : S32x56x56x256.Transposes [0, 3, 1, 2] S32x256x56x56
  dot_S3136x128_S128x256_S3136x256_1_0_0_1_n_n_wf : DotDims.WF S3136x128 S128x256 S3136x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x58x58x128.size a ≤ S32x58x58x128.size a
  hwx0_0 : ∀ i : grid0.Coords, EltTy.bits .f32 = 32 ∨ (Rect.block (s := S32x58x58x128) S1x58x58x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S9x128x256.size a ≤ S9x128x256.size a
  hwx0_1 : ∀ i : grid0.Coords, EltTy.bits .f32 = 32 ∨ (Rect.block (s := S9x128x256) S9x128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3136x256.size a ≤ S100352x256.size a
  hwx0_2 : ∀ i : grid0.Coords, EltTy.bits .f32 = 32 ∨ (Rect.block (s := S100352x256) S3136x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2x256.size a ≤ S32x2x256.size a
  hwx0_3 : ∀ i : grid0.Coords, EltTy.bits .f32 = 32 ∨ (Rect.block (s := S32x2x256) S1x2x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S100352x256.size a
  hwx1_0 : ∀ i : grid1.Coords, EltTy.bits .f32 = 32 ∨ (Rect.block (s := S100352x256) S1024x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x256.size a ≤ S100352x256.size a
  hwx1_3 : ∀ i : grid1.Coords, EltTy.bits .f32 = 32 ∨ (Rect.block (s := S100352x256) S1024x256.size (cc1_transform_3 i) (hinb1_3 i)).WholeWords (EltTy.packing .f32)

variable [Facts₀]

def dot_S3136x128_S128x256_S3136x256_1_0_0_1_n_n : DotDims S3136x128 S128x256 S3136x256 where
  lhsContracting := [1]
  rhsContracting := [0]
  lhsNonContracting := [0]
  rhsNonContracting := [1]
  lhsBatch := []
  rhsBatch := []
  wf := dot_S3136x128_S128x256_S3136x256_1_0_0_1_n_n_wf

abbrev win0_0 : Pipeline.Window sig grid0 :=
  Pipeline.Window.ofSpec (Memref.whole main_v1) S1x58x58x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S9x128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7_0) S3136x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7_1) S1x2x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v7_0) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v29) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S1024x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== Proof.Spec.lean ====
/-
  The mathematics of the block "3×3 convolution (stride 1, zero padding 1) → batch normalisation with
  batch statistics → hard-swish", written over arrays of extended reals read at natural-number
  coordinates (an entry outside the array reads as zero, which is exactly what the zero padding of the
  image asks for).  Nothing here mentions a program.

  * The convolution at image n, pixel (h, w), output channel o is the sum over the nine taps
    (di, dj) and the 128 input channels ci of  xpad(n, h+di, w+dj, ci) · W(o, ci, di, dj),
    where xpad is the image with a one-pixel border of zeros.  It is written twice: with the nine taps
    added one after the other, each tap a sum over the input channels (convTaps), and as one sum over
    the 1152 positions k = (3·di + dj)·128 + ci of a row of the patch matrix (convFlat).
  * The statistics are the sums of the convolution, and of its square, over all images and pixels:
    once grouped image by image (32 images of 3136 pixels), once grouped by pairs of images
    (16 pairs of 6272 rows).
  * From the two sums: the mean, the clamped variance, the inverse standard deviation, the scale
    γ·istd and the shift β − mean·γ·istd (associated either way), and the hard-swish of the
    normalised value.
-/
import Idealize.ShloMosaic.PureOps.Ideal
import Idealize.ShloMosaic.Lib.ValueIdx

noncomputable section

namespace Cert.Spec

open Idealize.ShloMosaic Idealize.ShloMosaic.ValueIdx

/-! ## Arrays read at natural-number coordinates -/

/-- A vector read at a natural number: the entry when in range, zero otherwise. -/
def at1 {a : ℕ} (A : (⟨1, ![a]⟩ : Shape).Idx → EReal) (p : ℕ) : EReal :=
  if h : p < a then A (ix1 ⟨p, h⟩) else 0

/-- A matrix read at natural numbers: the entry when in range, zero otherwise. -/
def at2 {a b : ℕ} (A : (⟨2, ![a, b]⟩ : Shape).Idx → EReal) (p q : ℕ) : EReal :=
  if h : p < a ∧ q < b then A (ix2 ⟨p, h.1⟩ ⟨q, h.2⟩) else 0

/-- A rank-3 array read at natural numbers: the entry when in range, zero otherwise. -/
def at3 {a b c : ℕ} (A : (⟨3, ![a, b, c]⟩ : Shape).Idx → EReal) (p q r : ℕ) : EReal :=
  if h : p < a ∧ q < b ∧ r < c then A (ix3 ⟨p, h.1⟩ ⟨q, h.2.1⟩ ⟨r, h.2.2⟩) else 0

/-- A rank-4 array read at natural numbers: the entry when in range, zero otherwise. -/
def at4 {a b c d : ℕ} (A : (⟨4, ![a, b, c, d]⟩ : Shape).Idx → EReal) (p q r s : ℕ) : EReal :=
  if h : p < a ∧ q < b ∧ r < c ∧ s < d then A (ix4 ⟨p, h.1⟩ ⟨q, h.2.1⟩ ⟨r, h.2.2.1⟩ ⟨s, h.2.2.2⟩) else 0

theorem at1_fin {a : ℕ} (A : (⟨1, ![a]⟩ : Shape).Idx → EReal) (p : Fin a) : at1 A p.val = A (ix1 p) := by
  unfold at1; rw [dif_pos p.isLt]

theorem at2_fin {a b : ℕ} (A : (⟨2, ![a, b]⟩ : Shape).Idx → EReal) (p : Fin a) (q : Fin b) :
    at2 A p.val q.val = A (ix2 p q) := by
  unfold at2; rw [dif_pos ⟨p.isLt, q.isLt⟩]

theorem at3_fin {a b c : ℕ} (A : (⟨3, ![a, b, c]⟩ : Shape).Idx → EReal) (p : Fin a) (q : Fin b) (r : Fin c) :
    at3 A p.val q.val r.val = A (ix3 p q r) := by
  unfold at3; rw [dif_pos ⟨p.isLt, q.isLt, r.isLt⟩]

theorem at4_fin {a b c d : ℕ} (A : (⟨4, ![a, b, c, d]⟩ : Shape).Idx → EReal) (p : Fin a) (q : Fin b) (r : Fin c)
    (s : Fin d) : at4 A p.val q.val r.val s.val = A (ix4 p q r s) := by
  unfold at4; rw [dif_pos ⟨p.isLt, q.isLt, r.isLt, s.isLt⟩]

/-! ## The convolution -/

/-- The image in channel-first layout (image, channel, row, column) with a border of zeros one pixel wide: row and
    column run over 0 … 57, the interior 1 … 56 holding the image. -/
def xpad (X : (⟨4, ![32, 128, 56, 56]⟩ : Shape).Idx → EReal) (n i j c : ℕ) : EReal :=
  if 1 ≤ i ∧ 1 ≤ j then at4 X n c (i - 1) (j - 1) else 0

/-- One product of the convolution: padded pixel (h + di, w + dj), input channel ci, times the weight of
    output channel o at (ci, di, dj). -/
def term (X : (⟨4, ![32, 128, 56, 56]⟩ : Shape).Idx → EReal) (Wt : (⟨4, ![256, 128, 3, 3]⟩ : Shape).Idx → EReal)
    (n h w o di dj ci : ℕ) : EReal :=
  xpad X n (h + di) (w + dj) ci * at4 Wt o ci di dj

/-- One tap: the products over the 128 input channels. -/
def tap (X : (⟨4, ![32, 128, 56, 56]⟩ : Shape).Idx → EReal) (Wt : (⟨4, ![256, 128, 3, 3]⟩ : Shape).Idx → EReal)
    (n h w o di dj : ℕ) : EReal :=
  ∑ ci : Fin 128, term X Wt n h w o di dj ci.val

/-- The convolution with the nine taps added one after the other, rows of the stencil first. -/
def convTaps (X : (⟨4, ![32, 128, 56, 56]⟩ : Shape).Idx → EReal) (Wt : (⟨4, ![256, 128, 3, 3]⟩ : Shape).Idx → EReal)
    (n h w o : ℕ) : EReal :=
  tap X Wt n h w o 0 0 + tap X Wt n h w o 0 1 + tap X Wt n h w o 0 2
    + tap X Wt n h w o 1 0 + tap X Wt n h w o 1 1 + tap X Wt n h w o 1 2
    + tap X Wt n h w o 2 0 + tap X Wt n h w o 2 1 + tap X Wt n h w o 2 2

/-- The convolution as ONE sum over the 1152 positions of a patch row: position k holds tap k / 128
    (row k / 128 / 3 and column k / 128 % 3 of the stencil) and input channel k % 128. -/
def convFlat (X : (⟨4, ![32, 128, 56, 56]⟩ : Shape).Idx → EReal) (Wt : (⟨4, ![256, 128, 3, 3]⟩ : Shape).Idx → EReal)
    (n h w o : ℕ) : EReal :=
  ∑ k : Fin 1152, term X Wt n h w o (k.val / 128 / 3) (k.val / 128 % 3) (k.val % 128)

/-! ## The statistics -/

/-- A sum of f(convolution) over all images and pixels, image by image: pixel p is (p / 56, p % 56). -/
def sumByImage (f : EReal → EReal) (X : (⟨4, ![32, 128, 56, 56]⟩ : Shape).Idx → EReal)
    (Wt : (⟨4, ![256, 128, 3, 3]⟩ : Shape).Idx → EReal) (o : ℕ) : EReal :=
  ∑ n : Fin 32, ∑ p : Fin 3136, f (convTaps X Wt n.val (p.val / 56) (p.val % 56) o)

/-- The same sum grouped by pairs of images: row r of pair g is pixel r % 3136 of image 2·g + r / 3136. -/
def sumByPair (f : EReal → EReal) (X : (⟨4, ![32, 128, 56, 56]⟩ : Shape).Idx → EReal)
    (Wt : (⟨4, ![256, 128, 3, 3]⟩ : Shape).Idx → EReal) (o : ℕ) : EReal :=
  ∑ g : Fin 16, ∑ r : Fin 6272,
    f (convFlat X Wt (g.val * 2 + r.val / 3136) (r.val % 3136 / 56) (r.val % 3136 % 56) o)

/-! ## Normalisation and activation -/

/-- 1 / (32 · 3136) as the single-precision literal both programs carry. -/
def invM : EReal := Ideal.ofBits .f32 0x37272F05#32
/-- The variance offset 1e-5 as the single-precision literal both programs carry. -/
def eps : EReal := Ideal.ofBits .f32 0x3727C5AC#32
def three : EReal := Ideal.ofBits .f32 0x40400000#32
def six : EReal := Ideal.ofBits .f32 0x40C00000#32
def sixth : EReal := Ideal.ofBits .f32 0x3E2AAAAB#32

/-- The mean from the sum. -/
def mean (s0 : EReal) : EReal := s0 * invM

/-- The inverse standard deviation from the sum and the sum of squares: the variance E[y²] − E[y]² clamped at zero,
    offset, inverse square root. -/
def istd (s0 s1 : EReal) : EReal := Ideal.rsqrt (max (s1 * invM - mean s0 * mean s0) 0 + eps)

/-- Hard-swish: z · min(6, max(0, z + 3)) · (1/6). -/
def hsw (z : EReal) : EReal := z * min six (max 0 (z + three)) * sixth

/-- The block's output at (image, channel, row, column), statistics image by image, the shift associated as
    β − (mean·γ)·istd. -/
def outByImage (X : (⟨4, ![32, 128, 56, 56]⟩ : Shape).Idx → EReal) (Wt : (⟨4, ![256, 128, 3, 3]⟩ : Shape).Idx → EReal)
    (G B : (⟨1, ![256]⟩ : Shape).Idx → EReal) : (⟨4, ![32, 256, 56, 56]⟩ : Shape).Idx → EReal := fun i =>
  let s0 := sumByImage (fun y => y) X Wt (i 1).val
  let s1 := sumByImage (fun y => y * y) X Wt (i 1).val
  hsw (convTaps X Wt (i 0).val (i 2).val (i 3).val (i 1).val * (at1 G (i 1).val * istd s0 s1)
        + (at1 B (i 1).val - mean s0 * at1 G (i 1).val * istd s0 s1))

/-- The block's output at (image, channel, row, column), statistics by pairs of images, the shift associated as
    β − mean·(γ·istd). -/
def outByPair (X : (⟨4, ![32, 128, 56, 56]⟩ : Shape).Idx → EReal) (Wt : (⟨4, ![256, 128, 3, 3]⟩ : Shape).Idx → EReal)
    (G B : (⟨1, ![256]⟩ : Shape).Idx → EReal) : (⟨4, ![32, 256, 56, 56]⟩ : Shape).Idx → EReal := fun i =>
  let s0 := sumByPair (fun y => y) X Wt (i 1).val
  let s1 := sumByPair (fun y => y * y) X Wt (i 1).val
  hsw (convFlat X Wt (i 0).val (i 2).val (i 3).val (i 1).val * (at1 G (i 1).val * istd s0 s1)
        + (at1 B (i 1).val - mean s0 * (at1 G (i 1).val * istd s0 s1)))

/-! ## The two programs' first passes, over the arrays each pass is handed

The pass that convolves is handed the image already moved to channel-last layout — bare in one program (the pass pads
it itself), padded in the other — and the weights already rearranged, as a 1152 × 256 matrix or as nine 128 × 256
matrices.  These are the convolution and the per-group sums written over THOSE arrays. -/

/-- A patch row over the bare channel-last image: position k of the row of pixel (h, w) holds padded pixel
    (h + k/128/3, w + k/128%3), channel k % 128 — zero on the border. -/
def patch (A : (⟨4, ![32, 56, 56, 128]⟩ : Shape).Idx → EReal) (n h w k : ℕ) : EReal :=
  if 1 ≤ h + k / 128 / 3 ∧ 1 ≤ w + k / 128 % 3 then at4 A n (h + k / 128 / 3 - 1) (w + k / 128 % 3 - 1) (k % 128) else 0

/-- The patch row times a column of the 1152 × 256 weight matrix. -/
def accFlat (A : (⟨4, ![32, 56, 56, 128]⟩ : Shape).Idx → EReal) (Bm : (⟨2, ![1152, 256]⟩ : Shape).Idx → EReal)
    (n h w o : ℕ) : EReal :=
  ∑ k : Fin 1152, patch A n h w k.val * at2 Bm k.val o

/-- The sum of f(accFlat) over the 6272 rows of pair g: row r is pixel r % 3136 of image 2·g + r / 3136. -/
def pairSum (f : EReal → EReal) (A : (⟨4, ![32, 56, 56, 128]⟩ : Shape).Idx → EReal)
    (Bm : (⟨2, ![1152, 256]⟩ : Shape).Idx → EReal) (g o : ℕ) : EReal :=
  ∑ r : Fin 6272, f (accFlat A Bm (g * 2 + r.val / 3136) (r.val % 3136 / 56) (r.val % 3136 % 56) o)

/-- Tap t over the PADDED channel-last image (32 × 58 × 58 × 128) and the nine 128 × 256 weight matrices. -/
def tapPadded (P : (⟨4, ![32, 58, 58, 128]⟩ : Shape).Idx → EReal) (Q : (⟨3, ![9, 128, 256]⟩ : Shape).Idx → EReal)
    (n h w o t : ℕ) : EReal :=
  ∑ ci : Fin 128, at4 P n (h + t / 3) (w + t % 3) ci.val * at3 Q t ci.val o

/-- The nine taps added one after the other. -/
def accTaps (P : (⟨4, ![32, 58, 58, 128]⟩ : Shape).Idx → EReal) (Q : (⟨3, ![9, 128, 256]⟩ : Shape).Idx → EReal)
    (n h w o : ℕ) : EReal :=
  tapPadded P Q n h w o 0 + tapPadded P Q n h w o 1 + tapPadded P Q n h w o 2
    + tapPadded P Q n h w o 3 + tapPadded P Q n h w o 4 + tapPadded P Q n h w o 5
    + tapPadded P Q n h w o 6 + tapPadded P Q n h w o 7 + tapPadded P Q n h w o 8

/-- The sum of f(accTaps) over the 3136 pixels of image n. -/
def imageSum (f : EReal → EReal) (P : (⟨4, ![32, 58, 58, 128]⟩ : Shape).Idx → EReal)
    (Q : (⟨3, ![9, 128, 256]⟩ : Shape).Idx → EReal) (n o : ℕ) : EReal :=
  ∑ p : Fin 3136, f (accTaps P Q n (p.val / 56) (p.val % 56) o)

end Cert.Spec

end
-- ==== Proof.LibSumBlocks.lean ====
/-
  Regrouping a finite sum by blocks.  A sum over `Fin n` with `n = a * b` is the sum over the `a`
  blocks of `b` consecutive positions of each block's sum: position `p * b + q` is the `q`-th of
  block `p`.  Valid in any commutative additive monoid (the extended reals included: no
  cancellation is used), because it is only a re-indexing along the bijection
  `Fin a × Fin b ≃ Fin (a * b)`.
-/
import Mathlib.Algebra.BigOperators.Fin
import Mathlib.Logic.Equiv.Fin.Basic

namespace LibSumBlocks

/-- Position `q` of block `p` lies below `a * b`. -/
theorem mul_add_lt {a b p q : ℕ} (hp : p < a) (hq : q < b) : p * b + q < a * b :=
  calc p * b + q < p * b + b := by omega
    _ = (p + 1) * b := by rw [Nat.add_mul, Nat.one_mul]
    _ ≤ a * b := Nat.mul_le_mul_right b hp

/-- A sum over `Fin n`, `n = a * b`, is the double sum over the block `p : Fin a` and the position
    `q : Fin b` inside it of the term at `p * b + q`. -/
theorem sum_fin_blocks {M : Type*} [AddCommMonoid M] {n : ℕ} (a b : ℕ) (hn : a * b = n) (f : Fin n → M) :
    ∑ i : Fin n, f i
      = ∑ p : Fin a, ∑ q : Fin b, f ⟨p.val * b + q.val, hn ▸ mul_add_lt p.isLt q.isLt⟩ := by
  subst hn
  rw [← Equiv.sum_comp finProdFinEquiv f, Fintype.sum_prod_type]
  refine Finset.sum_congr rfl fun p _ => Finset.sum_congr rfl fun q _ => ?_
  refine congrArg f (Fin.ext ?_)
  show q.val + b * p.val = p.val * b + q.val
  rw [Nat.mul_comm, Nat.add_comm]

/-- The same for a term that depends on the position only through its value. -/
theorem sum_fin_nat_blocks {M : Type*} [AddCommMonoid M] {n : ℕ} (a b : ℕ) (hn : a * b = n) (g : ℕ → M) :
    ∑ i : Fin n, g i.val = ∑ p : Fin a, ∑ q : Fin b, g (p.val * b + q.val) :=
  sum_fin_blocks a b hn fun i => g i.val

/-- Three levels: `n = a * b * c` positions as `a` blocks of `b` rows of `c` entries; entry `l` of row `r` of
    block `t` is position `(t * b + r) * c + l`. -/
theorem sum_fin_nat_blocks3 {M : Type*} [AddCommMonoid M] {n : ℕ} (a b c : ℕ) (hn : a * b * c = n) (g : ℕ → M) :
    ∑ i : Fin n, g i.val
      = ∑ t : Fin a, ∑ r : Fin b, ∑ l : Fin c, g ((t.val * b + r.val) * c + l.val) := by
  rw [sum_fin_nat_blocks (a * b) c hn g]
  exact sum_fin_nat_blocks a b rfl fun R => ∑ l : Fin c, g (R * c + l.val)

/-- A sum over `Finset.range N` of a function that, below `N`, is a function of the `Fin N` position: the two
    spellings of one sum. -/
theorem sum_range_eq_sum_fin {M : Type*} [AddCommMonoid M] (N : ℕ) (g : ℕ → M) (f : Fin N → M)
    (h : ∀ t : Fin N, g t.val = f t) : ∑ s ∈ Finset.range N, g s = ∑ t : Fin N, f t := by
  rw [← Fin.sum_univ_eq_sum_range]
  exact Finset.sum_congr rfl fun t _ => h t

end LibSumBlocks
-- ==== Proof.SpecAlgebra.lean ====
/-
  The two spellings of the block's mathematics are one function.

  * One sum over the 1152 positions of a patch row is the nine taps added one after the other: position
    k = t·128 + ci belongs to tap t = k / 128 and channel ci = k % 128, so the sum regroups into nine blocks of
    128, and a sum over nine indices is its nine terms added left to right.
  * The statistics grouped by pairs of images are the statistics grouped by images: row r = b·3136 + p of pair g is
    pixel p of image 2·g + b.
  * The shift β − mean·(γ·istd) is β − (mean·γ)·istd: multiplication of extended reals is associative.
  All three are re-indexings or associativity in a commutative monoid: no finiteness is needed.
-/
import proofs.«143499_g2000705972228531_pallasbulk_146_16_alg».proof.Proof.Spec
import proofs.«143499_g2000705972228531_pallasbulk_146_16_alg».proof.Proof.LibSumBlocks

noncomputable section

namespace Cert.Spec

open Idealize.ShloMosaic

/-- A sum over nine indices is its nine terms added left to right. -/
theorem sum_nine {M : Type*} [AddCommMonoid M] (F : ℕ → M) :
    ∑ t : Fin 9, F t.val = F 0 + F 1 + F 2 + F 3 + F 4 + F 5 + F 6 + F 7 + F 8 := by
  rw [Fin.sum_univ_castSucc, Fin.sum_univ_eight]; rfl

/-- The flat convolution is the convolution tap by tap. -/
theorem convFlat_eq_convTaps (X : (⟨4, ![32, 128, 56, 56]⟩ : Shape).Idx → EReal)
    (Wt : (⟨4, ![256, 128, 3, 3]⟩ : Shape).Idx → EReal) (n h w o : ℕ) :
    convFlat X Wt n h w o = convTaps X Wt n h w o := by
  unfold convFlat
  rw [LibSumBlocks.sum_fin_nat_blocks 9 128 (by norm_num)
    (fun k => term X Wt n h w o (k / 128 / 3) (k / 128 % 3) (k % 128))]
  have hk : ∀ (t : ℕ) (ci : Fin 128), (t * 128 + ci.val) / 128 = t ∧ (t * 128 + ci.val) % 128 = ci.val := by
    intro t ci; have := ci.isLt; constructor <;> omega
  have : ∀ t : Fin 9, (∑ ci : Fin 128, term X Wt n h w o ((t.val * 128 + ci.val) / 128 / 3)
      ((t.val * 128 + ci.val) / 128 % 3) ((t.val * 128 + ci.val) % 128))
      = tap X Wt n h w o (t.val / 3) (t.val % 3) := by
    intro t
    unfold tap
    refine Finset.sum_congr rfl fun ci _ => ?_
    rw [(hk t.val ci).1, (hk t.val ci).2]
  rw [Finset.sum_congr rfl fun t _ => this t]
  rw [sum_nine (fun t => tap X Wt n h w o (t / 3) (t % 3))]
  rfl

/-- The sums grouped by pairs of images are the sums grouped by images. -/
theorem sumByPair_eq_sumByImage (f : EReal → EReal) (X : (⟨4, ![32, 128, 56, 56]⟩ : Shape).Idx → EReal)
    (Wt : (⟨4, ![256, 128, 3, 3]⟩ : Shape).Idx → EReal) (o : ℕ) :
    sumByPair f X Wt o = sumByImage f X Wt o := by
  unfold sumByPair sumByImage
  rw [LibSumBlocks.sum_fin_nat_blocks 16 2 (by norm_num)
    (fun n => ∑ p : Fin 3136, f (convTaps X Wt n (p.val / 56) (p.val % 56) o))]
  refine Finset.sum_congr rfl fun g _ => ?_
  rw [LibSumBlocks.sum_fin_nat_blocks 2 3136 (by norm_num)
    (fun r => f (convFlat X Wt (g.val * 2 + r / 3136) (r % 3136 / 56) (r % 3136 % 56) o))]
  refine Finset.sum_congr rfl fun b _ => Finset.sum_congr rfl fun p _ => ?_
  have hp := p.isLt
  have e1 : (b.val * 3136 + p.val) / 3136 = b.val := by omega
  have e2 : (b.val * 3136 + p.val) % 3136 = p.val := by omega
  rw [e1, e2, convFlat_eq_convTaps]

/-- The block's output is the same function in both spellings. -/
theorem outByPair_eq_outByImage (X : (⟨4, ![32, 128, 56, 56]⟩ : Shape).Idx → EReal)
    (Wt : (⟨4, ![256, 128, 3, 3]⟩ : Shape).Idx → EReal) (G B : (⟨1, ![256]⟩ : Shape).Idx → EReal) :
    outByPair X Wt G B = outByImage X Wt G B := by
  funext i
  unfold outByPair outByImage
  simp only [sumByPair_eq_sumByImage, convFlat_eq_convTaps, mul_assoc]

end Cert.Spec

end
-- ==== Proof.KerRun.lean ====
/-
  The idealized kernel's run with its result NAMED.  The program is two pipelined regions among three stretches of
  host operations; its contents at every segment boundary are a fold from the launch memory (a stretch of host
  operations applies them one after the other; a region leaves each of its arrays at what its write-backs leave).
  Every weakly fair execution terminates, nothing faults, every unscoped buffer ends at the last boundary's
  contents: in particular the result array, beside the four argument arrays, which end as launched.
-/
import proofs.«143499_g2000705972228531_pallasbulk_146_16_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array ends at the last boundary's contents, the arguments as launched. -/
theorem run_named : θ_run defs (onTc (τ := τ) (main (F := F))) ⟨m, fun _ => 0, ρ⟩ (fun r => ∀ c : Dev nD,
      r.2.mem ((c.tc : Thread nD τ).loc main_v9) = W5 m ρ c (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v9 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c)⟩)

end Cert.KernelIdeal.Gen

end
-- ==== Proof.KerHost.lean ====
/-
  The idealized kernel's host operations, read at entries.

  Before the first pass the image is moved to channel-last layout, entry (n, h, w, c) of the new array being entry
  (n, c, h, w) of the argument, and the weights are moved to (row, column, in-channel, out-channel) order and
  flattened to a 1152 × 256 matrix, row k = (3·di + dj)·128 + ci, column o holding weight (o, ci, di, dj) (the change
  of float format is the identity on extended reals).  Over these two arrays the first pass' patch-row product is
  the flat convolution of the arguments.  Between the passes the scale and shift vectors become 1 × 256 rows.
-/
import proofs.«143499_g2000705972228531_pallasbulk_146_16_alg».proof.Proof.KerRun
import proofs.«143499_g2000705972228531_pallasbulk_146_16_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.Host

open Idealize.ShloMosaic Idealize.ShloMosaic.TcCoe Idealize.ShloMosaic.ValueIdx Idealize.ShloMosaic.StableHlo
open Idealize.SL.Sem Cert.KernelIdeal Cert.KernelIdeal.Gen Cert.Spec

variable (m : (ℓ : Loc nD τ sig) → Buf (Elt Ideal) ℓ) (ρ : Dev nD → PrngReg) (c : Dev nD)

/-- The image argument as the first pass finds it: transposed to channel-last. -/
theorem v0_eq : V1 m ρ c main_v0
    = transpose S32x56x56x128 [0, 2, 3, 1] (m ((c : Thread nD τ).loc main_arg0)) transposes_S32x128x56x56_S32x56x56x128_0_2_3_1 := by
  show StableHlo.after hostOps0 (W0 m ρ c) (Proc.devRef .tc main_v0) = _
  after_results

/-- The weight argument as the first pass finds it: transposed, flattened, its format changed. -/
theorem v3_eq : (V1 m ρ c main_v3 : FVec Ideal S1152x256 .bf16)
    = truncf (F := Ideal) .bf16 (shapeCast S1152x256 (transpose S3x3x128x256 [2, 3, 1, 0] (m ((c : Thread nD τ).loc main_arg1))
        transposes_S256x128x3x3_S3x3x128x256_2_3_1_0) shapeCasts_S3x3x128x256_S1152x256) bitsLt_bf16_f32 := by
  show StableHlo.after hostOps0 (W0 m ρ c) (Proc.devRef .tc main_v3) = _
  after_results
  rfl

/-- Entry (n, h, w, ci) of the channel-last image is entry (n, ci, h, w) of the argument, at natural coordinates. -/
theorem at4_v0 (n h w ci : ℕ) :
    at4 (V1 m ρ c main_v0 : S32x56x56x128.Idx → EReal) n h w ci
      = at4 (m ((c : Thread nD τ).loc main_arg0) : S32x128x56x56.Idx → EReal) n ci h w := by
  unfold at4
  by_cases hr : n < 32 ∧ h < 56 ∧ w < 56 ∧ ci < 128
  · rw [dif_pos hr, dif_pos ⟨hr.1, hr.2.2.2, hr.2.1, hr.2.2.1⟩, v0_eq]
    exact transpose_apply _ _ _ _ _ (fun b => match b with | ⟨0, _⟩ => rfl | ⟨1, _⟩ => rfl | ⟨2, _⟩ => rfl | ⟨3, _⟩ => rfl)
  · rw [dif_neg hr, dif_neg (fun h' => hr ⟨h'.1, h'.2.2.1, h'.2.2.2, h'.2.1⟩)]

/-- Row k, column o of the weight matrix is weight (o, k % 128, k / 128 / 3, k / 128 % 3), at natural coordinates. -/
theorem at2_v3 (k o : ℕ) :
    at2 (V1 m ρ c main_v3 : S1152x256.Idx → EReal) k o
      = at4 (m ((c : Thread nD τ).loc main_arg1) : S256x128x3x3.Idx → EReal) o (k % 128) (k / 128 / 3) (k / 128 % 3) := by
  unfold at2 at4
  by_cases hr : k < 1152 ∧ o < 256
  · have h1 : k % 128 < 128 := Nat.mod_lt _ (by norm_num)
    have h2 : k / 128 / 3 < 3 := by omega
    have h3 : k / 128 % 3 < 3 := by omega
    rw [dif_pos hr, dif_pos ⟨hr.2, h1, h2, h3⟩, v3_eq, truncf_apply]
    refine (shapeCast_apply _ _ _ (ix4 ⟨k / 128 / 3, h2⟩ ⟨k / 128 % 3, h3⟩ ⟨k % 128, h1⟩ ⟨o, hr.2⟩) ?_).trans ?_
    · rw [Shape.rowMajor_val_four, Shape.rowMajor_val_two]
      show ((k / 128 / 3 * 3 + k / 128 % 3) * 128 + k % 128) * 256 + o = k * 256 + o
      omega
    · exact transpose_apply _ _ _ _ _ (fun b => match b with | ⟨0, _⟩ => rfl | ⟨1, _⟩ => rfl | ⟨2, _⟩ => rfl | ⟨3, _⟩ => rfl)
  · rw [dif_neg hr, dif_neg]
    rintro ⟨ho, -, hk, -⟩
    exact hr ⟨by omega, ho⟩

/-- Over the two arrays the first pass is handed, the patch-row product is the flat convolution of the arguments. -/
theorem accFlat_entry (n h w o : ℕ) :
    accFlat (V1 m ρ c main_v0 : S32x56x56x128.Idx → EReal) (V1 m ρ c main_v3 : S1152x256.Idx → EReal) n h w o
      = convFlat (m ((c : Thread nD τ).loc main_arg0)) (m ((c : Thread nD τ).loc main_arg1)) n h w o := by
  unfold accFlat convFlat term patch xpad
  refine Finset.sum_congr rfl fun k _ => ?_
  rw [at2_v3]
  by_cases hb : 1 ≤ h + k.val / 128 / 3 ∧ 1 ≤ w + k.val / 128 % 3
  · rw [if_pos hb, if_pos hb, at4_v0]
  · rw [if_neg hb, if_neg hb]

end Cert.KernelIdeal.Host

end
-- ==== Proof.KerMid.lean ====
/-
  Between the two passes and after the second: the scale and shift vectors laid out as 1 × 256 rows, the first pass'
  two result arrays handed on untouched, and the second pass' result recast and moved back to channel-first layout.
-/
import proofs.«143499_g2000705972228531_pallasbulk_146_16_alg».proof.Proof.KerRun
import proofs.«143499_g2000705972228531_pallasbulk_146_16_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.Host

open Idealize.ShloMosaic Idealize.ShloMosaic.TcCoe Idealize.ShloMosaic.ValueIdx Idealize.ShloMosaic.StableHlo
open Idealize.SL.Sem Cert.KernelIdeal Cert.KernelIdeal.Gen Cert.Spec

variable (m : (ℓ : Loc nD τ sig) → Buf (Elt Ideal) ℓ) (ρ : Dev nD → PrngReg) (c : Dev nD)

/-- The scale vector as the second pass finds it: the argument as a 1 × 256 row. -/
theorem v5_eq : (V3 m ρ c main_v5 : FVec Ideal S1x256 .f32)
    = shapeCast S1x256 (m ((c : Thread nD τ).loc main_arg2)) shapeCasts_S256_S1x256 := by
  show StableHlo.after hostOps1 (W2 m ρ c) (Proc.devRef .tc main_v5) = _
  after_results
  have e : W2 m ρ c (Proc.devRef .tc main_arg2) = m ((c : Thread nD τ).loc main_arg2) := by
    rw [W2_of_ne m ρ c main_arg2 (by decide)]
    show StableHlo.after hostOps0 (W0 m ρ c) (Proc.devRef .tc main_arg2) = _
    after_results
  rw [e]; rfl

/-- The shift vector as the second pass finds it: the argument as a 1 × 256 row. -/
theorem v6_eq : (V3 m ρ c main_v6 : FVec Ideal S1x256 .f32)
    = shapeCast S1x256 (m ((c : Thread nD τ).loc main_arg3)) shapeCasts_S256_S1x256 := by
  show StableHlo.after hostOps1 (W2 m ρ c) (Proc.devRef .tc main_v6) = _
  after_results
  have e : W2 m ρ c (Proc.devRef .tc main_arg3) = m ((c : Thread nD τ).loc main_arg3) := by
    rw [W2_of_ne m ρ c main_arg3 (by decide)]
    show StableHlo.after hostOps0 (W0 m ρ c) (Proc.devRef .tc main_arg3) = _
    after_results
  rw [e]; rfl

/-- Entry o of the scale row. -/
theorem v5_entry (o : Fin 256) : (V3 m ρ c main_v5 : S1x256.Idx → EReal) (ix2 0 o) = at1 (m ((c : Thread nD τ).loc main_arg2) : S256.Idx → EReal) o.val := by
  rw [v5_eq, at1_fin]
  exact shapeCast_apply _ _ _ _ (by
    show (S256.rowMajor (ix1 o)).val = (S1x256.rowMajor (ix2 0 o)).val
    rw [Shape.rowMajor_val_one, Shape.rowMajor_val_two]; show o.val = 0 * 256 + o.val; omega)

/-- Entry o of the shift row. -/
theorem v6_entry (o : Fin 256) : (V3 m ρ c main_v6 : S1x256.Idx → EReal) (ix2 0 o) = at1 (m ((c : Thread nD τ).loc main_arg3) : S256.Idx → EReal) o.val := by
  rw [v6_eq, at1_fin]
  exact shapeCast_apply _ _ _ _ (by
    show (S256.rowMajor (ix1 o)).val = (S1x256.rowMajor (ix2 0 o)).val
    rw [Shape.rowMajor_val_one, Shape.rowMajor_val_two]; show o.val = 0 * 256 + o.val; omega)

/-- The first pass' convolution array reaches the second pass as the first pass left it. -/
theorem v4_0_eq : V3 m ρ c main_v4_0 = (dat0 (V1 m ρ) c).arrAt 2 cfg0.N := by
  show StableHlo.after hostOps1 (W2 m ρ c) (Proc.devRef .tc main_v4_0) = _
  after_results
  exact W2_arr m ρ c 2

/-- The first pass' statistics array reaches the second pass as the first pass left it. -/
theorem v4_1_eq : V3 m ρ c main_v4_1 = (dat0 (V1 m ρ) c).arrAt 3 cfg0.N := by
  show StableHlo.after hostOps1 (W2 m ρ c) (Proc.devRef .tc main_v4_1) = _
  after_results
  exact W2_arr m ρ c 3

/-- The program's result is the second pass' result array recast to (image, row, column, channel) and moved to
    (image, channel, row, column): entry (n, o, h, w) is entry (n, h·56 + w, o). -/
theorem v9_entry (i : S32x256x56x56.Idx) :
    (W5 m ρ c (Proc.devRef .tc main_v9) : S32x256x56x56.Idx → EReal) i
      = at3 ((dat1 (V3 m ρ) c).arrAt 4 cfg1.N : S32x3136x256.Idx → EReal) (i 0).val ((i 2).val * 56 + (i 3).val) (i 1).val := by
  have e : (W5 m ρ c (Proc.devRef .tc main_v9) : S32x256x56x56.Idx → EReal)
      = transpose S32x256x56x56 [0, 3, 1, 2] (shapeCast S32x56x56x256 ((dat1 (V3 m ρ) c).arrAt 4 cfg1.N : S32x3136x256.Idx → EReal)
          shapeCasts_S32x3136x256_S32x56x56x256) transposes_S32x56x56x256_S32x256x56x56_0_3_1_2 := by
    show StableHlo.after hostOps2 (W4 m ρ c) (Proc.devRef .tc main_v9) = _
    after_results
    rw [W4_arr m ρ c 4]
    rfl
  have h2 := (i 2).isLt
  have h3 := (i 3).isLt
  have hp : (i 2).val * 56 + (i 3).val < 3136 := by
    have : (i 2).val < 56 := h2
    have : (i 3).val < 56 := h3
    omega
  rw [e]
  refine Eq.trans ?_ (at3_fin (a := 32) (b := 3136) (c := 256) _ (i 0) ⟨(i 2).val * 56 + (i 3).val, hp⟩ (i 1)).symm
  refine (transpose_apply _ _ _ _ (ix4 (i 0) (i 2) (i 3) (i 1))
    (fun b => match b with | ⟨0, _⟩ => rfl | ⟨1, _⟩ => rfl | ⟨2, _⟩ => rfl | ⟨3, _⟩ => rfl)).trans ?_
  exact shapeCast_apply _ _ _ _ (by
    show (S32x3136x256.rowMajor (ix3 (i 0) ⟨(i 2).val * 56 + (i 3).val, hp⟩ (i 1))).val
      = (S32x56x56x256.rowMajor (ix4 (i 0) (i 2) (i 3) (i 1))).val
    rw [Shape.rowMajor_val_three, Shape.rowMajor_val_four]
    show ((i 0).val * 3136 + ((i 2).val * 56 + (i 3).val)) * 256 + (i 1).val
      = (((i 0).val * 56 + (i 2).val) * 56 + (i 3).val) * 256 + (i 1).val
    ring)

end Cert.KernelIdeal.Host

end
-- ==== Proof.KerNorm.lean ====
/-
  The second pass of the idealized kernel at one entry.  From the per-pair sums and sums of squares (a 16 × 2 × 256
  array) it adds the 16 pairs, forms the mean, the clamped variance, the inverse standard deviation, the scale
  γ·istd and the shift β − mean·(γ·istd) — one value per channel —, and applies scale, shift and hard-swish to every
  entry of its block of the convolution array.
-/
import proofs.«143499_g2000705972228531_pallasbulk_146_16_alg».proof.Proof.Gen.KernelIdeal.Skeleton
import proofs.«143499_g2000705972228531_pallasbulk_146_16_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Norm

open Idealize.ShloMosaic Idealize.ShloMosaic.ValueIdx Cert.KernelIdeal Cert.KernelIdeal.Gen Cert.Spec

/-- A 1 × 256 row recast to 1 × 1 × 256 and repeated over a 4 × 3136 × 256 block reads, at (b, p, o), the row's
    entry o. -/
theorem row_over_block (v : FVec Ideal S1x256 .f32) (b : Fin 4) (p : Fin 3136) (o : Fin 256) :
    broadcastTo S4x3136x256 (shapeCast S1x1x256 v shapeCasts_S1x256_S1x1x256) broadcasts_S1x1x256_S4x3136x256 (ix3 b p o)
      = v (ix2 0 o) := by
  refine (broadcastTo_apply _ _ _ (ix3 0 0 o) (fun a => match a with | ⟨0, _⟩ => rfl | ⟨1, _⟩ => rfl | ⟨2, _⟩ => rfl)).trans ?_
  exact shapeCast_apply _ _ _ _ (by
    rw [Shape.rowMajor_val_two, Shape.rowMajor_val_three]
    show 0 * 256 + o.val = (0 * 1 + 0) * 256 + o.val
    omega)

/-- Row 0 of a 2 × 256 array as a 1 × 256 slice. -/
theorem slice_row0 (v : FVec Ideal S2x256 .f32) (o : Fin 256) :
    extractStridedSlice S1x256 ![0, 0] v slices_S2x256_o0_0_S1x256 (ix2 0 o) = v (ix2 0 o) :=
  extractStridedSlice_apply _ _ _ _ _ (fun a => match a with
    | ⟨0, _⟩ => rfl
    | ⟨1, _⟩ => by show o.val = 0 + o.val; omega)

/-- Row 1 of a 2 × 256 array as a 1 × 256 slice. -/
theorem slice_row1 (v : FVec Ideal S2x256 .f32) (o : Fin 256) :
    extractStridedSlice S1x256 ![1, 0] v slices_S2x256_o1_0_S1x256 (ix2 0 o) = v (ix2 1 o) :=
  extractStridedSlice_apply _ _ _ _ _ (fun a => match a with
    | ⟨0, _⟩ => rfl
    | ⟨1, _⟩ => by show o.val = 0 + o.val; omega)

/-- The sum of a 16 × 2 × 256 stack over its first axis, at (j, o). -/
theorem sum_pairs (x : FVec Ideal S16x2x256 .f32) (j : Fin 2) (o : Fin 256) :
    Ideal.reduceAdd reduces_S16x2x256_S2x256 x (ix2 j o) = ∑ g : Fin 16, x (ix3 g j o) := by
  refine (Ideal.reduceAdd_single reduces_S16x2x256_S2x256 x (ix2 j o)).trans ?_
  refine Finset.sum_congr rfl fun g _ => congrArg x ?_
  funext a
  match a with
  | ⟨0, _⟩ => rfl
  | ⟨1, _⟩ => rfl
  | ⟨2, _⟩ => rfl

/-- The inverse square root of a vector, at an entry. -/
theorem rsqrt_apply {s : Shape} {φ : FTy} (v : FVec Ideal s φ) (i : s.Idx) : rsqrt v i = Ideal.rsqrt (v i) := rfl

/-- The normalised, activated value at entry (b, p, o) of a block: from the per-pair sums x1, the scale row x2, the
    shift row x3 and the convolution block x0. -/
def normAt (x0 : S4x3136x256.Idx → EReal) (x1 : S16x2x256.Idx → EReal) (x2 x3 : S1x256.Idx → EReal)
    (b : Fin 4) (p : Fin 3136) (o : Fin 256) : EReal :=
  hsw (x0 (ix3 b p o) * (x2 (ix2 0 o) * istd (∑ g : Fin 16, x1 (ix3 g 0 o)) (∑ g : Fin 16, x1 (ix3 g 1 o)))
    + (x3 (ix2 0 o) - mean (∑ g : Fin 16, x1 (ix3 g 0 o))
        * (x2 (ix2 0 o) * istd (∑ g : Fin 16, x1 (ix3 g 0 o)) (∑ g : Fin 16, x1 (ix3 g 1 o)))))

/-- The body's stored value at an entry is that. -/
theorem pay_apply (x0 : FVec Ideal S4x3136x256 .bf16) (x1 : FVec Ideal S16x2x256 .f32) (x2 x3 : FVec Ideal S1x256 .f32)
    (b : Fin 4) (p : Fin 3136) (o : Fin 256) :
    k1_pay1 (k1_pay2 x1 x2 x3 x0) (k1_pay3 (F := Ideal)) (ix3 b p o) = normAt x0 x1 x2 x3 b p o := by
  unfold k1_pay1 k1_pay2 k1_pay3 normAt hsw istd mean invM eps three six sixth multiReduction
  simp only [mulf_apply, addf_apply, subf_apply, maximumf_apply, minimumf_apply, broadcast_apply, extf_apply,
    shapeCast_self, row_over_block, slice_row0, slice_row1, rsqrt_apply, Ideal.ofBits_def,
    Ideal.ofBits_zero_f32, Ideal.reduceAdd_def, sum_pairs]

/-- The second pass' whole result array from the convolution array Y, the per-pair sums S and the scale and shift
    rows: entry (n, p, o) is the normalised, activated Y(n, p, o), the statistics of channel o. -/
def normArr (Y : S32x3136x256.Idx → EReal) (S : S16x2x256.Idx → EReal) (G B : S1x256.Idx → EReal) :
    S32x3136x256.Idx → EReal := fun i =>
  hsw (Y i * (G (ix2 0 (i 2)) * istd (∑ g : Fin 16, S (ix3 g 0 (i 2))) (∑ g : Fin 16, S (ix3 g 1 (i 2))))
    + (B (ix2 0 (i 2)) - mean (∑ g : Fin 16, S (ix3 g 0 (i 2)))
        * (G (ix2 0 (i 2)) * istd (∑ g : Fin 16, S (ix3 g 0 (i 2))) (∑ g : Fin 16, S (ix3 g 1 (i 2))))))

theorem normArr_apply (Y : S32x3136x256.Idx → EReal) (S : S16x2x256.Idx → EReal) (G B : S1x256.Idx → EReal)
    (n : Fin 32) (p : Fin 3136) (o : Fin 256) :
    normArr Y S G B (ix3 n p o)
      = hsw (Y (ix3 n p o) * (G (ix2 0 o) * istd (∑ g : Fin 16, S (ix3 g 0 o)) (∑ g : Fin 16, S (ix3 g 1 o)))
          + (B (ix2 0 o) - mean (∑ g : Fin 16, S (ix3 g 0 o))
              * (G (ix2 0 o) * istd (∑ g : Fin 16, S (ix3 g 0 o)) (∑ g : Fin 16, S (ix3 g 1 o))))) := rfl

end Cert.KernelIdeal.Norm

end
-- ==== Proof.KerValue.lean ====
/-
  The idealized kernel's result as one function of its four arguments.

  Read back from the last boundary of the run: the result array is the second pass' output moved to channel-first
  layout; the second pass normalises and activates the first pass' convolution array with statistics summed from
  the first pass' per-pair sums; the first pass' arrays are the flat convolution of the arguments and its sums over
  each pair of images.  Entry by entry this is the block's output with the statistics grouped by pairs of images.
-/
import proofs.«143499_g2000705972228531_pallasbulk_146_16_alg».proof.Proof.KerHost
import proofs.«143499_g2000705972228531_pallasbulk_146_16_alg».proof.Proof.KerMid
import proofs.«143499_g2000705972228531_pallasbulk_146_16_alg».proof.Proof.KerNorm

set_option maxRecDepth 16384

noncomputable section

namespace Cert.KernelIdeal.Value

open Idealize.ShloMosaic Idealize.ShloMosaic.TcCoe Idealize.ShloMosaic.ValueIdx
open Idealize.SL.Sem Cert.KernelIdeal Cert.KernelIdeal.Gen Cert.Spec Cert.KernelIdeal.Host Cert.KernelIdeal.Norm

variable (m : (ℓ : Loc nD τ sig) → Buf (Elt Ideal) ℓ) (ρ : Dev nD → PrngReg) (c : Dev nD)

/-- The last boundary's contents at the result array, from what the two passes leave in their output arrays
    (hy, hst: the first pass' convolution and per-pair sums; hout: the second pass' output). -/
theorem result_of
    (hy : ∀ (V : (c : Dev nD) → (b : Ref sig .tc) → Buf (Elt Ideal) ((c : Thread nD τ).loc b)) (c : Dev nD),
      (dat0 (F := Ideal) V c).arrAt 2 cfg0.N
        = fun i => accFlat (V c main_v0) (V c main_v3) (i 0).val ((i 1).val / 56) ((i 1).val % 56) (i 2).val)
    (hst : ∀ (V : (c : Dev nD) → (b : Ref sig .tc) → Buf (Elt Ideal) ((c : Thread nD τ).loc b)) (c : Dev nD),
      (dat0 (F := Ideal) V c).arrAt 3 cfg0.N
        = fun i => pairSum (if (i 1).val = 0 then (fun y => y) else (fun y => y * y)) (V c main_v0) (V c main_v3) (i 0).val (i 2).val)
    (hout : ∀ (V : (c : Dev nD) → (b : Ref sig .tc) → Buf (Elt Ideal) ((c : Thread nD τ).loc b)) (c : Dev nD),
      (dat1 (F := Ideal) V c).arrAt 4 cfg1.N = normArr (V c main_v4_0) (V c main_v4_1) (V c main_v5) (V c main_v6)) :
    ∀ i : S32x256x56x56.Idx, (W5 m ρ c (Proc.devRef .tc main_v9) : S32x256x56x56.Idx → EReal) i
      = outByPair (m ((c : Thread nD τ).loc main_arg0)) (m ((c : Thread nD τ).loc main_arg1))
          (m ((c : Thread nD τ).loc main_arg2)) (m ((c : Thread nD τ).loc main_arg3)) i := by
  intro i
  obtain ⟨n, o, h, w, rfl⟩ : ∃ (n : Fin 32) (o : Fin 256) (h : Fin 56) (w : Fin 56), i = ix4 n o h w :=
    ⟨i 0, i 1, i 2, i 3, eq_ix4 i⟩
  have hh : h.val < 56 := h.isLt
  have hw : w.val < 56 := w.isLt
  have hp : h.val * 56 + w.val < 3136 := by omega
  refine (v9_entry m ρ c (ix4 n o h w)).trans ?_
  show at3 _ n.val (h.val * 56 + w.val) o.val = _
  rw [hout (V3 m ρ) c]
  refine (at3_fin (a := 32) (b := 3136) (c := 256) _ n ⟨h.val * 56 + w.val, hp⟩ o).trans ?_
  refine (normArr_apply _ _ _ _ n ⟨h.val * 56 + w.val, hp⟩ o).trans ?_
  -- the per-pair sums, added over the 16 pairs, are the block's sums grouped by pairs
  have hS : ∀ (j : Fin 2) (f : EReal → EReal), f = (if j.val = 0 then (fun y => y) else (fun y => y * y)) →
      (fun (S : S16x2x256.Idx → EReal) => ∑ g : Fin 16, S (ix3 g j o)) (V3 m ρ c main_v4_1)
        = sumByPair f (m ((c : Thread nD τ).loc main_arg0)) (m ((c : Thread nD τ).loc main_arg1)) o.val := by
    intro j f hf
    show (∑ g : Fin 16, (fun (S : S16x2x256.Idx → EReal) => S (ix3 g j o)) (V3 m ρ c main_v4_1)) = _
    rw [v4_1_eq, hst (V1 m ρ) c]
    unfold sumByPair
    refine Finset.sum_congr rfl fun g _ => ?_
    show pairSum (if j.val = 0 then (fun y => y) else (fun y => y * y)) _ _ g.val o.val = _
    unfold pairSum
    rw [← hf]
    refine Finset.sum_congr rfl fun r _ => ?_
    rw [accFlat_entry]
  have hS0 := hS 0 (fun y => y) rfl
  have hS1 := hS 1 (fun y => y * y) rfl
  dsimp only at hS0 hS1
  rw [hS0, hS1, v5_entry, v6_entry]
  -- the convolution array's entry is the flat convolution at pixel (h, w)
  have hY : (fun (Y : S32x3136x256.Idx → EReal) => Y (ix3 n ⟨h.val * 56 + w.val, hp⟩ o)) (V3 m ρ c main_v4_0)
      = convFlat (m ((c : Thread nD τ).loc main_arg0)) (m ((c : Thread nD τ).loc main_arg1)) n.val h.val w.val o.val := by
    rw [v4_0_eq, hy (V1 m ρ) c]
    show accFlat _ _ n.val ((h.val * 56 + w.val) / 56) ((h.val * 56 + w.val) % 56) o.val = _
    rw [show (h.val * 56 + w.val) / 56 = h.val by omega,
      show (h.val * 56 + w.val) % 56 = w.val by omega, accFlat_entry]
  dsimp only at hY
  rw [hY]
  rfl

end Cert.KernelIdeal.Value

end
-- ==== Proof.LibFlatten.lean ====
/-
  Merging and splitting the two leading axes of a rank-three array.

  An `[a, b, c]` array and an `[n, c]` matrix with `n = a · b` hold the same entries in row-major order: entry
  (p, q, l) of the first is entry (p · b + q, l) of the second. Both directions of the cast, each read at an entry.
-/
import Idealize.ShloMosaic.Lib.ValueIdx
import Idealize.ShloMosaic.Lib.Pipeline.Value

noncomputable section

namespace Cert.Lib.Flatten

open Idealize.ShloMosaic Idealize.ShloMosaic.TcCoe Idealize.SL.Sem Idealize.ShloMosaic.ValueIdx

variable {α : Type}

/-- Merging the leading axes: an `[a, b, c]` array cast to `[n, c]` reads, at row `r = p · b + q` and column `l`,
    the operand at (p, q, l). -/
theorem shapeCast_abc_nc_apply {n a b c : ℕ} (x : (⟨3, ![a, b, c]⟩ : Shape).Idx → α)
    (h : (⟨3, ![a, b, c]⟩ : Shape).ShapeCasts ⟨2, ![n, c]⟩) (p : Fin a) (q : Fin b) (l : Fin c) (r : Fin n)
    (hr : r.val = p.val * b + q.val) : shapeCast ⟨2, ![n, c]⟩ x h (ix2 r l) = x (ix3 p q l) :=
  shapeCast_apply x h _ _ (by
    rw [Shape.rowMajor_val_three, Shape.rowMajor_val_two]
    show (p.val * b + q.val) * c + l.val = r.val * c + l.val
    rw [hr])

/-- Splitting the leading axis: an `[n, c]` matrix cast to `[a, b, c]` reads, at (p, q, l), the operand at row
    `r = p · b + q` and column `l`. -/
theorem shapeCast_nc_abc_apply {n a b c : ℕ} (x : (⟨2, ![n, c]⟩ : Shape).Idx → α)
    (h : (⟨2, ![n, c]⟩ : Shape).ShapeCasts ⟨3, ![a, b, c]⟩) (p : Fin a) (q : Fin b) (l : Fin c) (r : Fin n)
    (hr : r.val = p.val * b + q.val) : shapeCast ⟨3, ![a, b, c]⟩ x h (ix3 p q l) = x (ix2 r l) :=
  shapeCast_apply x h _ _ (by
    rw [Shape.rowMajor_val_two, Shape.rowMajor_val_three]
    show r.val * c + l.val = (p.val * b + q.val) * c + l.val
    rw [hr])

end Cert.Lib.Flatten

end
-- ==== Proof.LibDotEntry.lean ====
/-
  A matrix product read at an entry, on the host and on the TensorCore. At exact arithmetic the host's `dot_general` of an m×K matrix by a K×n
  matrix, whose dimension numbers contract the left factor's columns against the right factor's rows, has at entry
  (p, q) the sum over k of left (p, k) · right (k, q) — the same sum a TensorCore matrix product into a zero
  accumulator has there. Stated for any dimension record of these three shapes, given where it sends an output index
  and a contraction index.
-/
import Idealize.ShloMosaic.Lib.ValueIdx
import Idealize.ShloMosaic.PureOps.Ideal.Laws

noncomputable section

namespace Cert.Lib.DotEntry

open Idealize.ShloMosaic Idealize.ShloMosaic.TcCoe Idealize.SL.Sem Idealize.ShloMosaic.ValueIdx

/-- The host's product of an m×K by a K×n matrix, read at entry (p, q), is the sum over the one contracted axis of
    the products of row p of the left factor with column q of the right factor. The four hypotheses say where the
    product's dimension numbers send an output index and a contraction index: to (row, k) on the left and
    (k, column) on the right. -/
theorem dotGeneral_ix2 {m K n : Nat} (D : DotDims ⟨2, ![m, K]⟩ ⟨2, ![K, n]⟩ ⟨2, ![m, n]⟩)
    (hr : D.contr.rank = 1) (hs : D.contr.size ⟨0, by omega⟩ = K)
    (hl0 : ∀ (i : (⟨2, ![m, n]⟩ : Shape).Idx) (c : D.contr.Idx), (D.lhsIdx i c 0).val = (i 0).val)
    (hl1 : ∀ (i : (⟨2, ![m, n]⟩ : Shape).Idx) (c : D.contr.Idx), (D.lhsIdx i c 1).val = (c ⟨0, by omega⟩).val)
    (hr0 : ∀ (i : (⟨2, ![m, n]⟩ : Shape).Idx) (c : D.contr.Idx), (D.rhsIdx i c 0).val = (c ⟨0, by omega⟩).val)
    (hr1 : ∀ (i : (⟨2, ![m, n]⟩ : Shape).Idx) (c : D.contr.Idx), (D.rhsIdx i c 1).val = (i 1).val)
    (lhs : FVec Ideal ⟨2, ![m, K]⟩ .f32) (rhs : FVec Ideal ⟨2, ![K, n]⟩ .f32) (p : Fin m) (q : Fin n) :
    Host.dotGeneral (F := Ideal) D none lhs rhs (ix2 p q) = ∑ k : Fin K, lhs (ix2 p k) * rhs (ix2 k q) := by
  simp only [Host.dotGeneral]
  rw [Ideal.dotGeneral_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

/-- A TensorCore product of an m×K by a K×n matrix (of any two float formats: at exact arithmetic a format is only a
    label) into a zero accumulator, read at entry (p, q), is the same sum. -/
theorem matmul_zero_ix2 {m K n : Nat} {φ₁ φ₂ : FTy} (D : DotDims ⟨2, ![m, K]⟩ ⟨2, ![K, n]⟩ ⟨2, ![m, n]⟩)
    (hr : D.contr.rank = 1) (hs : D.contr.size ⟨0, by omega⟩ = K)
    (hl0 : ∀ (i : (⟨2, ![m, n]⟩ : Shape).Idx) (c : D.contr.Idx), (D.lhsIdx i c 0).val = (i 0).val)
    (hl1 : ∀ (i : (⟨2, ![m, n]⟩ : Shape).Idx) (c : D.contr.Idx), (D.lhsIdx i c 1).val = (c ⟨0, by omega⟩).val)
    (hr0 : ∀ (i : (⟨2, ![m, n]⟩ : Shape).Idx) (c : D.contr.Idx), (D.rhsIdx i c 0).val = (c ⟨0, by omega⟩).val)
    (hr1 : ∀ (i : (⟨2, ![m, n]⟩ : Shape).Idx) (c : D.contr.Idx), (D.rhsIdx i c 1).val = (i 1).val)
    (lhs : FVec Ideal ⟨2, ![m, K]⟩ φ₁) (rhs : FVec Ideal ⟨2, ![K, n]⟩ φ₂) (p : Fin m) (q : Fin n) :
    matmul D none lhs rhs (constant (F := Ideal) ⟨2, ![m, n]⟩ .f32 0x00000000#32) (ix2 p q)
      = ∑ k : Fin K, lhs (ix2 p k) * rhs (ix2 k q) := by
  refine (Ideal.matmul_constant_zero_apply D none lhs rhs (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Cert.Lib.DotEntry

end
-- ==== Proof.KerConvPad.lean ====
import proofs.«143499_g2000705972228531_pallasbulk_146_16_alg».proof.Proof.Gen.KernelIdeal.Skeleton
import proofs.«143499_g2000705972228531_pallasbulk_146_16_alg».proof.Proof.Spec
import proofs.«143499_g2000705972228531_pallasbulk_146_16_alg».proof.Proof.LibFlatten
import Idealize.ShloMosaic.Lib.Pipeline.Value
import Idealize.ShloMosaic.PureOps.Ideal.Laws

noncomputable section

namespace Cert.KernelIdeal.Conv

open Idealize.ShloMosaic Idealize.ShloMosaic.TcCoe Idealize.SL.Sem Idealize.ShloMosaic.ValueIdx
open Cert.KernelIdeal.Gen

/-! # The padded image

An image block `x` of 56 × 56 pixels and 128 channels is surrounded by a border of zeros one pixel wide: first a
column of zeros on each side of every row (56 × 58), then a row of zeros above and below (58 × 58). Read at natural
coordinates `(i, j, c)` the result is `x` at `(i - 1, j - 1, c)` when both `i` and `j` are at least one, and zero
otherwise — the reading of `x` outside its extents being zero takes care of the far border. -/

/-- The zero of the 16-bit format is the extended real zero. -/
theorem zero_bf16 : (Scalar.ofBits .bf16 0x0000#16 : Ideal .bf16) = (0 : EReal) := by
  simp [Scalar.ofBits, Ideal.ofBits, Ideal.ieee]

/-- The column of zeros reads zero everywhere. -/
theorem zcol_apply (i : S56x1x128.Idx) : (k0_pay5 (F := Ideal)) i = (0 : EReal) := by
  unfold k0_pay5; exact zero_bf16

/-- The row of zeros reads zero everywhere. -/
theorem zrow_apply (i : S1x58x128.Idx) : (k0_pay6 (F := Ideal)) i = (0 : EReal) := by
  unfold k0_pay6; exact zero_bf16

/-- The padded image at natural coordinates: the image one step up and to the left, zero on the near border; the
    image read outside its extents is zero, which is the far border. -/
def padNat (x : S56x56x128.Idx → EReal) (i j c : ℕ) : EReal :=
  if 1 ≤ i ∧ 1 ≤ j then Spec.at3 x (i - 1) (j - 1) c else 0

/-- The image with a zero column on each side. -/
abbrev padCols (x : FVec Ideal S56x56x128 .bf16) : FVec Ideal S56x58x128 .bf16 :=
  concatenate S56x58x128 1 [⟨S56x1x128, k0_pay5 (F := Ideal)⟩, ⟨S56x56x128, x⟩, ⟨S56x1x128, k0_pay5 (F := Ideal)⟩]
    concatenates_S56x1x128_S56x56x128_S56x1x128_S56x58x128_d1

/-- The image with the full border. -/
abbrev padFull (x : FVec Ideal S56x56x128 .bf16) : FVec Ideal S58x58x128 .bf16 :=
  concatenate S58x58x128 0 [⟨S1x58x128, k0_pay6 (F := Ideal)⟩, ⟨S56x58x128, padCols x⟩, ⟨S1x58x128, k0_pay6 (F := Ideal)⟩]
    concatenates_S1x58x128_S56x58x128_S1x58x128_S58x58x128_d0

/-- The image between its two zero columns, at row `i`, column `j`: zero at `j = 0`, the image at `j - 1` otherwise
    (zero again at `j = 57`, where the reading falls outside the image). -/
theorem padCols_apply (x : FVec Ideal S56x56x128 .bf16) (i : Fin 56) (j : Fin 58) (c : Fin 128) :
    padCols x (ix3 i j c) = if 1 ≤ j.val then Spec.at3 x i.val (j.val - 1) c.val else 0 := by
  have hj := j.isLt
  by_cases h0 : j.val = 0
  · rw [if_neg (by omega)]
    have e : padCols x (ix3 i j c) = k0_pay5 (F := Ideal) (ix3 i ⟨0, by omega⟩ c) := by
      refine concatenate_apply_piece (α := Ideal .bf16) (t := S56x58x128) (1 : Fin 3) [⟨S56x1x128, k0_pay5 (F := Ideal)⟩, ⟨S56x56x128, x⟩, ⟨S56x1x128, k0_pay5 (F := Ideal)⟩] concatenates_S56x1x128_S56x56x128_S56x1x128_S56x58x128_d1 (ix3 i j c) 0 (by show 0 < 3; omega) S56x1x128 (k0_pay5 (F := Ideal)) rfl rfl 0 rfl
        (ix3 i ⟨0, by omega⟩ c) ?_ ?_
      · intro b hb
        match b with
        | ⟨0, _⟩ => rfl
        | ⟨1, _⟩ => exact absurd rfl hb
        | ⟨2, _⟩ => rfl
      · show 0 + 0 = j.val
        omega
    exact e.trans (zcol_apply _)
  · rw [if_pos (by omega)]
    by_cases h57 : j.val = 57
    · have hz : Spec.at3 x i.val (j.val - 1) c.val = 0 := by
        unfold Spec.at3; rw [dif_neg (by omega)]
      rw [hz]
      have e : padCols x (ix3 i j c) = k0_pay5 (F := Ideal) (ix3 i ⟨0, by omega⟩ c) := by
        refine concatenate_apply_piece (α := Ideal .bf16) (t := S56x58x128) (1 : Fin 3) [⟨S56x1x128, k0_pay5 (F := Ideal)⟩, ⟨S56x56x128, x⟩, ⟨S56x1x128, k0_pay5 (F := Ideal)⟩] concatenates_S56x1x128_S56x56x128_S56x1x128_S56x58x128_d1 (ix3 i j c) 2 (by show 2 < 3; omega) S56x1x128 (k0_pay5 (F := Ideal)) rfl rfl 57 rfl
          (ix3 i ⟨0, by omega⟩ c) ?_ ?_
        · intro b hb
          match b with
          | ⟨0, _⟩ => rfl
          | ⟨1, _⟩ => exact absurd rfl hb
          | ⟨2, _⟩ => rfl
        · show 57 + 0 = j.val
          omega
      exact e.trans (zcol_apply _)
    · have hj' : j.val - 1 < 56 := by omega
      have hx : Spec.at3 x i.val (j.val - 1) c.val = x (ix3 i ⟨j.val - 1, hj'⟩ c) :=
        Spec.at3_fin x i ⟨j.val - 1, hj'⟩ c
      rw [hx]
      refine concatenate_apply_piece (α := Ideal .bf16) (t := S56x58x128) (1 : Fin 3) [⟨S56x1x128, k0_pay5 (F := Ideal)⟩, ⟨S56x56x128, x⟩, ⟨S56x1x128, k0_pay5 (F := Ideal)⟩] concatenates_S56x1x128_S56x56x128_S56x1x128_S56x58x128_d1 (ix3 i j c) 1 (by show 1 < 3; omega) S56x56x128 x rfl rfl 1 rfl
        (ix3 i ⟨j.val - 1, hj'⟩ c) ?_ ?_
      · intro b hb
        match b with
        | ⟨0, _⟩ => rfl
        | ⟨1, _⟩ => exact absurd rfl hb
        | ⟨2, _⟩ => rfl
      · show 1 + (j.val - 1) = j.val
        omega

/-- The fully padded image at an entry is the padded reading at the entry's coordinates. -/
theorem padFull_apply (x : FVec Ideal S56x56x128 .bf16) (i : Fin 58) (j : Fin 58) (c : Fin 128) :
    padFull x (ix3 i j c) = padNat x i.val j.val c.val := by
  have hi := i.isLt
  unfold padNat
  by_cases h0 : i.val = 0
  · rw [if_neg (by omega)]
    have e : padFull x (ix3 i j c) = k0_pay6 (F := Ideal) (ix3 ⟨0, by omega⟩ j c) := by
      refine concatenate_apply_piece (α := Ideal .bf16) (t := S58x58x128) (0 : Fin 3) [⟨S1x58x128, k0_pay6 (F := Ideal)⟩, ⟨S56x58x128, padCols x⟩, ⟨S1x58x128, k0_pay6 (F := Ideal)⟩] concatenates_S1x58x128_S56x58x128_S1x58x128_S58x58x128_d0 (ix3 i j c) 0 (by show 0 < 3; omega) S1x58x128 (k0_pay6 (F := Ideal)) rfl rfl 0 rfl
        (ix3 ⟨0, by omega⟩ j c) ?_ ?_
      · intro b hb
        match b with
        | ⟨0, _⟩ => exact absurd rfl hb
        | ⟨1, _⟩ => rfl
        | ⟨2, _⟩ => rfl
      · show 0 + 0 = i.val
        omega
    exact e.trans (zrow_apply _)
  · by_cases h57 : i.val = 57
    · have hz : (if 1 ≤ i.val ∧ 1 ≤ j.val then Spec.at3 x (i.val - 1) (j.val - 1) c.val else 0) = 0 := by
        split
        · unfold Spec.at3; rw [dif_neg (by omega)]
        · rfl
      rw [hz]
      have e : padFull x (ix3 i j c) = k0_pay6 (F := Ideal) (ix3 ⟨0, by omega⟩ j c) := by
        refine concatenate_apply_piece (α := Ideal .bf16) (t := S58x58x128) (0 : Fin 3) [⟨S1x58x128, k0_pay6 (F := Ideal)⟩, ⟨S56x58x128, padCols x⟩, ⟨S1x58x128, k0_pay6 (F := Ideal)⟩] concatenates_S1x58x128_S56x58x128_S1x58x128_S58x58x128_d0 (ix3 i j c) 2 (by show 2 < 3; omega) S1x58x128 (k0_pay6 (F := Ideal)) rfl rfl 57 rfl
          (ix3 ⟨0, by omega⟩ j c) ?_ ?_
        · intro b hb
          match b with
          | ⟨0, _⟩ => exact absurd rfl hb
          | ⟨1, _⟩ => rfl
          | ⟨2, _⟩ => rfl
        · show 57 + 0 = i.val
          omega
      exact e.trans (zrow_apply _)
    · have hi' : i.val - 1 < 56 := by omega
      have e : padFull x (ix3 i j c) = padCols x (ix3 ⟨i.val - 1, hi'⟩ j c) := by
        refine concatenate_apply_piece (α := Ideal .bf16) (t := S58x58x128) (0 : Fin 3) [⟨S1x58x128, k0_pay6 (F := Ideal)⟩, ⟨S56x58x128, padCols x⟩, ⟨S1x58x128, k0_pay6 (F := Ideal)⟩] concatenates_S1x58x128_S56x58x128_S1x58x128_S58x58x128_d0 (ix3 i j c) 1 (by show 1 < 3; omega) S56x58x128 (padCols x) rfl rfl 1 rfl
          (ix3 ⟨i.val - 1, hi'⟩ j c) ?_ ?_
        · intro b hb
          match b with
          | ⟨0, _⟩ => exact absurd rfl hb
          | ⟨1, _⟩ => rfl
          | ⟨2, _⟩ => rfl
        · show 1 + (i.val - 1) = i.val
          omega
      rw [e, padCols_apply]
      by_cases hj : 1 ≤ j.val
      · rw [if_pos hj, if_pos ⟨by omega, hj⟩]
      · rw [if_neg hj, if_neg (fun h => hj h.2)]

end Cert.KernelIdeal.Conv
end
-- ==== Proof.KerConvPatch.lean ====
import proofs.«143499_g2000705972228531_pallasbulk_146_16_alg».proof.Proof.Gen.KernelIdeal.Skeleton
import proofs.«143499_g2000705972228531_pallasbulk_146_16_alg».proof.Proof.Spec
import proofs.«143499_g2000705972228531_pallasbulk_146_16_alg».proof.Proof.LibFlatten
import proofs.«143499_g2000705972228531_pallasbulk_146_16_alg».proof.Proof.KerConvPad
import Idealize.ShloMosaic.Lib.Pipeline.Value
import Idealize.ShloMosaic.PureOps.Ideal.Laws

noncomputable section

namespace Cert.KernelIdeal.Conv

open Idealize.ShloMosaic Idealize.ShloMosaic.TcCoe Idealize.SL.Sem Idealize.ShloMosaic.ValueIdx
open Cert.KernelIdeal.Gen

/-! # The patch matrix of one image

From the padded image `P` (58 × 58 × 128) the three column-shifted copies (58 × 56 × 128) are cut, from each the three
row-shifted copies (56 × 56 × 128), and each of the nine is flattened to 3136 × 128 (row `p` is pixel
`(p / 56, p % 56)`). Joined along the columns in the order "row shift first" they form the 3136 × 1152 patch matrix:
column `k` belongs to copy `k / 128` — row shift `k / 128 / 3`, column shift `k / 128 % 3` — and holds channel
`k % 128`. -/

/-- One shifted copy, flattened, at row `p` and channel `c`: the padded image at pixel `(p / 56, p % 56)` moved by the
    two shifts. -/
theorem tapSlice_apply (P : FVec Ideal S58x58x128 .bf16) (dj di : ℕ)
    (h1 : S58x58x128.Slices ![0, dj, 0] S58x56x128) (h2 : S58x56x128.Slices ![di, 0, 0] S56x56x128)
    (hdi : di ≤ 2) (hdj : dj ≤ 2) (p : Fin 3136) (c : Fin 128) :
    shapeCast S3136x128 (extractStridedSlice S56x56x128 ![di, 0, 0] (extractStridedSlice S58x56x128 ![0, dj, 0] P h1) h2)
        shapeCasts_S56x56x128_S3136x128 (ix2 p c)
      = Spec.at3 P (p.val / 56 + di) (p.val % 56 + dj) c.val := by
  have hp := p.isLt
  have hq : p.val / 56 < 56 := by omega
  have hr : p.val % 56 < 56 := Nat.mod_lt _ (by omega)
  have hi : p.val / 56 + di < 58 := by omega
  have hj : p.val % 56 + dj < 58 := by omega
  refine (Cert.Lib.Flatten.shapeCast_abc_nc_apply _ shapeCasts_S56x56x128_S3136x128 ⟨p.val / 56, hq⟩ ⟨p.val % 56, hr⟩ c p
    (by show p.val = p.val / 56 * 56 + p.val % 56; omega)).trans ?_
  refine (extractStridedSlice_apply ![di, 0, 0] _ h2 (ix3 ⟨p.val / 56, hq⟩ ⟨p.val % 56, hr⟩ c)
    (ix3 ⟨p.val / 56 + di, hi⟩ ⟨p.val % 56, hr⟩ c) ?_).trans ?_
  · intro a
    match a with
    | ⟨0, _⟩ => show p.val / 56 + di = di + p.val / 56; omega
    | ⟨1, _⟩ => show p.val % 56 = 0 + p.val % 56; omega
    | ⟨2, _⟩ => show c.val = 0 + c.val; omega
  refine (extractStridedSlice_apply ![0, dj, 0] P h1 (ix3 ⟨p.val / 56 + di, hi⟩ ⟨p.val % 56, hr⟩ c)
    (ix3 ⟨p.val / 56 + di, hi⟩ ⟨p.val % 56 + dj, hj⟩ c) ?_).trans ?_
  · intro a
    match a with
    | ⟨0, _⟩ => show p.val / 56 + di = 0 + (p.val / 56 + di); omega
    | ⟨1, _⟩ => show p.val % 56 + dj = dj + p.val % 56; omega
    | ⟨2, _⟩ => show c.val = 0 + c.val; omega
  exact (Spec.at3_fin P ⟨p.val / 56 + di, hi⟩ ⟨p.val % 56 + dj, hj⟩ c).symm

/-- Nine 3136 × 128 pieces joined along the columns: column `k` reads piece `k / 128` at column `k % 128`. The pieces
    are given by one function `g` of the piece's number. -/
theorem join9_apply (q0 q1 q2 q3 q4 q5 q6 q7 q8 : FVec Ideal S3136x128 .bf16) (g : ℕ → Fin 3136 → Fin 128 → EReal)
    (h0 : ∀ p c, q0 (ix2 p c) = g 0 p c) (h1 : ∀ p c, q1 (ix2 p c) = g 1 p c) (h2 : ∀ p c, q2 (ix2 p c) = g 2 p c)
    (h3 : ∀ p c, q3 (ix2 p c) = g 3 p c) (h4 : ∀ p c, q4 (ix2 p c) = g 4 p c) (h5 : ∀ p c, q5 (ix2 p c) = g 5 p c)
    (h6 : ∀ p c, q6 (ix2 p c) = g 6 p c) (h7 : ∀ p c, q7 (ix2 p c) = g 7 p c) (h8 : ∀ p c, q8 (ix2 p c) = g 8 p c)
    (p : Fin 3136) (k : Fin 1152) :
    concatenate S3136x1152 1 [⟨S3136x128, q0⟩, ⟨S3136x128, q1⟩, ⟨S3136x128, q2⟩, ⟨S3136x128, q3⟩, ⟨S3136x128, q4⟩, ⟨S3136x128, q5⟩, ⟨S3136x128, q6⟩, ⟨S3136x128, q7⟩, ⟨S3136x128, q8⟩]
        concatenates_S3136x128_S3136x128_S3136x128_S3136x128_S3136x128_S3136x128_S3136x128_S3136x128_S3136x128_S3136x1152_d1 (ix2 p k)
      = g (k.val / 128) p ⟨k.val % 128, Nat.mod_lt _ (by omega)⟩ := by
  have hk := k.isLt
  have hcases : k.val / 128 = 0 ∨ k.val / 128 = 1 ∨ k.val / 128 = 2 ∨ k.val / 128 = 3 ∨ k.val / 128 = 4 ∨ k.val / 128 = 5
      ∨ k.val / 128 = 6 ∨ k.val / 128 = 7 ∨ k.val / 128 = 8 := by omega
  rcases hcases with ht | ht | ht | ht | ht | ht | ht | ht | ht
  · have e : concatenate S3136x1152 1 [⟨S3136x128, q0⟩, ⟨S3136x128, q1⟩, ⟨S3136x128, q2⟩, ⟨S3136x128, q3⟩, ⟨S3136x128, q4⟩, ⟨S3136x128, q5⟩, ⟨S3136x128, q6⟩, ⟨S3136x128, q7⟩, ⟨S3136x128, q8⟩]
        concatenates_S3136x128_S3136x128_S3136x128_S3136x128_S3136x128_S3136x128_S3136x128_S3136x128_S3136x128_S3136x1152_d1 (ix2 p k)
        = q0 (ix2 p ⟨k.val % 128, Nat.mod_lt _ (by omega)⟩) := by
      refine concatenate_apply_piece (α := Ideal .bf16) (t := S3136x1152) (1 : Fin 2) [⟨S3136x128, q0⟩, ⟨S3136x128, q1⟩, ⟨S3136x128, q2⟩, ⟨S3136x128, q3⟩, ⟨S3136x128, q4⟩, ⟨S3136x128, q5⟩, ⟨S3136x128, q6⟩, ⟨S3136x128, q7⟩, ⟨S3136x128, q8⟩] concatenates_S3136x128_S3136x128_S3136x128_S3136x128_S3136x128_S3136x128_S3136x128_S3136x128_S3136x128_S3136x1152_d1 (ix2 p k) 0 (by show 0 < 9; omega) S3136x128 q0 rfl rfl 0 rfl
        (ix2 p ⟨k.val % 128, Nat.mod_lt _ (by omega)⟩) ?_ ?_
      · intro b hb
        match b with
        | ⟨0, _⟩ => rfl
        | ⟨1, _⟩ => exact absurd rfl hb
      · show 0 + k.val % 128 = k.val
        omega
    rw [e, ht]
    exact h0 p _
  · have e : concatenate S3136x1152 1 [⟨S3136x128, q0⟩, ⟨S3136x128, q1⟩, ⟨S3136x128, q2⟩, ⟨S3136x128, q3⟩, ⟨S3136x128, q4⟩, ⟨S3136x128, q5⟩, ⟨S3136x128, q6⟩, ⟨S3136x128, q7⟩, ⟨S3136x128, q8⟩]
        concatenates_S3136x128_S3136x128_S3136x128_S3136x128_S3136x128_S3136x128_S3136x128_S3136x128_S3136x128_S3136x1152_d1 (ix2 p k)
        = q1 (ix2 p ⟨k.val % 128, Nat.mod_lt _ (by omega)⟩) := by
      refine concatenate_apply_piece (α := Ideal .bf16) (t := S3136x1152) (1 : Fin 2) [⟨S3136x128, q0⟩, ⟨S3136x128, q1⟩, ⟨S3136x128, q2⟩, ⟨S3136x128, q3⟩, ⟨S3136x128, q4⟩, ⟨S3136x128, q5⟩, ⟨S3136x128, q6⟩, ⟨S3136x128, q7⟩, ⟨S3136x128, q8⟩] concatenates_S3136x128_S3136x128_S3136x128_S3136x128_S3136x128_S3136x128_S3136x128_S3136x128_S3136x128_S3136x1152_d1 (ix2 p k) 1 (by show 1 < 9; omega) S3136x128 q1 rfl rfl 128 rfl
        (ix2 p ⟨k.val % 128, Nat.mod_lt _ (by omega)⟩) ?_ ?_
      · intro b hb
        match b with
        | ⟨0, _⟩ => rfl
        | ⟨1, _⟩ => exact absurd rfl hb
      · show 128 + k.val % 128 = k.val
        omega
    rw [e, ht]
    exact h1 p _
  · have e : concatenate S3136x1152 1 [⟨S3136x128, q0⟩, ⟨S3136x128, q1⟩, ⟨S3136x128, q2⟩, ⟨S3136x128, q3⟩, ⟨S3136x128, q4⟩, ⟨S3136x128, q5⟩, ⟨S3136x128, q6⟩, ⟨S3136x128, q7⟩, ⟨S3136x128, q8⟩]
        concatenates_S3136x128_S3136x128_S3136x128_S3136x128_S3136x128_S3136x128_S3136x128_S3136x128_S3136x128_S3136x1152_d1 (ix2 p k)
        = q2 (ix2 p ⟨k.val % 128, Nat.mod_lt _ (by omega)⟩) := by
      refine concatenate_apply_piece (α := Ideal .bf16) (t := S3136x1152) (1 : Fin 2) [⟨S3136x128, q0⟩, ⟨S3136x128, q1⟩, ⟨S3136x128, q2⟩, ⟨S3136x128, q3⟩, ⟨S3136x128, q4⟩, ⟨S3136x128, q5⟩, ⟨S3136x128, q6⟩, ⟨S3136x128, q7⟩, ⟨S3136x128, q8⟩] concatenates_S3136x128_S3136x128_S3136x128_S3136x128_S3136x128_S3136x128_S3136x128_S3136x128_S3136x128_S3136x1152_d1 (ix2 p k) 2 (by show 2 < 9; omega) S3136x128 q2 rfl rfl 256 rfl
        (ix2 p ⟨k.val % 128, Nat.mod_lt _ (by omega)⟩) ?_ ?_
      · intro b hb
        match b with
        | ⟨0, _⟩ => rfl
        | ⟨1, _⟩ => exact absurd rfl hb
      · show 256 + k.val % 128 = k.val
        omega
    rw [e, ht]
    exact h2 p _
  · have e : concatenate S3136x1152 1 [⟨S3136x128, q0⟩, ⟨S3136x128, q1⟩, ⟨S3136x128, q2⟩, ⟨S3136x128, q3⟩, ⟨S3136x128, q4⟩, ⟨S3136x128, q5⟩, ⟨S3136x128, q6⟩, ⟨S3136x128, q7⟩, ⟨S3136x128, q8⟩]
        concatenates_S3136x128_S3136x128_S3136x128_S3136x128_S3136x128_S3136x128_S3136x128_S3136x128_S3136x128_S3136x1152_d1 (ix2 p k)
        = q3 (ix2 p ⟨k.val % 128, Nat.mod_lt _ (by omega)⟩) := by
      refine concatenate_apply_piece (α := Ideal .bf16) (t := S3136x1152) (1 : Fin 2) [⟨S3136x128, q0⟩, ⟨S3136x128, q1⟩, ⟨S3136x128, q2⟩, ⟨S3136x128, q3⟩, ⟨S3136x128, q4⟩, ⟨S3136x128, q5⟩, ⟨S3136x128, q6⟩, ⟨S3136x128, q7⟩, ⟨S3136x128, q8⟩] concatenates_S3136x128_S3136x128_S3136x128_S3136x128_S3136x128_S3136x128_S3136x128_S3136x128_S3136x128_S3136x1152_d1 (ix2 p k) 3 (by show 3 < 9; omega) S3136x128 q3 rfl rfl 384 rfl
        (ix2 p ⟨k.val % 128, Nat.mod_lt _ (by omega)⟩) ?_ ?_
      · intro b hb
        match b with
        | ⟨0, _⟩ => rfl
        | ⟨1, _⟩ => exact absurd rfl hb
      · show 384 + k.val % 128 = k.val
        omega
    rw [e, ht]
    exact h3 p _
  · have e : concatenate S3136x1152 1 [⟨S3136x128, q0⟩, ⟨S3136x128, q1⟩, ⟨S3136x128, q2⟩, ⟨S3136x128, q3⟩, ⟨S3136x128, q4⟩, ⟨S3136x128, q5⟩, ⟨S3136x128, q6⟩, ⟨S3136x128, q7⟩, ⟨S3136x128, q8⟩]
        concatenates_S3136x128_S3136x128_S3136x128_S3136x128_S3136x128_S3136x128_S3136x128_S3136x128_S3136x128_S3136x1152_d1 (ix2 p k)
        = q4 (ix2 p ⟨k.val % 128, Nat.mod_lt _ (by omega)⟩) := by
      refine concatenate_apply_piece (α := Ideal .bf16) (t := S3136x1152) (1 : Fin 2) [⟨S3136x128, q0⟩, ⟨S3136x128, q1⟩, ⟨S3136x128, q2⟩, ⟨S3136x128, q3⟩, ⟨S3136x128, q4⟩, ⟨S3136x128, q5⟩, ⟨S3136x128, q6⟩, ⟨S3136x128, q7⟩, ⟨S3136x128, q8⟩] concatenates_S3136x128_S3136x128_S3136x128_S3136x128_S3136x128_S3136x128_S3136x128_S3136x128_S3136x128_S3136x1152_d1 (ix2 p k) 4 (by show 4 < 9; omega) S3136x128 q4 rfl rfl 512 rfl
        (ix2 p ⟨k.val % 128, Nat.mod_lt _ (by omega)⟩) ?_ ?_
      · intro b hb
        match b with
        | ⟨0, _⟩ => rfl
        | ⟨1, _⟩ => exact absurd rfl hb
      · show 512 + k.val % 128 = k.val
        omega
    rw [e, ht]
    exact h4 p _
  · have e : concatenate S3136x1152 1 [⟨S3136x128, q0⟩, ⟨S3136x128, q1⟩, ⟨S3136x128, q2⟩, ⟨S3136x128, q3⟩, ⟨S3136x128, q4⟩, ⟨S3136x128, q5⟩, ⟨S3136x128, q6⟩, ⟨S3136x128, q7⟩, ⟨S3136x128, q8⟩]
        concatenates_S3136x128_S3136x128_S3136x128_S3136x128_S3136x128_S3136x128_S3136x128_S3136x128_S3136x128_S3136x1152_d1 (ix2 p k)
        = q5 (ix2 p ⟨k.val % 128, Nat.mod_lt _ (by omega)⟩) := by
      refine concatenate_apply_piece (α := Ideal .bf16) (t := S3136x1152) (1 : Fin 2) [⟨S3136x128, q0⟩, ⟨S3136x128, q1⟩, ⟨S3136x128, q2⟩, ⟨S3136x128, q3⟩, ⟨S3136x128, q4⟩, ⟨S3136x128, q5⟩, ⟨S3136x128, q6⟩, ⟨S3136x128, q7⟩, ⟨S3136x128, q8⟩] concatenates_S3136x128_S3136x128_S3136x128_S3136x128_S3136x128_S3136x128_S3136x128_S3136x128_S3136x128_S3136x1152_d1 (ix2 p k) 5 (by show 5 < 9; omega) S3136x128 q5 rfl rfl 640 rfl
        (ix2 p ⟨k.val % 128, Nat.mod_lt _ (by omega)⟩) ?_ ?_
      · intro b hb
        match b with
        | ⟨0, _⟩ => rfl
        | ⟨1, _⟩ => exact absurd rfl hb
      · show 640 + k.val % 128 = k.val
        omega
    rw [e, ht]
    exact h5 p _
  · have e : concatenate S3136x1152 1 [⟨S3136x128, q0⟩, ⟨S3136x128, q1⟩, ⟨S3136x128, q2⟩, ⟨S3136x128, q3⟩, ⟨S3136x128, q4⟩, ⟨S3136x128, q5⟩, ⟨S3136x128, q6⟩, ⟨S3136x128, q7⟩, ⟨S3136x128, q8⟩]
        concatenates_S3136x128_S3136x128_S3136x128_S3136x128_S3136x128_S3136x128_S3136x128_S3136x128_S3136x128_S3136x1152_d1 (ix2 p k)
        = q6 (ix2 p ⟨k.val % 128, Nat.mod_lt _ (by omega)⟩) := by
      refine concatenate_apply_piece (α := Ideal .bf16) (t := S3136x1152) (1 : Fin 2) [⟨S3136x128, q0⟩, ⟨S3136x128, q1⟩, ⟨S3136x128, q2⟩, ⟨S3136x128, q3⟩, ⟨S3136x128, q4⟩, ⟨S3136x128, q5⟩, ⟨S3136x128, q6⟩, ⟨S3136x128, q7⟩, ⟨S3136x128, q8⟩] concatenates_S3136x128_S3136x128_S3136x128_S3136x128_S3136x128_S3136x128_S3136x128_S3136x128_S3136x128_S3136x1152_d1 (ix2 p k) 6 (by show 6 < 9; omega) S3136x128 q6 rfl rfl 768 rfl
        (ix2 p ⟨k.val % 128, Nat.mod_lt _ (by omega)⟩) ?_ ?_
      · intro b hb
        match b with
        | ⟨0, _⟩ => rfl
        | ⟨1, _⟩ => exact absurd rfl hb
      · show 768 + k.val % 128 = k.val
        omega
    rw [e, ht]
    exact h6 p _
  · have e : concatenate S3136x1152 1 [⟨S3136x128, q0⟩, ⟨S3136x128, q1⟩, ⟨S3136x128, q2⟩, ⟨S3136x128, q3⟩, ⟨S3136x128, q4⟩, ⟨S3136x128, q5⟩, ⟨S3136x128, q6⟩, ⟨S3136x128, q7⟩, ⟨S3136x128, q8⟩]
        concatenates_S3136x128_S3136x128_S3136x128_S3136x128_S3136x128_S3136x128_S3136x128_S3136x128_S3136x128_S3136x1152_d1 (ix2 p k)
        = q7 (ix2 p ⟨k.val % 128, Nat.mod_lt _ (by omega)⟩) := by
      refine concatenate_apply_piece (α := Ideal .bf16) (t := S3136x1152) (1 : Fin 2) [⟨S3136x128, q0⟩, ⟨S3136x128, q1⟩, ⟨S3136x128, q2⟩, ⟨S3136x128, q3⟩, ⟨S3136x128, q4⟩, ⟨S3136x128, q5⟩, ⟨S3136x128, q6⟩, ⟨S3136x128, q7⟩, ⟨S3136x128, q8⟩] concatenates_S3136x128_S3136x128_S3136x128_S3136x128_S3136x128_S3136x128_S3136x128_S3136x128_S3136x128_S3136x1152_d1 (ix2 p k) 7 (by show 7 < 9; omega) S3136x128 q7 rfl rfl 896 rfl
        (ix2 p ⟨k.val % 128, Nat.mod_lt _ (by omega)⟩) ?_ ?_
      · intro b hb
        match b with
        | ⟨0, _⟩ => rfl
        | ⟨1, _⟩ => exact absurd rfl hb
      · show 896 + k.val % 128 = k.val
        omega
    rw [e, ht]
    exact h7 p _
  · have e : concatenate S3136x1152 1 [⟨S3136x128, q0⟩, ⟨S3136x128, q1⟩, ⟨S3136x128, q2⟩, ⟨S3136x128, q3⟩, ⟨S3136x128, q4⟩, ⟨S3136x128, q5⟩, ⟨S3136x128, q6⟩, ⟨S3136x128, q7⟩, ⟨S3136x128, q8⟩]
        concatenates_S3136x128_S3136x128_S3136x128_S3136x128_S3136x128_S3136x128_S3136x128_S3136x128_S3136x128_S3136x1152_d1 (ix2 p k)
        = q8 (ix2 p ⟨k.val % 128, Nat.mod_lt _ (by omega)⟩) := by
      refine concatenate_apply_piece (α := Ideal .bf16) (t := S3136x1152) (1 : Fin 2) [⟨S3136x128, q0⟩, ⟨S3136x128, q1⟩, ⟨S3136x128, q2⟩, ⟨S3136x128, q3⟩, ⟨S3136x128, q4⟩, ⟨S3136x128, q5⟩, ⟨S3136x128, q6⟩, ⟨S3136x128, q7⟩, ⟨S3136x128, q8⟩] concatenates_S3136x128_S3136x128_S3136x128_S3136x128_S3136x128_S3136x128_S3136x128_S3136x128_S3136x128_S3136x1152_d1 (ix2 p k) 8 (by show 8 < 9; omega) S3136x128 q8 rfl rfl 1024 rfl
        (ix2 p ⟨k.val % 128, Nat.mod_lt _ (by omega)⟩) ?_ ?_
      · intro b hb
        match b with
        | ⟨0, _⟩ => rfl
        | ⟨1, _⟩ => exact absurd rfl hb
      · show 1024 + k.val % 128 = k.val
        omega
    rw [e, ht]
    exact h8 p _

end Cert.KernelIdeal.Conv
end
-- ==== Proof.KerConvAcc.lean ====
import proofs.«143499_g2000705972228531_pallasbulk_146_16_alg».proof.Proof.Gen.KernelIdeal.Skeleton
import proofs.«143499_g2000705972228531_pallasbulk_146_16_alg».proof.Proof.Spec
import proofs.«143499_g2000705972228531_pallasbulk_146_16_alg».proof.Proof.LibFlatten
import proofs.«143499_g2000705972228531_pallasbulk_146_16_alg».proof.Proof.LibDotEntry
import proofs.«143499_g2000705972228531_pallasbulk_146_16_alg».proof.Proof.KerConvPatch
import Idealize.ShloMosaic.Lib.Pipeline.Value
import Idealize.ShloMosaic.PureOps.Ideal.Laws

noncomputable section

namespace Cert.KernelIdeal.Conv

open Idealize.ShloMosaic Idealize.ShloMosaic.TcCoe Idealize.SL.Sem Idealize.ShloMosaic.ValueIdx
open Cert.KernelIdeal.Gen

/-! # The product and what is stored

Each of the block's two images is rounded, padded and unrolled into its 3136 × 1152 patch matrix; the two are stacked
into 6272 × 1152 and multiplied by the 1152 × 256 weights into a zero accumulator, so entry `(r, o)` of the product is
the plain sum over the 1152 positions of the patch row times the weight column. The product is stored as 2 × 3136 × 256,
and its column sums, and those of its square, over the 6272 rows are stored as two rows of 256. -/

/-- The image a loaded 1 × 56 × 56 × 128 block holds, rounded to the 16-bit format (the identity on extended reals). -/
abbrev img (v : Vec Ideal S1x56x56x128 .f32) : FVec Ideal S56x56x128 .bf16 :=
  truncf .bf16 (shapeCast S56x56x128 v shapeCasts_S1x56x56x128_S56x56x128) bitsLt_bf16_f32

/-- The image at pixel `(a, b)`, channel `c`, is the block at `(0, a, b, c)`. -/
theorem img_apply (v : Vec Ideal S1x56x56x128 .f32) (a b : Fin 56) (c : Fin 128) :
    img v (ix3 a b c) = v (ix4 ⟨0, by omega⟩ a b c) :=
  shapeCast_apply v shapeCasts_S1x56x56x128_S56x56x128 (ix3 a b c) (ix4 ⟨0, by omega⟩ a b c) (by
    rw [Shape.rowMajor_val_four, Shape.rowMajor_val_three]
    show ((0 * 56 + a.val) * 56 + b.val) * 128 + c.val = (a.val * 56 + b.val) * 128 + c.val
    omega)

/-- Entry `(p, k)` of an image's patch matrix, at natural coordinates: the padded image at pixel `(p / 56, p % 56)`
    moved by the shifts of copy `k / 128`, channel `k % 128`. -/
def patchNat (x : S56x56x128.Idx → EReal) (p k : ℕ) : EReal :=
  padNat x (p / 56 + k / 128 / 3) (p % 56 + k / 128 % 3) (k % 128)

/-- The padded image read at natural coordinates inside its extents is the padded reading. -/
theorem at3_padFull (x : FVec Ideal S56x56x128 .bf16) (i j c : ℕ) (hi : i < 58) (hj : j < 58) (hc : c < 128) :
    Spec.at3 (padFull x) i j c = padNat x i j c := by
  unfold Spec.at3
  rw [dif_pos ⟨hi, hj, hc⟩]
  exact padFull_apply x ⟨i, hi⟩ ⟨j, hj⟩ ⟨c, hc⟩

/-- The first image's patch matrix at an entry. -/
theorem patch7_apply (v2 : Vec Ideal S1x56x56x128 .f32) (p : Fin 3136) (k : Fin 1152) :
    k0_pay7 v2 (ix2 p k) = patchNat (img v2) p.val k.val := by
  have hp := p.isLt
  have hk := k.isLt
  unfold k0_pay7
  refine (join9_apply _ _ _ _ _ _ _ _ _
    (fun t p c => Spec.at3 (padFull (img v2)) (p.val / 56 + t / 3) (p.val % 56 + t % 3) c.val)
    (fun p c => tapSlice_apply (padFull (img v2)) 0 0 slices_S58x58x128_o0_0_0_S58x56x128 slices_S58x56x128_o0_0_0_S56x56x128 (by omega) (by omega) p c)
    (fun p c => tapSlice_apply (padFull (img v2)) 1 0 slices_S58x58x128_o0_1_0_S58x56x128 slices_S58x56x128_o0_0_0_S56x56x128 (by omega) (by omega) p c)
    (fun p c => tapSlice_apply (padFull (img v2)) 2 0 slices_S58x58x128_o0_2_0_S58x56x128 slices_S58x56x128_o0_0_0_S56x56x128 (by omega) (by omega) p c)
    (fun p c => tapSlice_apply (padFull (img v2)) 0 1 slices_S58x58x128_o0_0_0_S58x56x128 slices_S58x56x128_o1_0_0_S56x56x128 (by omega) (by omega) p c)
    (fun p c => tapSlice_apply (padFull (img v2)) 1 1 slices_S58x58x128_o0_1_0_S58x56x128 slices_S58x56x128_o1_0_0_S56x56x128 (by omega) (by omega) p c)
    (fun p c => tapSlice_apply (padFull (img v2)) 2 1 slices_S58x58x128_o0_2_0_S58x56x128 slices_S58x56x128_o1_0_0_S56x56x128 (by omega) (by omega) p c)
    (fun p c => tapSlice_apply (padFull (img v2)) 0 2 slices_S58x58x128_o0_0_0_S58x56x128 slices_S58x56x128_o2_0_0_S56x56x128 (by omega) (by omega) p c)
    (fun p c => tapSlice_apply (padFull (img v2)) 1 2 slices_S58x58x128_o0_1_0_S58x56x128 slices_S58x56x128_o2_0_0_S56x56x128 (by omega) (by omega) p c)
    (fun p c => tapSlice_apply (padFull (img v2)) 2 2 slices_S58x58x128_o0_2_0_S58x56x128 slices_S58x56x128_o2_0_0_S56x56x128 (by omega) (by omega) p c)
    p k).trans ?_
  exact at3_padFull (img v2) _ _ _ (by omega) (by omega) (Nat.mod_lt _ (by omega))

/-- The second image's patch matrix — its nine copies as the body names them — at an entry. -/
theorem patch2_apply (v29 : Vec Ideal S1x56x56x128 .f32) (p : Fin 3136) (k : Fin 1152) :
    concatenate S3136x1152 1 [⟨S3136x128, k0_pay12 v29⟩, ⟨S3136x128, k0_pay13 v29⟩, ⟨S3136x128, k0_pay14 v29⟩, ⟨S3136x128, k0_pay15 v29⟩, ⟨S3136x128, k0_pay16 v29⟩, ⟨S3136x128, k0_pay17 v29⟩,
      ⟨S3136x128, shapeCast S3136x128 (extractStridedSlice S56x56x128 ![2, 0, 0] (k0_pay9 v29) slices_S58x56x128_o2_0_0_S56x56x128) shapeCasts_S56x56x128_S3136x128⟩,
      ⟨S3136x128, shapeCast S3136x128 (extractStridedSlice S56x56x128 ![2, 0, 0] (k0_pay10 v29) slices_S58x56x128_o2_0_0_S56x56x128) shapeCasts_S56x56x128_S3136x128⟩,
      ⟨S3136x128, shapeCast S3136x128 (extractStridedSlice S56x56x128 ![2, 0, 0] (k0_pay11 v29) slices_S58x56x128_o2_0_0_S56x56x128) shapeCasts_S56x56x128_S3136x128⟩]
        concatenates_S3136x128_S3136x128_S3136x128_S3136x128_S3136x128_S3136x128_S3136x128_S3136x128_S3136x128_S3136x1152_d1 (ix2 p k)
      = patchNat (img v29) p.val k.val := by
  have hp := p.isLt
  have hk := k.isLt
  refine (join9_apply _ _ _ _ _ _ _ _ _
    (fun t p c => Spec.at3 (padFull (img v29)) (p.val / 56 + t / 3) (p.val % 56 + t % 3) c.val)
    (fun p c => tapSlice_apply (padFull (img v29)) 0 0 slices_S58x58x128_o0_0_0_S58x56x128 slices_S58x56x128_o0_0_0_S56x56x128 (by omega) (by omega) p c)
    (fun p c => tapSlice_apply (padFull (img v29)) 1 0 slices_S58x58x128_o0_1_0_S58x56x128 slices_S58x56x128_o0_0_0_S56x56x128 (by omega) (by omega) p c)
    (fun p c => tapSlice_apply (padFull (img v29)) 2 0 slices_S58x58x128_o0_2_0_S58x56x128 slices_S58x56x128_o0_0_0_S56x56x128 (by omega) (by omega) p c)
    (fun p c => tapSlice_apply (padFull (img v29)) 0 1 slices_S58x58x128_o0_0_0_S58x56x128 slices_S58x56x128_o1_0_0_S56x56x128 (by omega) (by omega) p c)
    (fun p c => tapSlice_apply (padFull (img v29)) 1 1 slices_S58x58x128_o0_1_0_S58x56x128 slices_S58x56x128_o1_0_0_S56x56x128 (by omega) (by omega) p c)
    (fun p c => tapSlice_apply (padFull (img v29)) 2 1 slices_S58x58x128_o0_2_0_S58x56x128 slices_S58x56x128_o1_0_0_S56x56x128 (by omega) (by omega) p c)
    (fun p c => tapSlice_apply (padFull (img v29)) 0 2 slices_S58x58x128_o0_0_0_S58x56x128 slices_S58x56x128_o2_0_0_S56x56x128 (by omega) (by omega) p c)
    (fun p c => tapSlice_apply (padFull (img v29)) 1 2 slices_S58x58x128_o0_1_0_S58x56x128 slices_S58x56x128_o2_0_0_S56x56x128 (by omega) (by omega) p c)
    (fun p c => tapSlice_apply (padFull (img v29)) 2 2 slices_S58x58x128_o0_2_0_S58x56x128 slices_S58x56x128_o2_0_0_S56x56x128 (by omega) (by omega) p c)
    p k).trans ?_
  exact at3_padFull (img v29) _ _ _ (by omega) (by omega) (Nat.mod_lt _ (by omega))

/-- Entry `(r, k)` of the stacked patch matrix: the first image's for the first 3136 rows, the second's after. -/
def stackNat (x y : S56x56x128.Idx → EReal) (r k : ℕ) : EReal :=
  if r < 3136 then patchNat x r k else patchNat y (r - 3136) k

/-- THE PRODUCT at entry `(r, o)`: the sum over the 1152 positions of the stacked patch row times the weight column. -/
theorem acc_apply (v2 v29 : Vec Ideal S1x56x56x128 .f32) (v57 : Vec Ideal S1152x256 .bf16) (r : Fin 6272) (o : Fin 256) :
    k0_pay1 (k0_pay7 v2) (k0_pay9 v29) (k0_pay10 v29) (k0_pay11 v29) (k0_pay12 v29) (k0_pay13 v29) (k0_pay14 v29) (k0_pay15 v29) (k0_pay16 v29) (k0_pay17 v29) v57 (ix2 r o)
      = ∑ k : Fin 1152, stackNat (img v2) (img v29) r.val k.val * v57 (ix2 k o) := by
  have hr := r.isLt
  unfold k0_pay1
  refine (Cert.Lib.DotEntry.matmul_zero_ix2 dot_S6272x1152_S1152x256_S6272x256_1_0_0_1_n_n rfl rfl
    (fun i c => rfl) (fun i c => DotDims.lhsIdx_val_of_single _ (cl := (1 : Fin 2)) rfl i c)
    (fun i c => DotDims.rhsIdx_val_of_single _ (cr := (0 : Fin 2)) rfl i c) (fun i c => rfl) _ _ r o).trans ?_
  refine Finset.sum_congr rfl fun k _ => ?_
  refine congrArg₂ (· * ·) ?_ (congrFun (shapeCast_self v57 shapeCasts_S1152x256_S1152x256) (ix2 k o))
  unfold stackNat
  by_cases h : r.val < 3136
  · rw [if_pos h]
    refine (concatenate_pair_apply_left (t := S6272x1152) (0 : Fin 2) _ _ concatenates_S3136x1152_S3136x1152_S6272x1152_d0 (ix2 r k) rfl
      (ix2 ⟨r.val, h⟩ k) ?_).trans (patch7_apply v2 ⟨r.val, h⟩ k)
    intro b
    match b with
    | ⟨0, _⟩ => rfl
    | ⟨1, _⟩ => rfl
  · rw [if_neg h]
    refine (concatenate_pair_apply_right (t := S6272x1152) (0 : Fin 2) _ _ concatenates_S3136x1152_S3136x1152_S6272x1152_d0 (ix2 r k) rfl rfl
      (ix2 ⟨r.val - 3136, by omega⟩ k) ?_ ?_).trans (patch2_apply v29 ⟨r.val - 3136, by omega⟩ k)
    · intro b hb
      match b with
      | ⟨0, _⟩ => exact absurd rfl hb
      | ⟨1, _⟩ => rfl
    · show r.val - 3136 + 3136 = r.val
      omega

/-- What is stored into the first output: the product recast to 2 × 3136 × 256 — image `b`, pixel `p` is row
    `b · 3136 + p`. -/
theorem pay2_apply (v2 v29 : Vec Ideal S1x56x56x128 .f32) (v57 : Vec Ideal S1152x256 .bf16) (b : Fin 2) (p : Fin 3136) (o : Fin 256) :
    k0_pay2 (k0_pay7 v2) (k0_pay9 v29) (k0_pay10 v29) (k0_pay11 v29) (k0_pay12 v29) (k0_pay13 v29) (k0_pay14 v29) (k0_pay15 v29) (k0_pay16 v29) (k0_pay17 v29) v57 (ix3 b p o)
      = k0_pay1 (k0_pay7 v2) (k0_pay9 v29) (k0_pay10 v29) (k0_pay11 v29) (k0_pay12 v29) (k0_pay13 v29) (k0_pay14 v29) (k0_pay15 v29) (k0_pay16 v29) (k0_pay17 v29) v57 (ix2 ⟨b.val * 3136 + p.val, by have := b.isLt; have := p.isLt; omega⟩ o) := by
  unfold k0_pay2
  exact Cert.Lib.Flatten.shapeCast_nc_abc_apply _ shapeCasts_S6272x256_S2x3136x256 b p o ⟨b.val * 3136 + p.val, _⟩ rfl

/-- The sum of a 6272 × 256 matrix over its rows, stored as 1 × 1 × 256, at column `o`. -/
theorem colsum_apply (acc : FVec Ideal S6272x256 .f32) (o : Fin 256) :
    shapeCast S1x1x256 (shapeCast S1x256 (multiReduction (F := Ideal) .add [0] S256 acc 0x00000000#32 reduces_S6272x256_S256 (.inl rfl) rfl)
        shapeCasts_S256_S1x256) shapeCasts_S1x256_S1x1x256 (ix3 ⟨0, by omega⟩ ⟨0, by omega⟩ o)
      = ∑ r : Fin 6272, acc (ix2 r o) := by
  refine (shapeCast_apply _ shapeCasts_S1x256_S1x1x256 (ix3 ⟨0, by omega⟩ ⟨0, by omega⟩ o) (ix2 ⟨0, by omega⟩ o) (by
    rw [Shape.rowMajor_val_two, Shape.rowMajor_val_three]; rfl)).trans ?_
  refine (shapeCast_apply _ shapeCasts_S256_S1x256 (ix2 ⟨0, by omega⟩ o) (ix1 o) (by
    rw [Shape.rowMajor_val_one, Shape.rowMajor_val_two]; show o.val = 0 * 256 + o.val; omega)).trans ?_
  refine (Ideal.multiReduction_add_single acc 0x00000000#32 reduces_S6272x256_S256 _ _ (ix1 o)).trans ?_
  refine Finset.sum_congr rfl fun r _ => congrArg acc (funext fun a => Fin.ext ?_)
  match a with
  | ⟨0, _⟩ => rfl
  | ⟨1, _⟩ => rfl

/-- What is stored into row 0 of the second output: the product's column sums. -/
theorem pay3_apply (v2 v29 : Vec Ideal S1x56x56x128 .f32) (v57 : Vec Ideal S1152x256 .bf16) (o : Fin 256) :
    k0_pay3 (k0_pay7 v2) (k0_pay9 v29) (k0_pay10 v29) (k0_pay11 v29) (k0_pay12 v29) (k0_pay13 v29) (k0_pay14 v29) (k0_pay15 v29) (k0_pay16 v29) (k0_pay17 v29) v57 (ix3 ⟨0, by omega⟩ ⟨0, by omega⟩ o)
      = ∑ r : Fin 6272, k0_pay1 (k0_pay7 v2) (k0_pay9 v29) (k0_pay10 v29) (k0_pay11 v29) (k0_pay12 v29) (k0_pay13 v29) (k0_pay14 v29) (k0_pay15 v29) (k0_pay16 v29) (k0_pay17 v29) v57 (ix2 r o) := by
  unfold k0_pay3
  exact colsum_apply _ o

/-- What is stored into row 1 of the second output: the column sums of the product's square. -/
theorem pay4_apply (v2 v29 : Vec Ideal S1x56x56x128 .f32) (v57 : Vec Ideal S1152x256 .bf16) (o : Fin 256) :
    k0_pay4 (k0_pay7 v2) (k0_pay9 v29) (k0_pay10 v29) (k0_pay11 v29) (k0_pay12 v29) (k0_pay13 v29) (k0_pay14 v29) (k0_pay15 v29) (k0_pay16 v29) (k0_pay17 v29) v57 (ix3 ⟨0, by omega⟩ ⟨0, by omega⟩ o)
      = ∑ r : Fin 6272, k0_pay1 (k0_pay7 v2) (k0_pay9 v29) (k0_pay10 v29) (k0_pay11 v29) (k0_pay12 v29) (k0_pay13 v29) (k0_pay14 v29) (k0_pay15 v29) (k0_pay16 v29) (k0_pay17 v29) v57 (ix2 r o) * k0_pay1 (k0_pay7 v2) (k0_pay9 v29) (k0_pay10 v29) (k0_pay11 v29) (k0_pay12 v29) (k0_pay13 v29) (k0_pay14 v29) (k0_pay15 v29) (k0_pay16 v29) (k0_pay17 v29) v57 (ix2 r o) := by
  unfold k0_pay4
  exact colsum_apply _ o

end Cert.KernelIdeal.Conv
end
-- ==== Proof.KerConvOut.lean ====
import proofs.«143499_g2000705972228531_pallasbulk_146_16_alg».proof.Proof.Gen.KernelIdeal.Frame
import proofs.«143499_g2000705972228531_pallasbulk_146_16_alg».proof.Proof.Spec
import proofs.«143499_g2000705972228531_pallasbulk_146_16_alg».proof.Proof.KerConvAcc
import Idealize.ShloMosaic.Lib.Pipeline.Value
import Idealize.ShloMosaic.PureOps.Ideal.Laws

noncomputable section

namespace Cert.KernelIdeal.Conv

open Idealize.ShloMosaic Idealize.ShloMosaic.TcCoe Idealize.SL.Sem Idealize.ShloMosaic.ValueIdx
open Cert.KernelIdeal.Gen

/-! # The two output buffers after the body, read at an index

Over a block `x0` of two images (2 × 56 × 56 × 128) and the weights `x1` (1152 × 256): the first output's buffer
holds, at image `b`, pixel `p`, channel `o`, the convolution sum; the second output's buffer holds in its two rows
the sums over the block's 6272 pixels of the convolution sum and of its square. Both are written over arrays with any
number of images, read at natural coordinates, so that a block and the whole array are spoken of alike. -/

theorem hz2 : (![0, 0] : Fin 2 → Nat) = fun _ => 0 := funext fun a => by fin_cases a <;> rfl
theorem hz3 : (![0, 0, 0] : Fin 3 → Nat) = fun _ => 0 := funext fun a => by fin_cases a <;> rfl

/-- A patch row over a stack of `N` channel-last images: position `k` of the row of pixel `(h, w)` of image `n`
    holds the padded pixel moved by the shifts of copy `k / 128`, channel `k % 128`. -/
def patchG {N : ℕ} (A : (⟨4, ![N, 56, 56, 128]⟩ : Shape).Idx → EReal) (n h w k : ℕ) : EReal :=
  if 1 ≤ h + k / 128 / 3 ∧ 1 ≤ w + k / 128 % 3 then Spec.at4 A n (h + k / 128 / 3 - 1) (w + k / 128 % 3 - 1) (k % 128) else 0

/-- The patch row times a column of the weights. -/
def accG {N : ℕ} (A : (⟨4, ![N, 56, 56, 128]⟩ : Shape).Idx → EReal) (Bm : (⟨2, ![1152, 256]⟩ : Shape).Idx → EReal)
    (n h w o : ℕ) : EReal :=
  ∑ k : Fin 1152, patchG A n h w k.val * Spec.at2 Bm k.val o

/-- A load of the block's first image reads the block at image 0. -/
theorem ld0_apply (x0 : Vec Ideal S2x56x56x128 .f32) (a b : Fin 56) (c : Fin 128) :
    View.ld x0 r0_0 (ix4 ⟨0, by omega⟩ a b c) = x0 (ix4 ⟨0, by omega⟩ a b c) := by
  show x0 (r0_0.idx (ix4 ⟨0, by omega⟩ a b c)) = _
  refine congrArg x0 (funext fun d => Fin.ext ?_)
  match d with
  | ⟨0, _⟩ => rfl
  | ⟨1, _⟩ => show 0 + 1 * a.val = a.val; omega
  | ⟨2, _⟩ => show 0 + 1 * b.val = b.val; omega
  | ⟨3, _⟩ => show 0 + 1 * c.val = c.val; omega

/-- A load of the block's second image reads the block at image 1. -/
theorem ld1_apply (x0 : Vec Ideal S2x56x56x128 .f32) (a b : Fin 56) (c : Fin 128) :
    View.ld x0 r0_1 (ix4 ⟨0, by omega⟩ a b c) = x0 (ix4 ⟨1, by omega⟩ a b c) := by
  show x0 (r0_1.idx (ix4 ⟨0, by omega⟩ a b c)) = _
  refine congrArg x0 (funext fun d => Fin.ext ?_)
  match d with
  | ⟨0, _⟩ => rfl
  | ⟨1, _⟩ => show 0 + 1 * a.val = a.val; omega
  | ⟨2, _⟩ => show 0 + 1 * b.val = b.val; omega
  | ⟨3, _⟩ => show 0 + 1 * c.val = c.val; omega

/-- The first image at natural coordinates is the block at image 0. -/
theorem imgNat0 (x0 : Vec Ideal S2x56x56x128 .f32) (a b c : ℕ) :
    Spec.at3 (img (View.ld x0 r0_0)) a b c = Spec.at4 x0 0 a b c := by
  unfold Spec.at3 Spec.at4
  by_cases h : a < 56 ∧ b < 56 ∧ c < 128
  · rw [dif_pos h, dif_pos ⟨by omega, h.1, h.2.1, h.2.2⟩, img_apply, ld0_apply]
  · rw [dif_neg h, dif_neg (fun h' => h ⟨h'.2.1, h'.2.2.1, h'.2.2.2⟩)]

/-- The second image at natural coordinates is the block at image 1. -/
theorem imgNat1 (x0 : Vec Ideal S2x56x56x128 .f32) (a b c : ℕ) :
    Spec.at3 (img (View.ld x0 r0_1)) a b c = Spec.at4 x0 1 a b c := by
  unfold Spec.at3 Spec.at4
  by_cases h : a < 56 ∧ b < 56 ∧ c < 128
  · rw [dif_pos h, dif_pos ⟨by omega, h.1, h.2.1, h.2.2⟩, img_apply, ld1_apply]
  · rw [dif_neg h, dif_neg (fun h' => h ⟨h'.2.1, h'.2.2.1, h'.2.2.2⟩)]

/-- Row `r` of the stacked patch matrix is the patch row of pixel `r % 3136` of image `r / 3136` of the block. -/
theorem stack_eq (x0 : Vec Ideal S2x56x56x128 .f32) (r k : ℕ) (hr : r < 6272) :
    stackNat (img (View.ld x0 r0_0)) (img (View.ld x0 r0_1)) r k = patchG x0 (r / 3136) (r % 3136 / 56) (r % 3136 % 56) k := by
  unfold stackNat patchNat padNat patchG
  by_cases h : r < 3136
  · have e1 : r / 3136 = 0 := by omega
    have e2 : r % 3136 = r := by omega
    rw [if_pos h, e1, e2, imgNat0]
  · have e1 : r / 3136 = 1 := by omega
    have e2 : r % 3136 = r - 3136 := by omega
    rw [if_neg h, e1, e2, imgNat1]

/-- The product at entry `(r, o)`, over the block. -/
theorem accBlk_apply (x0 : Vec Ideal S2x56x56x128 .f32) (x1 : Vec Ideal S1152x256 .bf16) (r : Fin 6272) (o : Fin 256) :
    k0_pay1 (k0_pay7 (View.ld x0 r0_0)) (k0_pay9 (View.ld x0 r0_1)) (k0_pay10 (View.ld x0 r0_1)) (k0_pay11 (View.ld x0 r0_1)) (k0_pay12 (View.ld x0 r0_1)) (k0_pay13 (View.ld x0 r0_1)) (k0_pay14 (View.ld x0 r0_1)) (k0_pay15 (View.ld x0 r0_1)) (k0_pay16 (View.ld x0 r0_1)) (k0_pay17 (View.ld x0 r0_1)) (View.ld x1 r0_2) (ix2 r o)
      = accG x0 x1 (r.val / 3136) (r.val % 3136 / 56) (r.val % 3136 % 56) o.val := by
  refine (acc_apply (View.ld x0 r0_0) (View.ld x0 r0_1) (View.ld x1 r0_2) r o).trans ?_
  unfold accG
  refine Finset.sum_congr rfl fun k _ => ?_
  rw [stack_eq x0 r.val k.val r.isLt, View.ld_unit_zero (S := S1152x256) hz2, Spec.at2_fin]

/-- THE FIRST OUTPUT'S BUFFER after the body: at image `b`, pixel `p`, channel `o` the convolution sum. -/
theorem out2_apply (x0 : Vec Ideal S2x56x56x128 .f32) (x1 : Vec Ideal S1152x256 .bf16) (b : Fin 2) (p : Fin 3136) (o : Fin 256) :
    out0_2 x0 x1 (ix3 b p o) = accG x0 x1 b.val (p.val / 56) (p.val % 56) o.val := by
  have hb := b.isLt
  have hp := p.isLt
  unfold out0_2
  rw [View.canon_unit_zero hz3]
  refine (pay2_apply (View.ld x0 r0_0) (View.ld x0 r0_1) (View.ld x1 r0_2) b p o).trans ?_
  refine (accBlk_apply x0 x1 _ o).trans ?_
  have e1 : (b.val * 3136 + p.val) / 3136 = b.val := by omega
  have e2 : (b.val * 3136 + p.val) % 3136 = p.val := by omega
  show accG x0 x1 ((b.val * 3136 + p.val) / 3136) ((b.val * 3136 + p.val) % 3136 / 56) ((b.val * 3136 + p.val) % 3136 % 56) o.val = _
  rw [e1, e2]

/-- A 1 × 2 × 256 buffer written by two stores of one row each, row 1 last: row 0 reads the first store's payload,
    row 1 the last store's. -/
theorem canon_rows (P4 P3 : Vec Ideal S1x1x256 .f32) (s : Fin 2) (o : Fin 256) :
    View.canon ([⟨r0_5, P4⟩, ⟨r0_4, P3⟩] : List (View.Piece (Elt Ideal) S1x2x256 .f32)) (ix3 ⟨0, by omega⟩ s o)
      = if s.val = 0 then P3 (ix3 ⟨0, by omega⟩ ⟨0, by omega⟩ o) else P4 (ix3 ⟨0, by omega⟩ ⟨0, by omega⟩ o) := by
  by_cases hs : s.val = 0
  · rw [if_pos hs]
    have hnot : ix3 (⟨0, by omega⟩ : Fin 1) s o ∉ (r0_5 : Rect S1x2x256).set := by
      rw [Rect.mem_set_unit]
      intro h
      have h1 : (1 : ℕ) ≤ s.val := (h (1 : Fin 3)).1
      omega
    have hidx : ix3 (⟨0, by omega⟩ : Fin 1) s o = (r0_4 : Rect S1x2x256).emb (ix3 (⟨0, by omega⟩ : Fin 1) (⟨0, by omega⟩ : Fin 1) o) := by
      funext d; refine Fin.ext ?_
      match d with
      | ⟨0, _⟩ => rfl
      | ⟨1, _⟩ => show s.val = 0 + 1 * 0; omega
      | ⟨2, _⟩ => show o.val = 0 + 1 * o.val; omega
    refine (View.canon_cons_of_not_mem (⟨r0_5, P4⟩ : View.Piece (Elt Ideal) S1x2x256 .f32)
      ([⟨r0_4, P3⟩] : List (View.Piece (Elt Ideal) S1x2x256 .f32)) hnot).trans ?_
    rw [hidx]
    exact View.canon_cons_emb (r0_4 : Rect S1x2x256) P3 [] _
  · rw [if_neg hs]
    have hs1 : s.val = 1 := by have := s.isLt; omega
    have hidx : ix3 (⟨0, by omega⟩ : Fin 1) s o = (r0_5 : Rect S1x2x256).emb (ix3 (⟨0, by omega⟩ : Fin 1) (⟨0, by omega⟩ : Fin 1) o) := by
      funext d; refine Fin.ext ?_
      match d with
      | ⟨0, _⟩ => rfl
      | ⟨1, _⟩ => show s.val = 1 + 1 * 0; omega
      | ⟨2, _⟩ => show o.val = 0 + 1 * o.val; omega
    rw [hidx]
    exact View.canon_cons_emb (r0_5 : Rect S1x2x256) P4 _ _

/-- THE SECOND OUTPUT'S BUFFER after the body: row 0 holds the sums of the convolution sum over the block's 6272
    pixels, row 1 the sums of its square. -/
theorem out3_apply (x0 : Vec Ideal S2x56x56x128 .f32) (x1 : Vec Ideal S1152x256 .bf16) (s : Fin 2) (o : Fin 256) :
    out0_3 x0 x1 (ix3 ⟨0, by omega⟩ s o)
      = ∑ r : Fin 6272, (if s.val = 0 then (fun y : EReal => y) else (fun y => y * y))
          (accG x0 x1 (r.val / 3136) (r.val % 3136 / 56) (r.val % 3136 % 56) o.val) := by
  unfold out0_3
  refine (canon_rows _ _ s o).trans ?_
  by_cases hs : s.val = 0
  · rw [if_pos hs]
    refine (pay3_apply (View.ld x0 r0_0) (View.ld x0 r0_1) (View.ld x1 r0_2) o).trans ?_
    refine Finset.sum_congr rfl fun r _ => ?_
    rw [if_pos hs]
    exact accBlk_apply x0 x1 r o
  · rw [if_neg hs]
    refine (pay4_apply (View.ld x0 r0_0) (View.ld x0 r0_1) (View.ld x1 r0_2) o).trans ?_
    refine Finset.sum_congr rfl fun r _ => ?_
    rw [if_neg hs, accBlk_apply x0 x1 r o]

end Cert.KernelIdeal.Conv
end
-- ==== Proof.KerConv.lean ====
import proofs.«143499_g2000705972228531_pallasbulk_146_16_alg».proof.Proof.Gen.KernelIdeal.Frame
import proofs.«143499_g2000705972228531_pallasbulk_146_16_alg».proof.Proof.Spec
import proofs.«143499_g2000705972228531_pallasbulk_146_16_alg».proof.Proof.KerConvOut
import Idealize.ShloMosaic.Lib.Pipeline.Value

set_option maxRecDepth 16384

noncomputable section

namespace Cert.KernelIdeal.Conv

open Idealize.ShloMosaic Idealize.ShloMosaic.TcCoe Idealize.SL.Sem Idealize.ShloMosaic.ValueIdx
open Idealize.ShloMosaic.Pipeline (Dat)
open Cert.KernelIdeal.Gen

/-! # From blocks to arrays: what the first pass leaves

At grid point `t` (of 16) the pass reads images `2t` and `2t + 1` and the whole weight matrix, and writes back block
`t` of each output. The blocks of each output tile its array, so after the pass the first output holds the convolution
sum at every image, pixel and channel, and the second holds, for every pair of images, the two sums over the pair's
6272 pixels. -/

variable (V : (c : Dev nD) → (b : Ref sig .tc) → Buf (Elt Ideal) ((c : Thread nD τ).loc b))

/-- Where each window's block sits at point `t`: the image windows and both outputs move along their first axis with
    the point, the weights stay. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- The convolution sum over an image block and a weight block is the one over the arrays the blocks are cut from:
    image `b` of block `t` is image `2t + b` of the array. -/
theorem accG_blk (x0 : (⟨4, ![2, 56, 56, 128]⟩ : Shape).Idx → EReal) (A : (⟨4, ![32, 56, 56, 128]⟩ : Shape).Idx → EReal)
    (x1 Bm : (⟨2, ![1152, 256]⟩ : Shape).Idx → EReal) (t : ℕ) (ht : t < 16)
    (h0 : ∀ (b : Fin 2) (a b' : Fin 56) (ch : Fin 128), x0 (ix4 b a b' ch) = A (ix4 ⟨t * 2 + b.val, by have := b.isLt; omega⟩ a b' ch))
    (h1 : ∀ (k : Fin 1152) (o : Fin 256), x1 (ix2 k o) = Bm (ix2 k o)) (b h w o : ℕ) (hb : b < 2) :
    accG x0 x1 b h w o = Spec.accFlat A Bm (t * 2 + b) h w o := by
  unfold accG Spec.accFlat
  refine Finset.sum_congr rfl fun k _ => ?_
  have e4 : ∀ i j ch : ℕ, Spec.at4 x0 b i j ch = Spec.at4 A (t * 2 + b) i j ch := fun i j ch => by
    unfold Spec.at4
    by_cases hh : i < 56 ∧ j < 56 ∧ ch < 128
    · rw [dif_pos ⟨hb, hh⟩, dif_pos ⟨by omega, hh⟩]
      exact h0 ⟨b, hb⟩ ⟨i, hh.1⟩ ⟨j, hh.2.1⟩ ⟨ch, hh.2.2⟩
    · rw [dif_neg (fun h' => hh h'.2), dif_neg (fun h' => hh h'.2)]
  have e2 : Spec.at2 x1 k.val o = Spec.at2 Bm k.val o := by
    unfold Spec.at2
    by_cases hh : k.val < 1152 ∧ o < 256
    · rw [dif_pos hh, dif_pos hh]; exact h1 _ _
    · rw [dif_neg hh, dif_neg hh]
  unfold patchG Spec.patch
  rw [e4, e2]

/-- The image window's block at point `t`: images `2t` and `2t + 1` of the array. -/
theorem blk0_read (c : Dev nD) (t : Fin cfg0.N) (b : Fin 2) (a b' : Fin 56) (ch : Fin 128) :
    iblk0 V c 0 t (ix4 b a b' ch)
      = (V c main_v0 : S32x56x56x128.Idx → EReal) (ix4 ⟨t.val * 2 + b.val, by have h1 := t.isLt; have hN : cfg0.N = 16 := N_0; have h2 := b.isLt; show t.val * 2 + b.val < 32; omega⟩ a b' ch) := by
  obtain ⟨e0, e1, e2, e3, -⟩ := idx_facts t
  show V c main_v0 (((cfg0.win 0).blk t).view.emb (ix4 b a b' ch)) = _
  refine congrArg _ (funext fun d => Fin.ext ?_)
  match d with
  | ⟨0, _⟩ => show win0_0.index t (0 : Fin 4) * 2 + 1 * b.val = t.val * 2 + b.val; omega
  | ⟨1, _⟩ => show win0_0.index t (1 : Fin 4) * 56 + 1 * a.val = a.val; omega
  | ⟨2, _⟩ => show win0_0.index t (2 : Fin 4) * 56 + 1 * b'.val = b'.val; omega
  | ⟨3, _⟩ => show win0_0.index t (3 : Fin 4) * 128 + 1 * ch.val = ch.val; omega

/-- The weight window's block at any point: the whole array. -/
theorem blk1_read (c : Dev nD) (t : Fin cfg0.N) (k : Fin 1152) (o : Fin 256) :
    iblk0 V c 1 t (ix2 k o) = (V c main_v3 : S1152x256.Idx → EReal) (ix2 k o) := by
  obtain ⟨-, -, -, -, e0, e1, -⟩ := idx_facts t
  show V c main_v3 (((cfg0.win 1).blk t).view.emb (ix2 k o)) = _
  refine congrArg _ (funext fun d => Fin.ext ?_)
  match d with
  | ⟨0, _⟩ => show win0_1.index t (0 : Fin 2) * 1152 + 1 * k.val = k.val; omega
  | ⟨1, _⟩ => show win0_1.index t (1 : Fin 2) * 256 + 1 * o.val = o.val; omega

/-- What the first output's array ends holding. -/
abbrev yArr (c : Dev nD) : S32x3136x256.Idx → EReal := fun i =>
  Spec.accFlat (V c main_v0) (V c main_v3) (i 0).val ((i 1).val / 56) ((i 1).val % 56) (i 2).val

/-- What the second output's array ends holding. -/
abbrev statsArr (c : Dev nD) : S16x2x256.Idx → EReal := fun i =>
  Spec.pairSum (if (i 1).val = 0 then (fun y => y) else (fun y => y * y)) (V c main_v0) (V c main_v3) (i 0).val (i 2).val

/-- WHAT POINT `t` WRITES BACK to the first output is block `t` of the convolution sums. -/
theorem flushed2_eq (c : Dev nD) (t : Fin cfg0.N) :
    (dat0 (F := Ideal) V c).flushed 2 t = ((cfg0.win 2).blk t).view.read (Elt Ideal) (yArr V c) := by
  show (cfg0.win 2).cut (grid0.coords t) ((dat0 (F := Ideal) V c).after 2 t) = _
  rw [after0_2]
  have ht : t.val < 16 := by have h1 := t.isLt; have hN : cfg0.N = 16 := N_0; omega
  obtain ⟨-, -, -, -, -, -, e0, e1, e2, -⟩ := idx_facts t
  funext j
  have hj : j = ix3 (n0 := 2) (n1 := 3136) (n2 := 256) (j 0) (j 1) (j 2) := eq_ix3 (n0 := 2) (n1 := 3136) (n2 := 256) j
  generalize (j 0 : Fin 2) = b at hj
  generalize (j 1 : Fin 3136) = p at hj
  generalize (j 2 : Fin 256) = o at hj
  subst hj
  show out0_2 (iblk0 V c 0 t) (iblk0 V c 1 t) (ix3 b p o) = yArr V c (((cfg0.win 2).blk t).view.emb (ix3 b p o))
  refine (out2_apply (iblk0 V c 0 t) (iblk0 V c 1 t) b p o).trans ?_
  refine (accG_blk (iblk0 V c 0 t) (V c main_v0) (iblk0 V c 1 t) (V c main_v3) t.val ht (blk0_read V c t) (blk1_read V c t)
    b.val (p.val / 56) (p.val % 56) o.val b.isLt).trans ?_
  have q0 : ((((cfg0.win 2).blk t).view.emb (ix3 b p o)) 0).val = t.val * 2 + b.val := by
    show win0_2.index t (0 : Fin 3) * 2 + 1 * b.val = _; omega
  have q1 : ((((cfg0.win 2).blk t).view.emb (ix3 b p o)) 1).val = p.val := by
    show win0_2.index t (1 : Fin 3) * 3136 + 1 * p.val = _; omega
  have q2 : ((((cfg0.win 2).blk t).view.emb (ix3 b p o)) 2).val = o.val := by
    show win0_2.index t (2 : Fin 3) * 256 + 1 * o.val = _; omega
  show _ = Spec.accFlat (V c main_v0) (V c main_v3) ((((cfg0.win 2).blk t).view.emb (ix3 b p o)) 0).val
    (((((cfg0.win 2).blk t).view.emb (ix3 b p o)) 1).val / 56) (((((cfg0.win 2).blk t).view.emb (ix3 b p o)) 1).val % 56)
    ((((cfg0.win 2).blk t).view.emb (ix3 b p o)) 2).val
  rw [q0, q1, q2]

/-- An index of the first output is in point `t`'s block iff each coordinate is in the block's range on its axis. -/
theorem mem_blk2 (t : Fin cfg0.N) (i : S32x3136x256.Idx) :
    i ∈ ((cfg0.win 2).blk t).view.set ↔ ∀ a : Fin 3, win0_2.index t a * S2x3136x256.size a ≤ (i a).val ∧ (i a).val < win0_2.index t a * S2x3136x256.size a + S2x3136x256.size a := by
  show i ∈ ((View.whole main_v4_0).slice (win0_2.rect t)).set ↔ _
  rw [View.set_slice_whole, Rect.mem_set_unit]
  exact Iff.rfl

/-- Every index of the first output is in the block of the point its image belongs to. -/
theorem cover2 (i : S32x3136x256.Idx) : ∃ t : Fin cfg0.N, (cfg0.win 2).flush t = true ∧ i ∈ ((cfg0.win 2).blk t).view.set := by
  have hi0 : (i 0).val < 32 := (i 0).isLt
  have hi1 : (i 1).val < 3136 := (i 1).isLt
  have hi2 : (i 2).val < 256 := (i 2).isLt
  have hN : grid0.N = 16 := N_0
  let t : Fin cfg0.N := ⟨(i 0).val / 2, by show (i 0).val / 2 < grid0.N; omega⟩
  obtain ⟨-, -, -, -, -, -, e0, e1, e2, -⟩ := idx_facts t
  have e0' : win0_2.index t (0 : Fin 3) = (i 0).val / 2 := e0
  refine ⟨t, flush0_2 t, ?_⟩
  rw [mem_blk2]
  intro a
  match a with
  | ⟨0, _⟩ => show win0_2.index t (0 : Fin 3) * 2 ≤ (i 0).val ∧ (i 0).val < win0_2.index t (0 : Fin 3) * 2 + 2; omega
  | ⟨1, _⟩ => show win0_2.index t (1 : Fin 3) * 3136 ≤ (i 1).val ∧ (i 1).val < win0_2.index t (1 : Fin 3) * 3136 + 3136; omega
  | ⟨2, _⟩ => show win0_2.index t (2 : Fin 3) * 256 ≤ (i 2).val ∧ (i 2).val < win0_2.index t (2 : Fin 3) * 256 + 256; omega

/-- THE FIRST OUTPUT after the pass: the convolution sum at every image, pixel and channel. -/
theorem y_final (c : Dev nD) : (dat0 (F := Ideal) V c).arrAt 2 cfg0.N
    = fun i => Cert.Spec.accFlat (V c main_v0) (V c main_v3) (i 0).val ((i 1).val / 56) ((i 1).val % 56) (i 2).val :=
  (dat0 (F := Ideal) V c).arrAt_eq_of_cover 2 (yArr V c) (fun t _ => flushed2_eq V c t) cover2

/-- WHAT POINT `t` WRITES BACK to the second output is block `t` of the pair sums. -/
theorem flushed3_eq (c : Dev nD) (t : Fin cfg0.N) :
    (dat0 (F := Ideal) V c).flushed 3 t = ((cfg0.win 3).blk t).view.read (Elt Ideal) (statsArr V c) := by
  show (cfg0.win 3).cut (grid0.coords t) ((dat0 (F := Ideal) V c).after 3 t) = _
  rw [after0_3]
  have ht : t.val < 16 := by have h1 := t.isLt; have hN : cfg0.N = 16 := N_0; omega
  obtain ⟨-, -, -, -, -, -, -, -, -, e0, e1, e2⟩ := idx_facts t
  funext j
  have hj : j = ix3 (n0 := 1) (n1 := 2) (n2 := 256) (j 0) (j 1) (j 2) := eq_ix3 (n0 := 1) (n1 := 2) (n2 := 256) j
  generalize (j 0 : Fin 1) = z at hj
  generalize (j 1 : Fin 2) = s at hj
  generalize (j 2 : Fin 256) = o at hj
  subst hj
  obtain rfl : z = ⟨0, Nat.one_pos⟩ := Fin.ext (by have hz : z.val < 1 := z.isLt; show z.val = 0; omega)
  show out0_3 (iblk0 V c 0 t) (iblk0 V c 1 t) (ix3 ⟨0, by omega⟩ s o) = statsArr V c (((cfg0.win 3).blk t).view.emb (ix3 ⟨0, by omega⟩ s o))
  refine (out3_apply (iblk0 V c 0 t) (iblk0 V c 1 t) s o).trans ?_
  have q0 : ((((cfg0.win 3).blk t).view.emb (ix3 (⟨0, by omega⟩ : Fin 1) s o)) 0).val = t.val := by
    show win0_3.index t (0 : Fin 3) * 1 + 1 * 0 = _; omega
  have q1 : ((((cfg0.win 3).blk t).view.emb (ix3 (⟨0, by omega⟩ : Fin 1) s o)) 1).val = s.val := by
    show win0_3.index t (1 : Fin 3) * 2 + 1 * s.val = _; omega
  have q2 : ((((cfg0.win 3).blk t).view.emb (ix3 (⟨0, by omega⟩ : Fin 1) s o)) 2).val = o.val := by
    show win0_3.index t (2 : Fin 3) * 256 + 1 * o.val = _; omega
  show _ = Spec.pairSum (if ((((cfg0.win 3).blk t).view.emb (ix3 (⟨0, by omega⟩ : Fin 1) s o)) 1).val = 0 then (fun y => y) else (fun y => y * y))
    (V c main_v0) (V c main_v3) ((((cfg0.win 3).blk t).view.emb (ix3 (⟨0, by omega⟩ : Fin 1) s o)) 0).val
    ((((cfg0.win 3).blk t).view.emb (ix3 (⟨0, by omega⟩ : Fin 1) s o)) 2).val
  rw [q0, q1, q2]
  unfold Spec.pairSum
  refine Finset.sum_congr rfl fun r _ => ?_
  have hr := r.isLt
  rw [accG_blk (iblk0 V c 0 t) (V c main_v0) (iblk0 V c 1 t) (V c main_v3) t.val ht (blk0_read V c t) (blk1_read V c t)
    (r.val / 3136) (r.val % 3136 / 56) (r.val % 3136 % 56) o.val (by omega)]

/-- An index of the second output is in point `t`'s block iff each coordinate is in the block's range on its axis. -/
theorem mem_blk3 (t : Fin cfg0.N) (i : S16x2x256.Idx) :
    i ∈ ((cfg0.win 3).blk t).view.set ↔ ∀ a : Fin 3, win0_3.index t a * S1x2x256.size a ≤ (i a).val ∧ (i a).val < win0_3.index t a * S1x2x256.size a + S1x2x256.size a := by
  show i ∈ ((View.whole main_v4_1).slice (win0_3.rect t)).set ↔ _
  rw [View.set_slice_whole, Rect.mem_set_unit]
  exact Iff.rfl

/-- Every index of the second output is in the block of its pair's point. -/
theorem cover3 (i : S16x2x256.Idx) : ∃ t : Fin cfg0.N, (cfg0.win 3).flush t = true ∧ i ∈ ((cfg0.win 3).blk t).view.set := by
  have hi0 : (i 0).val < 16 := (i 0).isLt
  have hi1 : (i 1).val < 2 := (i 1).isLt
  have hi2 : (i 2).val < 256 := (i 2).isLt
  have hN : grid0.N = 16 := N_0
  let t : Fin cfg0.N := ⟨(i 0).val, by show (i 0).val < grid0.N; omega⟩
  obtain ⟨-, -, -, -, -, -, -, -, -, e0, e1, e2⟩ := idx_facts t
  have e0' : win0_3.index t (0 : Fin 3) = (i 0).val := e0
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 2 ≤ (i 1).val ∧ (i 1).val < win0_3.index t (1 : Fin 3) * 2 + 2; omega
  | ⟨2, _⟩ => show win0_3.index t (2 : Fin 3) * 256 ≤ (i 2).val ∧ (i 2).val < win0_3.index t (2 : Fin 3) * 256 + 256; omega

/-- THE SECOND OUTPUT after the pass: for every pair of images, the sum of the convolution sum (row 0) and of its
    square (row 1) over the pair's 6272 pixels. -/
theorem stats_final (c : Dev nD) : (dat0 (F := Ideal) V c).arrAt 3 cfg0.N
    = fun i => Cert.Spec.pairSum (if (i 1).val = 0 then (fun y => y) else (fun y => y * y)) (V c main_v0) (V c main_v3) (i 0).val (i 2).val :=
  (dat0 (F := Ideal) V c).arrAt_eq_of_cover 3 (statsArr V c) (fun t _ => flushed3_eq V c t) cover3

end Cert.KernelIdeal.Conv
end
-- ==== Proof.KerNormBlocks.lean ====
/-
  From blocks to the array, for the second pass.  Point t of its 8 points reads images 4·t … 4·t + 3 of the
  convolution array (all 3136 pixels, all 256 channels), the whole array of per-pair sums and the whole scale and
  shift rows, and writes the same four images of the result.  8 · 4 = 32, so the blocks tile the result, and it
  ends holding, entry by entry, the normalised and activated convolution.
-/
import proofs.«143499_g2000705972228531_pallasbulk_146_16_alg».proof.Proof.Spec
import proofs.«143499_g2000705972228531_pallasbulk_146_16_alg».proof.Proof.Gen.KernelIdeal.Frame
import proofs.«143499_g2000705972228531_pallasbulk_146_16_alg».proof.Proof.KerNorm
import Idealize.ShloMosaic.Lib.ValueIdx
import Idealize.ShloMosaic.Lib.Pipeline.Value

noncomputable section

namespace Cert.KernelIdeal.Norm

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- The result array over the arrays the pass finds. -/
abbrev normed (c : Dev nD) : S32x3136x256.Idx → EReal :=
  normArr (V c main_v4_0) (V c main_v4_1) (V c main_v5) (V c main_v6)

theorem hz3 : (![0, 0, 0] : Fin 3 → Nat) = fun _ => 0 := funext fun a => by fin_cases a <;> rfl
theorem hz2 : (![0, 0] : Fin 2 → Nat) = fun _ => 0 := funext fun a => by fin_cases a <;> rfl

/-- The block indices over the grid: the convolution array and the result move one block of four images per point,
    the sums and the two rows stay. -/
theorem idx_facts : ∀ t : Fin cfg1.N,
    (win1_0.index t (0 : Fin 3) = t.val ∧ win1_0.index t (1 : Fin 3) = 0 ∧ win1_0.index t (2 : Fin 3) = 0)
    ∧ (win1_1.index t (0 : Fin 3) = 0 ∧ win1_1.index t (1 : Fin 3) = 0 ∧ win1_1.index t (2 : Fin 3) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 3) = t.val ∧ win1_4.index t (1 : Fin 3) = 0 ∧ win1_4.index t (2 : Fin 3) = 0) :=
  (by decide +kernel : ∀ t : Fin grid1.N, _)

/-- The convolution array's block at point t: image b of the block is image 4·t + b of the array. -/
theorem iblk0_apply (c : Dev nD) (t : Fin cfg1.N) (b : Fin 4) (p : Fin 3136) (o : Fin 256) (k : S32x3136x256.Idx)
    (hk0 : (k 0).val = 4 * t.val + b.val) (hk1 : (k 1).val = p.val) (hk2 : (k 2).val = o.val) :
    (Gen.iblk1 V c 0 t : FVec Ideal S4x3136x256 .bf16) (ix3 b p o) = (V c main_v4_0 : S32x3136x256.Idx → EReal) k := by
  obtain ⟨⟨e0, e1, e2⟩, -⟩ := idx_facts t
  unfold Gen.iblk1
  rw [View.read_apply]
  show V c main_v4_0 _ = V c main_v4_0 _
  congr 1
  funext a
  apply Fin.ext
  match a with
  | ⟨0, _⟩ => show win1_0.index t 0 * 4 + 1 * b.val = (k 0).val; rw [e0, hk0]; omega
  | ⟨1, _⟩ => show win1_0.index t 1 * 3136 + 1 * p.val = (k 1).val; rw [e1, hk1]; omega
  | ⟨2, _⟩ => show win1_0.index t 2 * 256 + 1 * o.val = (k 2).val; rw [e2, hk2]; omega

/-- The per-pair sums' block at any point is the whole array of sums. -/
theorem iblk1_eq (c : Dev nD) (t : Fin cfg1.N) :
    (Gen.iblk1 V c 1 t : FVec Ideal S16x2x256 .f32) = (V c main_v4_1 : S16x2x256.Idx → EReal) := by
  obtain ⟨-, ⟨e0, e1, e2⟩, -⟩ := idx_facts t
  funext j
  unfold Gen.iblk1
  rw [View.read_apply]
  show V c main_v4_1 _ = V c main_v4_1 _
  congr 1
  funext a
  apply Fin.ext
  match a with
  | ⟨0, _⟩ => show win1_1.index t 0 * 16 + 1 * (j 0).val = (j 0).val; rw [e0]; omega
  | ⟨1, _⟩ => show win1_1.index t 1 * 2 + 1 * (j 1).val = (j 1).val; rw [e1]; omega
  | ⟨2, _⟩ => show win1_1.index t 2 * 256 + 1 * (j 2).val = (j 2).val; rw [e2]; omega

/-- The scale row's block at any point is the scale row. -/
theorem iblk2_eq (c : Dev nD) (t : Fin cfg1.N) :
    (Gen.iblk1 V c 2 t : FVec Ideal S1x256 .f32) = (V c main_v5 : S1x256.Idx → EReal) := by
  obtain ⟨-, -, ⟨e0, e1⟩, -⟩ := idx_facts t
  funext j
  unfold Gen.iblk1
  rw [View.read_apply]
  show V c main_v5 _ = V c main_v5 _
  congr 1
  funext a
  apply Fin.ext
  match a with
  | ⟨0, _⟩ => show win1_2.index t 0 * 1 + 1 * (j 0).val = (j 0).val; rw [e0]; omega
  | ⟨1, _⟩ => show win1_2.index t 1 * 256 + 1 * (j 1).val = (j 1).val; rw [e1]; omega

/-- The shift row's block at any point is the shift row. -/
theorem iblk3_eq (c : Dev nD) (t : Fin cfg1.N) :
    (Gen.iblk1 V c 3 t : FVec Ideal S1x256 .f32) = (V c main_v6 : S1x256.Idx → EReal) := by
  obtain ⟨-, -, -, ⟨e0, e1⟩, -⟩ := idx_facts t
  funext j
  unfold Gen.iblk1
  rw [View.read_apply]
  show V c main_v6 _ = V c main_v6 _
  congr 1
  funext a
  apply Fin.ext
  match a with
  | ⟨0, _⟩ => show win1_3.index t 0 * 1 + 1 * (j 0).val = (j 0).val; rw [e0]; omega
  | ⟨1, _⟩ => show win1_3.index t 1 * 256 + 1 * (j 1).val = (j 1).val; rw [e1]; omega

/-- What point t stores at image b, pixel p, channel o of its block is the result array at image 4·t + b, pixel p,
    channel o. -/
theorem block_apply (c : Dev nD) (t : Fin cfg1.N) (b : Fin 4) (p : Fin 3136) (o : Fin 256) (k : S32x3136x256.Idx)
    (hk0 : (k 0).val = 4 * t.val + b.val) (hk1 : (k 1).val = p.val) (hk2 : (k 2).val = o.val) :
    Gen.k1_pay1 (Gen.k1_pay2 (Gen.iblk1 V c 1 t) (Gen.iblk1 V c 2 t) (Gen.iblk1 V c 3 t) (Gen.iblk1 V c 0 t))
        (Gen.k1_pay3 (F := Ideal)) (ix3 b p o) = normed V c k := by
  refine (pay_apply (Gen.iblk1 V c 0 t) (Gen.iblk1 V c 1 t) (Gen.iblk1 V c 2 t) (Gen.iblk1 V c 3 t) b p o).trans ?_
  have ho : k 2 = o := Fin.ext hk2
  subst ho
  unfold normAt
  rw [iblk0_apply V c t b p (k 2) k hk0 hk1 rfl, iblk1_eq V c t, iblk2_eq V c t, iblk3_eq V c t]
  rfl

/-- WHAT POINT t WRITES BACK is block t of the result array. -/
theorem flushed_eq (c : Dev nD) (t : Fin cfg1.N) :
    (Gen.dat1 (F := Ideal) V c).flushed 4 t = ((cfg1.win 4).blk t).view.read (Elt Ideal) (normed V c) := by
  show (cfg1.win 4).cut (grid1.coords t) ((Gen.dat1 V c).after 4 t) = _
  rw [Gen.after1_4]
  unfold Gen.out1_4
  rw [View.canon_unit_zero hz3]
  simp only [View.ld_unit_zero (S := S4x3136x256) hz3, View.ld_unit_zero (S := S16x2x256) hz3,
    View.ld_unit_zero (S := S1x256) hz2]
  obtain ⟨-, -, -, -, ⟨e0, e1, e2⟩⟩ := idx_facts t
  funext j
  show Gen.k1_pay1 (Gen.k1_pay2 (Gen.iblk1 V c 1 t) (Gen.iblk1 V c 2 t) (Gen.iblk1 V c 3 t) (Gen.iblk1 V c 0 t))
      (Gen.k1_pay3 (F := Ideal)) (j : S4x3136x256.Idx)
    = normed V c (((cfg1.win 4).blk t).view.emb j)
  refine (congrArg (Gen.k1_pay1 (Gen.k1_pay2 (Gen.iblk1 V c 1 t) (Gen.iblk1 V c 2 t) (Gen.iblk1 V c 3 t) (Gen.iblk1 V c 0 t))
      (Gen.k1_pay3 (F := Ideal))) (eq_ix3 (n0 := 4) (n1 := 3136) (n2 := 256) j)).trans
    (block_apply V c t (j 0) (j 1) (j 2) (((cfg1.win 4).blk t).view.emb j) ?_ ?_ ?_)
  · show win1_4.index t 0 * 4 + 1 * (j 0).val = 4 * t.val + (j 0).val
    rw [e0]; omega
  · show win1_4.index t 1 * 3136 + 1 * (j 1).val = (j 1).val
    rw [e1]; omega
  · show win1_4.index t 2 * 256 + 1 * (j 2).val = (j 2).val
    rw [e2]; omega

/-- An index of the array is in point t's block iff each coordinate is in the block's range on its axis. -/
theorem mem_blk (t : Fin cfg1.N) (i : S32x3136x256.Idx) :
    i ∈ ((cfg1.win 4).blk t).view.set ↔ ∀ a : Fin 3, win1_4.index t a * S4x3136x256.size a ≤ (i a).val
      ∧ (i a).val < win1_4.index t a * S4x3136x256.size a + S4x3136x256.size a := by
  show i ∈ ((View.whole main_v7).slice (win1_4.rect t)).set ↔ _
  rw [View.set_slice_whole, Rect.mem_set_unit]
  exact Iff.rfl

/-- Image n lies in the block of point n / 4: the 8 blocks of 4 images tile the 32 images. -/
theorem cover (i : S32x3136x256.Idx) :
    ∃ t : Fin cfg1.N, (cfg1.win 4).flush t = true ∧ i ∈ ((cfg1.win 4).blk t).view.set := by
  have hi0 : (i 0).val < 32 := (i 0).isLt
  have hi1 : (i 1).val < 3136 := (i 1).isLt
  have hi2 : (i 2).val < 256 := (i 2).isLt
  have hN : cfg1.N = 8 := Gen.N_1
  have ht : (i 0).val / 4 < cfg1.N := by rw [hN]; omega
  obtain ⟨-, -, -, -, ⟨e0, e1, e2⟩⟩ := idx_facts ⟨(i 0).val / 4, ht⟩
  refine ⟨⟨(i 0).val / 4, ht⟩, Gen.flush1_4 _, ?_⟩
  rw [mem_blk]
  intro a
  match a with
  | ⟨0, _⟩ =>
    show win1_4.index ⟨(i 0).val / 4, ht⟩ 0 * 4 ≤ (i 0).val
      ∧ (i 0).val < win1_4.index ⟨(i 0).val / 4, ht⟩ 0 * 4 + 4
    rw [e0]; show (i 0).val / 4 * 4 ≤ (i 0).val ∧ (i 0).val < (i 0).val / 4 * 4 + 4; omega
  | ⟨1, _⟩ =>
    show win1_4.index ⟨(i 0).val / 4, ht⟩ 1 * 3136 ≤ (i 1).val
      ∧ (i 1).val < win1_4.index ⟨(i 0).val / 4, ht⟩ 1 * 3136 + 3136
    rw [e1]; omega
  | ⟨2, _⟩ =>
    show win1_4.index ⟨(i 0).val / 4, ht⟩ 2 * 256 ≤ (i 2).val
      ∧ (i 2).val < win1_4.index ⟨(i 0).val / 4, ht⟩ 2 * 256 + 256
    rw [e2]; omega

/-- THE RESULT ARRAY after the pass: the normalised and activated convolution array, from the arrays the pass was
    entered with. -/
theorem out_final (c : Dev nD) :
    (Gen.dat1 (F := Ideal) V c).arrAt 4 cfg1.N = normArr (V c main_v4_0) (V c main_v4_1) (V c main_v5) (V c main_v6) :=
  (Gen.dat1 (F := Ideal) V c).arrAt_eq_of_cover 4 (normed V c) (fun t _ => flushed_eq V c t) cover

end Cert.KernelIdeal.Norm

end
-- ==== Proof.RefRun.lean ====
/-
  The reference program's run with its result named: every weakly fair execution of the whole program
  terminates, and in every final state the result buffer holds the last boundary's contents of that buffer,
  while the four argument arrays are as launched.  All five facts are read off the one final thread state,
  in which every unscoped buffer holds the last boundary's contents.
-/
import proofs.«143499_g2000705972228531_pallasbulk_146_16_alg».proof.Proof.Gen.ReferenceIdeal.Frame

set_option maxRecDepth 16384

noncomputable section

namespace Cert.ReferenceIdeal.RefRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result buffer read at the last boundary's contents and the arguments as launched. -/
theorem run_named : θ_run defs (onTc (τ := τ) (main (F := F))) ⟨m, fun _ => 0, ρ⟩ (fun r => ∀ c : Dev nD,
      r.2.mem ((c.tc : Thread nD τ).loc main_v33) = W12 m ρ c (Proc.devRef .tc main_v33)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v33 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c)⟩)

end Cert.ReferenceIdeal.RefRun

end
-- ==== Proof.RefRunEntry0.lean ====
/-
  What the first pass of the reference is handed, in terms of the four argument arrays.

  Before its first pass the reference moves the image to channel-last layout and surrounds it with a border of
  zeros one pixel wide; it rearranges the weights, stored (output channel, input channel, stencil row, stencil
  column), into nine matrices (input channel × output channel), one per stencil position, rows of the stencil
  first; and it hands on the scale and offset vectors unchanged.  Read at natural-number coordinates:

    padded image (n, i, j, ci)  =  xpad X n i j ci          (zero on the border, the image inside)
    matrices (t, ci, o)         =  W (o, ci, t / 3, t % 3)

  so the nine taps over the padded image and the matrices are the nine taps of the convolution itself.
-/
import proofs.«143499_g2000705972228531_pallasbulk_146_16_alg».proof.Proof.Gen.ReferenceIdeal.Frame
import proofs.«143499_g2000705972228531_pallasbulk_146_16_alg».proof.Proof.Spec
import Idealize.ShloMosaic.Lib.KernelVsHost
import Idealize.ShloMosaic.Lib.IdealHost
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefRunEntry0

open Idealize.ShloMosaic Idealize.ShloMosaic.TcCoe Idealize.ShloMosaic.Tactic
open Idealize.ShloMosaic.ValueIdx
open Cert.ReferenceIdeal.Gen

/-! ## Three layout facts over arbitrary arrays -/

section Reads
variable {α : Type}

/-- The padded image at (n, i, j, ci): the bare image at (n, i − 1, j − 1, ci) when 1 ≤ i, j ≤ 56, the padding value
    on the border. -/
theorem pad_border_read (x : S32x56x56x128.Idx → α) (v : S_.Idx → α)
    (hp : S32x56x56x128.Pads ![0, 1, 1, 0] ![0, 1, 1, 0] ![0, 0, 0, 0] S32x58x58x128) (hu : 0 < S_.numel)
    (n : Fin 32) (i j : Fin 58) (ci : Fin 128) :
    pad S32x58x58x128 ![0, 1, 1, 0] ![0, 1, 1, 0] ![0, 0, 0, 0] x v hp hu (ix4 n i j ci)
      = if h : (1 ≤ i.val ∧ i.val ≤ 56) ∧ (1 ≤ j.val ∧ j.val ≤ 56) then
          x (ix4 n (⟨i.val - 1, by omega⟩ : Fin 56) (⟨j.val - 1, by omega⟩ : Fin 56) ci)
        else v (Shape.Idx.first hu) := by
  by_cases h : (1 ≤ i.val ∧ i.val ≤ 56) ∧ (1 ≤ j.val ∧ j.val ≤ 56)
  · rw [dif_pos h]
    refine pad_apply_of_inside _ _ _ x v hp hu _ _ (fun a => ?_)
    match a with
    | ⟨0, _⟩ => show n.val = 0 + n.val * 1; omega
    | ⟨1, _⟩ => show i.val = 1 + (i.val - 1) * 1; omega
    | ⟨2, _⟩ => show j.val = 1 + (j.val - 1) * 1; omega
    | ⟨3, _⟩ => show ci.val = 0 + ci.val * 1; omega
  · rw [dif_neg h]
    by_cases hi : 1 ≤ i.val ∧ i.val ≤ 56
    · have hj : ¬ (1 ≤ j.val ∧ j.val ≤ 56) := fun hj => h ⟨hi, hj⟩
      refine pad_apply_of_not_inside _ _ _ x v hp hu _ (2 : Fin 4) ?_
      show ¬ (1 ≤ j.val ∧ (j.val - 1) % 1 = 0 ∧ (j.val - 1) / 1 < 56)
      omega
    · refine pad_apply_of_not_inside _ _ _ x v hp hu _ (1 : Fin 4) ?_
      show ¬ (1 ≤ i.val ∧ (i.val - 1) % 1 = 0 ∧ (i.val - 1) / 1 < 56)
      omega

/-- Padding by nothing leaves a stack of nine matrices as it is. -/
theorem pad_none3 (x : S9x128x256.Idx → α) (v : S_.Idx → α)
    (hp : S9x128x256.Pads ![0, 0, 0] ![0, 0, 0] ![0, 0, 0] S9x128x256) (hu : 0 < S_.numel) :
    pad S9x128x256 ![0, 0, 0] ![0, 0, 0] ![0, 0, 0] x v hp hu = x := by
  funext j
  refine pad_apply_of_inside _ _ _ x v hp hu j j (fun a => ?_)
  match a with
  | ⟨0, _⟩ => show (j 0).val = 0 + (j 0).val * 1; omega
  | ⟨1, _⟩ => show (j 1).val = 0 + (j 1).val * 1; omega
  | ⟨2, _⟩ => show (j 2).val = 0 + (j 2).val * 1; omega

/-- Padding by nothing leaves a vector as it is. -/
theorem pad_none1 (x : S256.Idx → α) (v : S_.Idx → α)
    (hp : S256.Pads ![0] ![0] ![0] S256) (hu : 0 < S_.numel) :
    pad S256 ![0] ![0] ![0] x v hp hu = x := by
  funext j
  refine pad_apply_of_inside _ _ _ x v hp hu j j (fun a => ?_)
  match a with
  | ⟨0, _⟩ => show (j 0).val = 0 + (j 0).val * 1; omega

/-- Matrix t of the rearranged weights at (ci, o) is the weight of output channel o, input channel ci, at stencil
    row t / 3 and column t % 3. -/
theorem weights_read (w : S256x128x3x3.Idx → α) (ht : S256x128x3x3.Transposes [2, 3, 1, 0] S3x3x128x256)
    (hc : S3x3x128x256.ShapeCasts S9x128x256) (t : Fin 9) (ci : Fin 128) (o : Fin 256) :
    shapeCast S9x128x256 (transpose S3x3x128x256 [2, 3, 1, 0] w ht) hc (ix3 t ci o)
      = w (ix4 o ci (⟨t.val / 3, by omega⟩ : Fin 3) (⟨t.val % 3, by omega⟩ : Fin 3)) := by
  refine (shapeCast_apply _ hc (ix3 t ci o)
    (ix4 (⟨t.val / 3, by omega⟩ : Fin 3) (⟨t.val % 3, by omega⟩ : Fin 3) ci o) ?_).trans ?_
  · rw [Shape.rowMajor_val_four, Shape.rowMajor_val_three]
    show ((t.val / 3 * 3 + t.val % 3) * 128 + ci.val) * 256 + o.val = (t.val * 128 + ci.val) * 256 + o.val
    omega
  · refine transpose_apply _ w ht _ _ (fun b => ?_)
    match b with
    | ⟨0, _⟩ => rfl
    | ⟨1, _⟩ => rfl
    | ⟨2, _⟩ => rfl
    | ⟨3, _⟩ => rfl

/-- The channel-last image at (n, p, q, ci) is the channel-first image at (n, ci, p, q). -/
theorem image_read (x : S32x128x56x56.Idx → α) (ht : S32x128x56x56.Transposes [0, 2, 3, 1] S32x56x56x128)
    (n : Fin 32) (p q : Fin 56) (ci : Fin 128) :
    transpose S32x56x56x128 [0, 2, 3, 1] x ht (ix4 n p q ci) = x (ix4 n ci p q) := by
  refine transpose_apply _ x ht _ _ (fun b => ?_)
  match b with
  | ⟨0, _⟩ => rfl
  | ⟨1, _⟩ => rfl
  | ⟨2, _⟩ => rfl
  | ⟨3, _⟩ => rfl

end Reads

/-! ## The first pass's arrays as terms over the arguments -/

variable (m : (ℓ : Loc nD τ sig) → Buf (Elt Ideal) ℓ) (ρ : Dev nD → PrngReg)

/-- The image argument (image, channel, row, column). -/
abbrev X (c : Dev nD) : S32x128x56x56.Idx → EReal := m ((c.tc : Thread nD τ).loc main_arg0)
/-- The weight argument (output channel, input channel, stencil row, stencil column). -/
abbrev Wt (c : Dev nD) : S256x128x3x3.Idx → EReal := m ((c.tc : Thread nD τ).loc main_arg1)
/-- The scale argument. -/
abbrev Gm (c : Dev nD) : S256.Idx → EReal := m ((c.tc : Thread nD τ).loc main_arg2)
/-- The offset argument. -/
abbrev Bt (c : Dev nD) : S256.Idx → EReal := m ((c.tc : Thread nD τ).loc main_arg3)

theorem V8_v1 (c : Dev nD) : (V8 (F := Ideal) m ρ c main_v1 : S32x58x58x128.Idx → EReal) =
    pad S32x58x58x128 ![0, 1, 1, 0] ![0, 1, 1, 0] ![0, 0, 0, 0]
      (transpose S32x56x56x128 [0, 2, 3, 1] (X m c) transposes_S32x128x56x56_S32x56x56x128_0_2_3_1)
      (sitofp (F := Ideal) .f32 (constantI S_ 32 0#32)) pads_S32x56x56x128_S32x58x58x128_000_110_110_000 h_S_ := by
  show StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (W0 m ρ c)))))))) (Proc.devRef .tc main_v1) = _
  dsimp only [hostOps0_7, hostOps0_6, hostOps0_5, hostOps0_4, hostOps0_3, hostOps0_2, hostOps0_1, hostOps0]
  after_results
  rfl

theorem V8_v4 (c : Dev nD) : (V8 (F := Ideal) m ρ c main_v4 : S9x128x256.Idx → EReal) =
    pad S9x128x256 ![0, 0, 0] ![0, 0, 0] ![0, 0, 0]
      (shapeCast S9x128x256 (transpose S3x3x128x256 [2, 3, 1, 0] (Wt m c) transposes_S256x128x3x3_S3x3x128x256_2_3_1_0)
        shapeCasts_S3x3x128x256_S9x128x256)
      (sitofp (F := Ideal) .f32 (constantI S_ 32 0#32)) pads_S9x128x256_S9x128x256_000_000_000 h_S_ := by
  show StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (W0 m ρ c)))))))) (Proc.devRef .tc main_v4) = _
  dsimp only [hostOps0_7, hostOps0_6, hostOps0_5, hostOps0_4, hostOps0_3, hostOps0_2, hostOps0_1, hostOps0]
  after_results
  rfl

/-- The scale vector reaches the passes unchanged. -/
theorem V8_v5 (c : Dev nD) : (V8 (F := Ideal) m ρ c main_v5 : S256.Idx → EReal) = Gm m c := by
  refine Eq.trans (b := pad S256 ![0] ![0] ![0] (Gm m c) (constant (F := Ideal) S_ .f32 0x3F800000#32) pads_S256_S256_000 h_S_) ?_
    (pad_none1 _ _ _ _)
  show StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (W0 m ρ c)))))))) (Proc.devRef .tc main_v5) = _
  dsimp only [hostOps0_7, hostOps0_6, hostOps0_5, hostOps0_4, hostOps0_3, hostOps0_2, hostOps0_1, hostOps0]
  after_results
  rfl

/-- The offset vector reaches the passes unchanged. -/
theorem V8_v6 (c : Dev nD) : (V8 (F := Ideal) m ρ c main_v6 : S256.Idx → EReal) = Bt m c := by
  refine Eq.trans (b := pad S256 ![0] ![0] ![0] (Bt m c) (sitofp (F := Ideal) .f32 (constantI S_ 32 0#32)) pads_S256_S256_000 h_S_) ?_
    (pad_none1 _ _ _ _)
  show StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (W0 m ρ c)))))))) (Proc.devRef .tc main_v6) = _
  dsimp only [hostOps0_7, hostOps0_6, hostOps0_5, hostOps0_4, hostOps0_3, hostOps0_2, hostOps0_1, hostOps0]
  after_results
  rfl

/-! ## Read at natural-number coordinates -/

/-- The padded channel-last image is the image with its border of zeros. -/
theorem padded_at (c : Dev nD) (n i j ci : ℕ) (hn : n < 32) (hi : i < 58) (hj : j < 58) (hci : ci < 128) :
    Spec.at4 (V8 (F := Ideal) m ρ c main_v1 : S32x58x58x128.Idx → EReal) n i j ci = Spec.xpad (X m c) n i j ci := by
  have e := Spec.at4_fin (V8 (F := Ideal) m ρ c main_v1 : S32x58x58x128.Idx → EReal) (⟨n, hn⟩ : Fin 32) (⟨i, hi⟩ : Fin 58)
    (⟨j, hj⟩ : Fin 58) (⟨ci, hci⟩ : Fin 128)
  refine e.trans ?_
  rw [V8_v1, pad_border_read]
  unfold Spec.xpad
  by_cases h : (1 ≤ i ∧ i ≤ 56) ∧ (1 ≤ j ∧ j ≤ 56)
  · rw [dif_pos h, if_pos ⟨h.1.1, h.2.1⟩, image_read]
    exact (Spec.at4_fin (X m c) (⟨n, hn⟩ : Fin 32) (⟨ci, hci⟩ : Fin 128) (⟨i - 1, by omega⟩ : Fin 56) (⟨j - 1, by omega⟩ : Fin 56)).symm
  · rw [dif_neg h]
    have hz : (sitofp (F := Ideal) .f32 (constantI S_ 32 0#32)) (Shape.Idx.first h_S_) = (0 : EReal) := sitofp_zero
    rw [hz]
    by_cases h1 : 1 ≤ i ∧ 1 ≤ j
    · rw [if_pos h1]
      unfold Spec.at4
      rw [dif_neg (by omega)]
    · rw [if_neg h1]

/-- Matrix t of the rearranged weights at (ci, o), at natural-number coordinates. -/
theorem weights_at (c : Dev nD) (t ci o : ℕ) (ht : t < 9) (hci : ci < 128) (ho : o < 256) :
    Spec.at3 (V8 (F := Ideal) m ρ c main_v4 : S9x128x256.Idx → EReal) t ci o = Spec.at4 (Wt m c) o ci (t / 3) (t % 3) := by
  have e := Spec.at3_fin (V8 (F := Ideal) m ρ c main_v4 : S9x128x256.Idx → EReal) (⟨t, ht⟩ : Fin 9) (⟨ci, hci⟩ : Fin 128) (⟨o, ho⟩ : Fin 256)
  refine e.trans ?_
  rw [V8_v4, pad_none3, weights_read]
  exact (Spec.at4_fin (Wt m c) (⟨o, ho⟩ : Fin 256) (⟨ci, hci⟩ : Fin 128) (⟨t / 3, by omega⟩ : Fin 3) (⟨t % 3, by omega⟩ : Fin 3)).symm

/-! ## The nine taps -/

/-- Tap t over the padded image and the nine matrices is the convolution's tap at stencil row t / 3, column t % 3. -/
theorem tap_eq (c : Dev nD) (n h w o t : ℕ) (hn : n < 32) (hh : h < 56) (hw : w < 56) (ho : o < 256) (ht : t < 9) :
    Spec.tapPadded (V8 (F := Ideal) m ρ c main_v1) (V8 (F := Ideal) m ρ c main_v4) n h w o t
      = Spec.tap (X m c) (Wt m c) n h w o (t / 3) (t % 3) := by
  unfold Spec.tapPadded Spec.tap Spec.term
  refine Finset.sum_congr rfl (fun ci _ => ?_)
  rw [padded_at m ρ c n (h + t / 3) (w + t % 3) ci.val hn (by omega) (by omega) ci.isLt,
    weights_at m ρ c t ci.val o ht ci.isLt ho]

/-- The nine taps over the first pass's arrays are the convolution of the arguments. -/
theorem accTaps_eq (c : Dev nD) (n h w o : ℕ) (hn : n < 32) (hh : h < 56) (hw : w < 56) (ho : o < 256) :
    Spec.accTaps (V8 (F := Ideal) m ρ c main_v1) (V8 (F := Ideal) m ρ c main_v4) n h w o
      = Spec.convTaps (X m c) (Wt m c) n h w o := by
  unfold Spec.accTaps Spec.convTaps
  rw [tap_eq m ρ c n h w o 0 hn hh hw ho (by omega), tap_eq m ρ c n h w o 1 hn hh hw ho (by omega),
    tap_eq m ρ c n h w o 2 hn hh hw ho (by omega), tap_eq m ρ c n h w o 3 hn hh hw ho (by omega),
    tap_eq m ρ c n h w o 4 hn hh hw ho (by omega), tap_eq m ρ c n h w o 5 hn hh hw ho (by omega),
    tap_eq m ρ c n h w o 6 hn hh hw ho (by omega), tap_eq m ρ c n h w o 7 hn hh hw ho (by omega),
    tap_eq m ρ c n h w o 8 hn hh hw ho (by omega)]

end Cert.ReferenceIdeal.RefRunEntry0

end
-- ==== Proof.RefRunEntry1.lean ====
/-
  What the second pass of the reference is handed, in terms of the first pass's results.

  Between the passes the reference adds the 32 per-image rows of sums (row 0: the sums of the convolution, row 1:
  the sums of its squares) and turns the two totals s0, s1 of a channel into that channel's scale and shift:

    mean  = s0 · (1/M)            istd = rsqrt (max (s1 · (1/M) − mean · mean) 0 + ε)
    scale = γ · istd              shift = β − (mean · γ) · istd

  each a vector over the 256 channels, handed on as a one-row matrix.  The convolution's own array is handed on
  untouched.
-/
import proofs.«143499_g2000705972228531_pallasbulk_146_16_alg».proof.Proof.Gen.ReferenceIdeal.Frame
import proofs.«143499_g2000705972228531_pallasbulk_146_16_alg».proof.Proof.Spec
import proofs.«143499_g2000705972228531_pallasbulk_146_16_alg».proof.Proof.RefRunEntry0
import Idealize.ShloMosaic.Lib.KernelVsHost
import Idealize.ShloMosaic.Lib.IdealHost
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefRunEntry1

open Idealize.ShloMosaic Idealize.ShloMosaic.TcCoe Idealize.ShloMosaic.Tactic
open Idealize.ShloMosaic.ValueIdx
open Cert.ReferenceIdeal.Gen

open Cert.ReferenceIdeal.RefRunEntry0 (Gm Bt V8_v5 V8_v6)

/-! ## The operations between the passes, as functions of the arrays they read -/

/-- The 32 per-image rows added up: row 0 the sums, row 1 the sums of squares. -/
def sums (S : FVec Ideal S32x2x256 .f32) : FVec Ideal S2x256 .f32 :=
  Host.reduceAdd (F := Ideal) S (constant (F := Ideal) S_ .f32 0x00000000#32) reducesTo_S32x2x256_S2x256_d0 h_S_

/-- The mean of each channel. -/
def meanV (S : FVec Ideal S32x2x256 .f32) : FVec Ideal S256 .f32 :=
  mulf (shapeCast S256 (extractStridedSlice S1x256 ![0, 0] (sums S) slices_S2x256_S1x256_0_0) shapeCasts_S1x256_S256)
    (broadcastInDim S256 ![] bcast_S_S256 (constant (F := Ideal) S_ .f32 0x37272F05#32))

/-- The mean square of each channel. -/
def sqV (S : FVec Ideal S32x2x256 .f32) : FVec Ideal S256 .f32 :=
  mulf (shapeCast S256 (extractStridedSlice S1x256 ![1, 0] (sums S) slices_S2x256_S1x256_1_0) shapeCasts_S1x256_S256)
    (broadcastInDim S256 ![] bcast_S_S256 (constant (F := Ideal) S_ .f32 0x37272F05#32))

/-- The inverse standard deviation of each channel. -/
def istdV (S : FVec Ideal S32x2x256 .f32) : FVec Ideal S256 .f32 :=
  Host.rsqrt (F := Ideal)
    (addf
      (maximumf (subf (sqV S) (mulf (meanV S) (meanV S)))
        (broadcastInDim S256 ![] bcast_S_S256 (constant (F := Ideal) S_ .f32 0x00000000#32)))
      (broadcastInDim S256 ![] bcast_S_S256 (constant (F := Ideal) S_ .f32 0x3727C5AC#32)))

/-- The scale row. -/
def scaleV (S : FVec Ideal S32x2x256 .f32) (G : FVec Ideal S256 .f32) : FVec Ideal S1x256 .f32 :=
  shapeCast S1x256 (mulf G (istdV S)) shapeCasts_S256_S1x256

/-- The shift row. -/
def shiftV (S : FVec Ideal S32x2x256 .f32) (G B : FVec Ideal S256 .f32) : FVec Ideal S1x256 .f32 :=
  shapeCast S1x256 (subf B (mulf (mulf (meanV S) G) (istdV S))) shapeCasts_S256_S1x256

/-! ## Read at a channel -/

/-- A total at (row r, channel o) is the sum over the 32 images. -/
theorem sums_apply (S : FVec Ideal S32x2x256 .f32) (r : Fin 2) (o : Fin 256) :
    sums S (ix2 r o) = ∑ n : Fin 32, S (ix3 n r o) := by
  have h : S32x2x256.Reduces [0] S2x256 := by decide
  unfold sums
  refine (hostReduceAdd_apply S _ reducesTo_S32x2x256_S2x256_d0 h_S_ (ix2 r o)).trans ?_
  refine (Ideal.hostReduceAdd_single reducesTo_S32x2x256_S2x256_d0 h S _ (ix2 r o)).trans ?_
  rw [constant_apply, Ideal.ofBits_zero_f32, zero_add]
  refine Finset.sum_congr rfl (fun n _ => congrArg S (funext fun a => ?_))
  match a with
  | ⟨0, _⟩ => rfl
  | ⟨1, _⟩ => rfl
  | ⟨2, _⟩ => rfl

/-- Row r of a two-row matrix, taken out and flattened, at channel o. -/
theorem row_read (v : FVec Ideal S2x256 .f32) (r : Fin 2) (off : Fin 2 → ℕ) (hs : S2x256.Slices off S1x256)
    (h0 : off 0 = r.val) (h1 : off 1 = 0) (o : Fin 256) :
    shapeCast S256 (extractStridedSlice S1x256 off v hs) shapeCasts_S1x256_S256 (ix1 o) = v (ix2 r o) := by
  refine (shapeCast_apply _ shapeCasts_S1x256_S256 (ix1 o) (ix2 (0 : Fin 1) o) ?_).trans ?_
  · rw [Shape.rowMajor_val_two, Shape.rowMajor_val_one]
    show 0 * 256 + o.val = o.val
    omega
  · refine extractStridedSlice_apply off v hs (ix2 (0 : Fin 1) o) (ix2 r o) (fun a => ?_)
    match a with
    | ⟨0, _⟩ => show r.val = off 0 + 0; omega
    | ⟨1, _⟩ => show o.val = off 1 + o.val; omega

/-- A scalar constant spread over the channels reads the constant. -/
theorem splat_read (b : BitVec 32) (o : Fin 256) :
    broadcastInDim S256 ![] bcast_S_S256 (constant (F := Ideal) S_ .f32 b) (ix1 o) = Ideal.ofBits .f32 b :=
  broadcastInDim_scalar_apply bcast_S_S256 _ _

theorem meanV_apply (S : FVec Ideal S32x2x256 .f32) (o : Fin 256) :
    meanV S (ix1 o) = Spec.mean (∑ n : Fin 32, S (ix3 n 0 o)) := by
  unfold meanV Spec.mean Spec.invM
  refine congrArg₂ (fun a b : EReal => a * b) ?_ (splat_read _ o)
  exact (row_read (sums S) 0 ![0, 0] slices_S2x256_S1x256_0_0 rfl rfl o).trans (sums_apply S 0 o)

theorem sqV_apply (S : FVec Ideal S32x2x256 .f32) (o : Fin 256) :
    sqV S (ix1 o) = (∑ n : Fin 32, S (ix3 n 1 o)) * Spec.invM := by
  unfold sqV Spec.invM
  refine congrArg₂ (fun a b : EReal => a * b) ?_ (splat_read _ o)
  exact (row_read (sums S) 1 ![1, 0] slices_S2x256_S1x256_1_0 rfl rfl o).trans (sums_apply S 1 o)

theorem istdV_apply (S : FVec Ideal S32x2x256 .f32) (o : Fin 256) :
    istdV S (ix1 o) = Spec.istd (∑ n : Fin 32, S (ix3 n 0 o)) (∑ n : Fin 32, S (ix3 n 1 o)) := by
  unfold istdV Spec.istd Spec.eps
  show Ideal.rsqrt (max (sqV S (ix1 o) - meanV S (ix1 o) * meanV S (ix1 o))
      (broadcastInDim S256 ![] bcast_S_S256 (constant (F := Ideal) S_ .f32 0x00000000#32) (ix1 o))
      + broadcastInDim S256 ![] bcast_S_S256 (constant (F := Ideal) S_ .f32 0x3727C5AC#32) (ix1 o)) = _
  rw [sqV_apply, meanV_apply, splat_read, splat_read, Ideal.ofBits_zero_f32]

/-- A vector over the channels handed on as a one-row matrix reads the vector. -/
theorem as_row_read (v : FVec Ideal S256 .f32) (o : Fin 256) :
    shapeCast S1x256 v shapeCasts_S256_S1x256 (ix2 (0 : Fin 1) o) = v (ix1 o) := by
  refine shapeCast_apply _ shapeCasts_S256_S1x256 (ix2 (0 : Fin 1) o) (ix1 o) ?_
  rw [Shape.rowMajor_val_two, Shape.rowMajor_val_one]
  show o.val = 0 * 256 + o.val
  omega

/-- The scale of channel o is γ times the inverse standard deviation from the two totals. -/
theorem scaleV_apply (S : FVec Ideal S32x2x256 .f32) (G : FVec Ideal S256 .f32) (o : Fin 256) :
    scaleV S G (ix2 (0 : Fin 1) o)
      = G (ix1 o) * Spec.istd (∑ n : Fin 32, S (ix3 n 0 o)) (∑ n : Fin 32, S (ix3 n 1 o)) := by
  unfold scaleV
  refine (as_row_read _ o).trans ?_
  show G (ix1 o) * istdV S (ix1 o) = _
  rw [istdV_apply]

/-- The shift of channel o is β minus (mean times γ) times the inverse standard deviation. -/
theorem shiftV_apply (S : FVec Ideal S32x2x256 .f32) (G B : FVec Ideal S256 .f32) (o : Fin 256) :
    shiftV S G B (ix2 (0 : Fin 1) o)
      = B (ix1 o) - Spec.mean (∑ n : Fin 32, S (ix3 n 0 o)) * G (ix1 o)
          * Spec.istd (∑ n : Fin 32, S (ix3 n 0 o)) (∑ n : Fin 32, S (ix3 n 1 o)) := by
  unfold shiftV
  refine (as_row_read _ o).trans ?_
  show B (ix1 o) - meanV S (ix1 o) * G (ix1 o) * istdV S (ix1 o) = _
  rw [istdV_apply, meanV_apply]

/-! ## The second pass's arrays -/

variable (m : (ℓ : Loc nD τ sig) → Buf (Elt Ideal) ℓ) (ρ : Dev nD → PrngReg)

/-- The per-image sums the first pass leaves. -/
abbrev St (c : Dev nD) : S32x2x256.Idx → EReal := W9 (F := Ideal) m ρ c (Proc.devRef .tc main_v7_1)

/-- The scale vector is still the argument after the first pass. -/
theorem W9_v5 (c : Dev nD) : (W9 (F := Ideal) m ρ c (Proc.devRef .tc main_v5) : S256.Idx → EReal) = Gm m c :=
  (W9_of_ne m ρ c main_v5 (by decide)).trans (V8_v5 m ρ c)

/-- The offset vector is still the argument after the first pass. -/
theorem W9_v6 (c : Dev nD) : (W9 (F := Ideal) m ρ c (Proc.devRef .tc main_v6) : S256.Idx → EReal) = Bt m c :=
  (W9_of_ne m ρ c main_v6 (by decide)).trans (V8_v6 m ρ c)

theorem V10_v25 (c : Dev nD) : (V10 (F := Ideal) m ρ c main_v25 : S1x256.Idx → EReal) = scaleV (St m ρ c) (Gm m c) := by
  rw [← W9_v5 m ρ c]
  show StableHlo.after hostOps1 (W9 m ρ c) (Proc.devRef .tc main_v25) = _
  dsimp only [hostOps1]
  after_results_simp
  rfl

theorem V10_v29 (c : Dev nD) :
    (V10 (F := Ideal) m ρ c main_v29 : S1x256.Idx → EReal) = shiftV (St m ρ c) (Gm m c) (Bt m c) := by
  rw [← W9_v5 m ρ c, ← W9_v6 m ρ c]
  show StableHlo.after hostOps1 (W9 m ρ c) (Proc.devRef .tc main_v29) = _
  dsimp only [hostOps1]
  after_results_simp
  rfl

/-- The convolution's array is handed to the second pass untouched. -/
theorem V10_v7_0 (c : Dev nD) :
    V10 (F := Ideal) m ρ c main_v7_0 = W9 (F := Ideal) m ρ c (Proc.devRef .tc main_v7_0) :=
  StableHlo.after_of_forall_not_mem (b := Proc.devRef .tc main_v7_0) _ _ (List.forall_iff_forall_mem.mp (by
    simp only [hostOps1, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-- The scale the second pass is handed, at channel o. -/
theorem scale_at (c : Dev nD) (o : Fin 256) :
    (V10 (F := Ideal) m ρ c main_v25 : S1x256.Idx → EReal) (ix2 (0 : Fin 1) o)
      = Spec.at1 (Gm m c) o.val
          * Spec.istd (∑ n : Fin 32, St m ρ c (ix3 n 0 o)) (∑ n : Fin 32, St m ρ c (ix3 n 1 o)) := by
  rw [V10_v25, scaleV_apply, Spec.at1_fin]

/-- The shift the second pass is handed, at channel o. -/
theorem shift_at (c : Dev nD) (o : Fin 256) :
    (V10 (F := Ideal) m ρ c main_v29 : S1x256.Idx → EReal) (ix2 (0 : Fin 1) o)
      = Spec.at1 (Bt m c) o.val - Spec.mean (∑ n : Fin 32, St m ρ c (ix3 n 0 o)) * Spec.at1 (Gm m c) o.val
          * Spec.istd (∑ n : Fin 32, St m ρ c (ix3 n 0 o)) (∑ n : Fin 32, St m ρ c (ix3 n 1 o)) := by
  rw [V10_v29, shiftV_apply, Spec.at1_fin, Spec.at1_fin]

end Cert.ReferenceIdeal.RefRunEntry1

end
-- ==== Proof.RefConvTap.lean ====
/-
  One tap of the 3×3 stencil as the body computes it.

  The body loads a 56×56 rectangle of the padded 58×58 image block, flattens its pixels row by row to 3136 rows of
  128 channels, and multiplies by one 128×256 weight matrix into a zero accumulator: at exact arithmetic the product
  at (pixel p, output channel o) is the plain sum over the 128 input channels of the image at pixel p times the weight.
  The nine products are added left to right.  Everything is stated over READERS — an image block and a weight stack
  read at natural-number coordinates — so that a block of an array and the array itself are compared as functions.
-/
import proofs.«143499_g2000705972228531_pallasbulk_146_16_alg».proof.Proof.Spec
import proofs.«143499_g2000705972228531_pallasbulk_146_16_alg».proof.Proof.LibDotEntry
import proofs.«143499_g2000705972228531_pallasbulk_146_16_alg».proof.Proof.LibFlatten
import proofs.«143499_g2000705972228531_pallasbulk_146_16_alg».proof.Proof.Gen.ReferenceIdeal.Skeleton
import Idealize.ShloMosaic.Lib.Pipeline.Value

noncomputable section

namespace Cert.ReferenceIdeal.Conv

open Cert.ReferenceIdeal Cert.ReferenceIdeal.Gen Idealize.ShloMosaic Idealize.ShloMosaic.TcCoe Idealize.SL.Sem
open Idealize.ShloMosaic.ValueIdx

/-! ## Taps over readers -/

/-- Tap t at pixel (h, w) and output channel o, over an image reader (row, column, channel) and a weight reader
    (tap, input channel, output channel): the sum over the 128 input channels. -/
def tapR (R0 : ℕ → ℕ → ℕ → EReal) (R1 : ℕ → ℕ → ℕ → EReal) (h w o t : ℕ) : EReal :=
  ∑ ci : Fin 128, R0 (h + t / 3) (w + t % 3) ci.val * R1 t ci.val o

/-- The nine taps added one after the other. -/
def accR (R0 : ℕ → ℕ → ℕ → EReal) (R1 : ℕ → ℕ → ℕ → EReal) (h w o : ℕ) : EReal :=
  tapR R0 R1 h w o 0 + tapR R0 R1 h w o 1 + tapR R0 R1 h w o 2
    + tapR R0 R1 h w o 3 + tapR R0 R1 h w o 4 + tapR R0 R1 h w o 5
    + tapR R0 R1 h w o 6 + tapR R0 R1 h w o 7 + tapR R0 R1 h w o 8

/-- The specification's tap is the tap over the padded image's and the weight stack's readers. -/
theorem tapPadded_eq (P : (⟨4, ![32, 58, 58, 128]⟩ : Shape).Idx → EReal) (Q : (⟨3, ![9, 128, 256]⟩ : Shape).Idx → EReal)
    (n h w o t : ℕ) : Cert.Spec.tapPadded P Q n h w o t = tapR (Cert.Spec.at4 P n) (Cert.Spec.at3 Q) h w o t := rfl

/-- So is the specification's sum of the nine taps. -/
theorem accTaps_eq (P : (⟨4, ![32, 58, 58, 128]⟩ : Shape).Idx → EReal) (Q : (⟨3, ![9, 128, 256]⟩ : Shape).Idx → EReal)
    (n h w o : ℕ) : Cert.Spec.accTaps P Q n h w o = accR (Cert.Spec.at4 P n) (Cert.Spec.at3 Q) h w o := rfl

/-! ## The body's product -/

variable {F : FTy → Type} [FloatOps F]

/-- One product of the body: the loaded image rectangle flattened to pixels × channels, times the loaded weight
    matrix, into the zero accumulator. -/
def mm (v : Vec F S1x56x56x128 .f32) (w : Vec F S1x128x256 .f32) : FVec F S3136x256 .f32 :=
  matmul dot_S3136x128_S128x256_S3136x256_1_0_0_1_n_n none
    (shapeCast S3136x128 (shapeCast S56x56x128 v shapeCasts_S1x56x56x128_S56x56x128) shapeCasts_S56x56x128_S3136x128)
    (shapeCast S128x256 w shapeCasts_S1x128x256_S128x256) (constant S3136x256 .f32 0x00000000#32)

/-- The first four taps. -/
theorem pay4_eq (v0 : Vec F S1x56x56x128 .f32) (v3 : Vec F S1x128x256 .f32) (v6 : Vec F S1x56x56x128 .f32) (v9 : Vec F S1x128x256 .f32)
    (v13 : Vec F S1x56x56x128 .f32) (v16 : Vec F S1x128x256 .f32) (v20 : Vec F S1x56x56x128 .f32) (v23 : Vec F S1x128x256 .f32) :
    k0_pay4 v0 v3 v6 v9 v13 v16 v20 v23 = addf (addf (addf (mm v0 v3) (mm v6 v9)) (mm v13 v16)) (mm v20 v23) := rfl

/-- The next four, added to what the first four left. -/
theorem pay5_eq (v26 : FVec F S3136x256 .f32) (v27 : Vec F S1x56x56x128 .f32) (v30 : Vec F S1x128x256 .f32) (v34 : Vec F S1x56x56x128 .f32)
    (v37 : Vec F S1x128x256 .f32) (v41 : Vec F S1x56x56x128 .f32) (v44 : Vec F S1x128x256 .f32) (v48 : Vec F S1x56x56x128 .f32)
    (v51 : Vec F S1x128x256 .f32) :
    k0_pay5 v26 v27 v30 v34 v37 v41 v44 v48 v51 = addf (addf (addf (addf v26 (mm v27 v30)) (mm v34 v37)) (mm v41 v44)) (mm v48 v51) := rfl

/-- The ninth. -/
theorem pay1_eq (v54 : FVec F S3136x256 .f32) (v55 : Vec F S1x56x56x128 .f32) (v58 : Vec F S1x128x256 .f32) :
    k0_pay1 v54 v55 v58 = addf v54 (mm v55 v58) := rfl

/-! ## The product at an entry -/

/-- The product at (pixel p, output channel o): the sum over the input channels of the rectangle at pixel
    (p / 56, p % 56) times the weight matrix. -/
theorem mm_apply (v : Vec Ideal S1x56x56x128 .f32) (w : Vec Ideal S1x128x256 .f32) (p : Fin 3136) (o : Fin 256) :
    mm v w (ix2 p o)
      = ∑ ci : Fin 128, v (ix4 (0 : Fin 1) (⟨p.val / 56, by have := p.isLt; omega⟩ : Fin 56) (⟨p.val % 56, Nat.mod_lt _ (by decide)⟩ : Fin 56) ci)
          * w (ix3 (0 : Fin 1) ci o) := by
  unfold mm
  refine (Cert.Lib.DotEntry.matmul_zero_ix2 (m := 3136) (K := 128) (n := 256) dot_S3136x128_S128x256_S3136x256_1_0_0_1_n_n
    (by rfl) (by rfl) (fun _ _ => by rfl) (fun _ _ => by rfl) (fun _ _ => by rfl) (fun _ _ => by rfl) _ _ p o).trans ?_
  refine Finset.sum_congr rfl fun ci _ => ?_
  refine congrArg₂ (· * ·) ?_ ?_
  · refine (Cert.Lib.Flatten.shapeCast_abc_nc_apply (n := 3136) (a := 56) (b := 56) (c := 128) _ shapeCasts_S56x56x128_S3136x128
      (⟨p.val / 56, by have := p.isLt; omega⟩ : Fin 56) (⟨p.val % 56, Nat.mod_lt _ (by decide)⟩ : Fin 56) ci p
      (by show p.val = p.val / 56 * 56 + p.val % 56; omega)).trans ?_
    exact shapeCast_apply v shapeCasts_S1x56x56x128_S56x56x128 _ _ (by
      rw [Shape.rowMajor_val_four, Shape.rowMajor_val_three]
      show ((0 * 56 + p.val / 56) * 56 + p.val % 56) * 128 + ci.val = (p.val / 56 * 56 + p.val % 56) * 128 + ci.val
      omega)
  · exact shapeCast_apply w shapeCasts_S1x128x256_S128x256 _ _ (by
      rw [Shape.rowMajor_val_three, Shape.rowMajor_val_two]
      show (0 * 128 + ci.val) * 256 + o.val = ci.val * 256 + o.val
      omega)

end Cert.ReferenceIdeal.Conv

end
-- ==== Proof.RefConvBody.lean ====
/-
  What the body leaves in its two output blocks, entry by entry.

  A load through a rectangle at offset (0, di, dj, 0) of the padded image block reads the block di rows down and dj
  columns right; a load of weight matrix t reads slab t of the stack.  So the body's t-th product at (pixel p, output
  channel o) is tap t at pixel (p / 56, p % 56), the value it stores into the first output block is the nine taps added
  one after the other, and the two rows it stores into the second output block are the column sums, over the 3136
  pixels, of that value and of its square.
-/
import proofs.«143499_g2000705972228531_pallasbulk_146_16_alg».proof.Proof.RefConvTap
import proofs.«143499_g2000705972228531_pallasbulk_146_16_alg».proof.Proof.Gen.ReferenceIdeal.Frame

noncomputable section

namespace Cert.ReferenceIdeal.Conv

open Cert.ReferenceIdeal Cert.ReferenceIdeal.Gen Idealize.ShloMosaic Idealize.ShloMosaic.TcCoe Idealize.SL.Sem
open Idealize.ShloMosaic.ValueIdx

/-! ## Loads through the offset rectangles -/

/-- The image rectangle at offset (0, di, dj, 0), read at (0, a, b, ci), is the block at row a + di, column b + dj. -/
theorem ld_img (x0 : Vec Ideal S1x58x58x128 .f32) (di dj : ℕ)
    (inb : ∀ a, (![0, di, dj, 0] : Fin 4 → ℕ) a + S1x56x56x128.size a ≤ S1x58x58x128.size a)
    (a b : Fin 56) (ci : Fin 128) :
    View.ld x0 (Rect.unit (s := S1x58x58x128) ![0, di, dj, 0] S1x56x56x128.size inb) (ix4 (0 : Fin 1) a b ci)
      = Cert.Spec.at4 x0 0 (a.val + di) (b.val + dj) ci.val := by
  have h1 : di + 56 ≤ 58 := inb 1
  have h2 : dj + 56 ≤ 58 := inb 2
  have ha := a.isLt
  have hb := b.isLt
  have hc := ci.isLt
  unfold Cert.Spec.at4
  rw [dif_pos ⟨by omega, by omega, by omega, hc⟩]
  refine congrArg x0 (funext fun e => Fin.ext ?_)
  match e with
  | ⟨0, _⟩ => rfl
  | ⟨1, _⟩ => show di + 1 * a.val = a.val + di; omega
  | ⟨2, _⟩ => show dj + 1 * b.val = b.val + dj; omega
  | ⟨3, _⟩ => show 0 + 1 * ci.val = ci.val; omega

/-- Weight matrix t of the stack, read at (0, ci, o), is the stack at (t, ci, o). -/
theorem ld_wt (x1 : Vec Ideal S9x128x256 .f32) (t : ℕ)
    (inb : ∀ a, (![t, 0, 0] : Fin 3 → ℕ) a + S1x128x256.size a ≤ S9x128x256.size a) (ci : Fin 128) (o : Fin 256) :
    View.ld x1 (Rect.unit (s := S9x128x256) ![t, 0, 0] S1x128x256.size inb) (ix3 (0 : Fin 1) ci o)
      = Cert.Spec.at3 x1 t ci.val o.val := by
  have h0 : t + 1 ≤ 9 := inb 0
  unfold Cert.Spec.at3
  rw [dif_pos ⟨by omega, ci.isLt, o.isLt⟩]
  refine congrArg x1 (funext fun e => Fin.ext ?_)
  match e with
  | ⟨0, _⟩ => show t + 1 * 0 = t; omega
  | ⟨1, _⟩ => show 0 + 1 * ci.val = ci.val; omega
  | ⟨2, _⟩ => show 0 + 1 * o.val = o.val; omega

/-- The body's product for tap t (rectangle offset (t / 3, t % 3), weight matrix t) at (pixel p, output channel o)
    is tap t over the block's readers at pixel (p / 56, p % 56). -/
theorem tap_ld (x0 : Vec Ideal S1x58x58x128 .f32) (x1 : Vec Ideal S9x128x256 .f32) (t di dj : ℕ) (hdi : di = t / 3) (hdj : dj = t % 3)
    (inb0 : ∀ a, (![0, di, dj, 0] : Fin 4 → ℕ) a + S1x56x56x128.size a ≤ S1x58x58x128.size a)
    (inb1 : ∀ a, (![t, 0, 0] : Fin 3 → ℕ) a + S1x128x256.size a ≤ S9x128x256.size a) (p : Fin 3136) (o : Fin 256) :
    mm (View.ld x0 (Rect.unit (s := S1x58x58x128) ![0, di, dj, 0] S1x56x56x128.size inb0))
        (View.ld x1 (Rect.unit (s := S9x128x256) ![t, 0, 0] S1x128x256.size inb1)) (ix2 p o)
      = tapR (Cert.Spec.at4 x0 0) (Cert.Spec.at3 x1) (p.val / 56) (p.val % 56) o.val t := by
  subst hdi hdj
  refine (mm_apply _ _ p o).trans ?_
  unfold tapR
  exact Finset.sum_congr rfl fun ci _ => congrArg₂ (· * ·) (ld_img x0 _ _ inb0 _ _ ci) (ld_wt x1 t inb1 ci o)

/-! ## The nine taps -/

section AnyF
variable {F : FTy → Type} [FloatOps F]

/-- The first eight taps, as the body chains them. -/
def pre (x0 : Vec F S1x58x58x128 .f32) (x1 : Vec F S9x128x256 .f32) : FVec F S3136x256 .f32 :=
  k0_pay5 (k0_pay4 (View.ld x0 r0_0) (View.ld x1 r0_1) (View.ld x0 r0_2) (View.ld x1 r0_3) (View.ld x0 r0_4) (View.ld x1 r0_5) (View.ld x0 r0_6) (View.ld x1 r0_7)) (View.ld x0 r0_8) (View.ld x1 r0_9) (View.ld x0 r0_10) (View.ld x1 r0_11) (View.ld x0 r0_12) (View.ld x1 r0_13) (View.ld x0 r0_14) (View.ld x1 r0_15)

/-- All nine: the value the body stores into the first output block. -/
def accV (x0 : Vec F S1x58x58x128 .f32) (x1 : Vec F S9x128x256 .f32) : FVec F S3136x256 .f32 :=
  k0_pay1 (pre x0 x1) (View.ld x0 r0_16) (View.ld x1 r0_17)

theorem hz2 : (![0, 0] : Fin 2 → ℕ) = fun _ => 0 := funext fun a => by fin_cases a <;> rfl

/-- The first output block after the body is that value: its one store covers the block. -/
theorem out0_2_eq (x0 : Vec F S1x58x58x128 .f32) (x1 : Vec F S9x128x256 .f32) : out0_2 x0 x1 = accV x0 x1 := by
  unfold out0_2 accV pre
  exact View.canon_unit_zero hz2 _ _

end AnyF

/-- The stored value at (pixel p, output channel o): the nine taps over the block's readers at pixel (p / 56, p % 56). -/
theorem accV_apply (x0 : Vec Ideal S1x58x58x128 .f32) (x1 : Vec Ideal S9x128x256 .f32) (p : Fin 3136) (o : Fin 256) :
    accV x0 x1 (ix2 p o) = accR (Cert.Spec.at4 x0 0) (Cert.Spec.at3 x1) (p.val / 56) (p.val % 56) o.val := by
  unfold accV pre accR
  rw [pay1_eq, pay5_eq, pay4_eq]
  exact congrArg₂ (· + ·) (congrArg₂ (· + ·) (congrArg₂ (· + ·) (congrArg₂ (· + ·) (congrArg₂ (· + ·) (congrArg₂ (· + ·)
    (congrArg₂ (· + ·) (congrArg₂ (· + ·)
      (tap_ld x0 x1 0 0 0 rfl rfl inb_S1x58x58x128_S1x56x56x128_0_0_0_0 inb_S9x128x256_S1x128x256_0_0_0 p o)
      (tap_ld x0 x1 1 0 1 rfl rfl inb_S1x58x58x128_S1x56x56x128_0_0_1_0 inb_S9x128x256_S1x128x256_1_0_0 p o))
      (tap_ld x0 x1 2 0 2 rfl rfl inb_S1x58x58x128_S1x56x56x128_0_0_2_0 inb_S9x128x256_S1x128x256_2_0_0 p o))
      (tap_ld x0 x1 3 1 0 rfl rfl inb_S1x58x58x128_S1x56x56x128_0_1_0_0 inb_S9x128x256_S1x128x256_3_0_0 p o))
      (tap_ld x0 x1 4 1 1 rfl rfl inb_S1x58x58x128_S1x56x56x128_0_1_1_0 inb_S9x128x256_S1x128x256_4_0_0 p o))
      (tap_ld x0 x1 5 1 2 rfl rfl inb_S1x58x58x128_S1x56x56x128_0_1_2_0 inb_S9x128x256_S1x128x256_5_0_0 p o))
      (tap_ld x0 x1 6 2 0 rfl rfl inb_S1x58x58x128_S1x56x56x128_0_2_0_0 inb_S9x128x256_S1x128x256_6_0_0 p o))
      (tap_ld x0 x1 7 2 1 rfl rfl inb_S1x58x58x128_S1x56x56x128_0_2_1_0 inb_S9x128x256_S1x128x256_7_0_0 p o))
      (tap_ld x0 x1 8 2 2 rfl rfl inb_S1x58x58x128_S1x56x56x128_0_2_2_0 inb_S9x128x256_S1x128x256_8_0_0 p o)

/-! ## The column sums -/

/-- A sum of a 3136 × 256 value over its rows, read at column o. -/
theorem colsum_apply (src : FVec Ideal S3136x256 .f32) (h : S3136x256.Reduces [0] S256) (hφ : FKind.Formats .f32)
    (hacc : (0x00000000#32 : BitVec 32) = FKind.add.neutral .f32 hφ) (o : Fin 256) :
    multiReduction (F := Ideal) .add [0] S256 src 0x00000000#32 h hφ hacc (ix1 o) = ∑ p : Fin 3136, src (ix2 p o) := by
  refine (Ideal.multiReduction_add_single src _ h hφ hacc (ix1 o)).trans ?_
  exact Finset.sum_congr rfl fun k _ => congrArg src (funext fun a => Fin.ext (by
    match a with
    | ⟨0, _⟩ => rfl
    | ⟨1, _⟩ => rfl))

/-- A [256] row recast to [1, 1, 256], read at (0, 0, o). -/
theorem row_cast_apply {α : Type} (x : S256.Idx → α) (o : Fin 256) :
    shapeCast S1x1x256 (shapeCast S1x256 x shapeCasts_S256_S1x256) shapeCasts_S1x256_S1x1x256 (ix3 (0 : Fin 1) (0 : Fin 1) o) = x (ix1 o) := by
  refine (shapeCast_apply _ shapeCasts_S1x256_S1x1x256 _ (ix2 (0 : Fin 1) o) (by
    rw [Shape.rowMajor_val_two, Shape.rowMajor_val_three]
    show 0 * 256 + o.val = (0 * 1 + 0) * 256 + o.val
    omega)).trans ?_
  exact shapeCast_apply _ shapeCasts_S256_S1x256 _ (ix1 o) (by
    rw [Shape.rowMajor_val_one, Shape.rowMajor_val_two]
    show o.val = 0 * 256 + o.val
    omega)

/-- The first stored row: the column sums of the nine-tap value. -/
theorem pay2_apply (v54 : FVec Ideal S3136x256 .f32) (v55 : Vec Ideal S1x56x56x128 .f32) (v58 : Vec Ideal S1x128x256 .f32) (o : Fin 256) :
    k0_pay2 v54 v55 v58 (ix3 (0 : Fin 1) (0 : Fin 1) o) = ∑ p : Fin 3136, k0_pay1 v54 v55 v58 (ix2 p o) := by
  unfold k0_pay2
  refine (row_cast_apply _ o).trans ?_
  exact colsum_apply _ _ _ _ o

/-- The second stored row: the column sums of its square. -/
theorem pay3_apply (v54 : FVec Ideal S3136x256 .f32) (v55 : Vec Ideal S1x56x56x128 .f32) (v58 : Vec Ideal S1x128x256 .f32) (o : Fin 256) :
    k0_pay3 v54 v55 v58 (ix3 (0 : Fin 1) (0 : Fin 1) o)
      = ∑ p : Fin 3136, k0_pay1 v54 v55 v58 (ix2 p o) * k0_pay1 v54 v55 v58 (ix2 p o) := by
  unfold k0_pay3
  refine (row_cast_apply _ o).trans ?_
  exact colsum_apply _ _ _ _ o

/-! ## The second output block -/

/-- Row r of the second output block at column o: the column sums of the nine-tap value in row 0, of its square in the
    other row. -/
def rowsV (x0 : Vec Ideal S1x58x58x128 .f32) (x1 : Vec Ideal S9x128x256 .f32) (r : ℕ) (o : Fin 256) : EReal :=
  if r = 0 then ∑ p : Fin 3136, accV x0 x1 (ix2 p o) else ∑ p : Fin 3136, accV x0 x1 (ix2 p o) * accV x0 x1 (ix2 p o)

/-- The store into row 1 holds, at each of its entries, what `rowsV` says of the block index under it. -/
theorem piece_row1 (x0 : Vec Ideal S1x58x58x128 .f32) (x1 : Vec Ideal S9x128x256 .f32) (x : S1x1x256.Idx) :
    k0_pay3 (pre x0 x1) (View.ld x0 r0_16) (View.ld x1 r0_17) x = rowsV x0 x1 ((r0_20.emb x) 1).val ((r0_20.emb x) 2) := by
  obtain ⟨z, r, o, rfl⟩ : ∃ (z : Fin 1) (r : Fin 1) (o : Fin 256), x = ix3 z r o := ⟨x 0, x 1, x 2, eq_ix3 x⟩
  obtain rfl : z = 0 := Subsingleton.elim _ _
  obtain rfl : r = 0 := Subsingleton.elim _ _
  have e1 : ((r0_20.emb (ix3 (0 : Fin 1) (0 : Fin 1) o)) 1).val = 1 := rfl
  have e2 : (r0_20.emb (ix3 (0 : Fin 1) (0 : Fin 1) o)) 2 = o := Fin.ext (by show 0 + 1 * o.val = o.val; omega)
  rw [e1, e2]
  refine (pay3_apply _ _ _ o).trans ?_
  unfold rowsV
  rw [if_neg (by decide)]
  rfl

/-- The store into row 0 likewise. -/
theorem piece_row0 (x0 : Vec Ideal S1x58x58x128 .f32) (x1 : Vec Ideal S9x128x256 .f32) (x : S1x1x256.Idx) :
    k0_pay2 (pre x0 x1) (View.ld x0 r0_16) (View.ld x1 r0_17) x = rowsV x0 x1 ((r0_19.emb x) 1).val ((r0_19.emb x) 2) := by
  obtain ⟨z, r, o, rfl⟩ : ∃ (z : Fin 1) (r : Fin 1) (o : Fin 256), x = ix3 z r o := ⟨x 0, x 1, x 2, eq_ix3 x⟩
  obtain rfl : z = 0 := Subsingleton.elim _ _
  obtain rfl : r = 0 := Subsingleton.elim _ _
  have e1 : ((r0_19.emb (ix3 (0 : Fin 1) (0 : Fin 1) o)) 1).val = 0 := rfl
  have e2 : (r0_19.emb (ix3 (0 : Fin 1) (0 : Fin 1) o)) 2 = o := Fin.ext (by show 0 + 1 * o.val = o.val; omega)
  rw [e1, e2]
  refine (pay2_apply _ _ _ o).trans ?_
  unfold rowsV
  rw [if_pos rfl]
  rfl

/-- The second output block after the body, entry by entry: the two stores are blocks of ONE function of the block
    index, and together they cover the block. -/
theorem out0_3_apply (x0 : Vec Ideal S1x58x58x128 .f32) (x1 : Vec Ideal S9x128x256 .f32) (y : S1x2x256.Idx) :
    out0_3 x0 x1 y = rowsV x0 x1 (y 1).val (y 2) := by
  unfold out0_3
  refine View.canon_apply_of_pieces (Val := Elt Ideal) (S := S1x2x256) (e := .f32) (fun y : S1x2x256.Idx => rowsV x0 x1 (y 1).val (y 2)) _ ?_ y (cover0_3 _ _ y)
  exact List.forall_mem_cons.mpr ⟨piece_row1 x0 x1, List.forall_mem_cons.mpr ⟨piece_row0 x0 x1, fun _ h => absurd h List.not_mem_nil⟩⟩

end Cert.ReferenceIdeal.Conv

end
-- ==== Proof.RefConvArr.lean ====
/-
  From blocks to arrays: what the two output arrays hold after the 32 grid points.

  Grid point t reads block t of the padded image (one whole image) and the whole weight stack, and writes block t of each
  output: rows 3136·t … 3136·t + 3135 of the convolution array and slab t of the statistics array.  A block of the image
  read at natural coordinates is image t of the array read there, so what point t writes is block t of ONE function of
  the array index; the blocks tile each output array, so each array ends holding that function.
-/
import proofs.«143499_g2000705972228531_pallasbulk_146_16_alg».proof.Proof.RefConvBody

noncomputable section

namespace Cert.ReferenceIdeal.Conv

open Cert.ReferenceIdeal Cert.ReferenceIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## Where each window's block sits at point t -/

/-- The index maps, decided over the grid: the image and both outputs move one block per point along their first
    axis, the weight stack stays. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 3) = 0 ∧ win0_1.index t (1 : Fin 3) = 0 ∧ win0_1.index t (2 : Fin 3) = 0
    ∧ win0_2.index t (0 : Fin 2) = t.val ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-! ## The input blocks as readers of their arrays -/

/-- Block t of the padded image, read at natural coordinates, is image t of the array read there. -/
theorem blk0_read (c : Dev nD) (t : Fin cfg0.N) :
    Cert.Spec.at4 (a := 1) (b := 58) (c := 58) (d := 128) (iblk0 V c 0 t) 0
      = Cert.Spec.at4 (a := 32) (b := 58) (c := 58) (d := 128) (V c main_v1) t.val := by
  obtain ⟨e0, e1, e2, e3, -⟩ := idx_facts t
  have hN : cfg0.N = 32 := N_0
  have ht : t.val < cfg0.N := t.isLt
  funext a b ci
  unfold Cert.Spec.at4
  by_cases h : a < 58 ∧ b < 58 ∧ ci < 128
  · rw [dif_pos ⟨Nat.one_pos, h⟩, dif_pos ⟨by omega, h⟩]
    show V c main_v1 (((cfg0.win 0).blk t).view.emb _) = V c main_v1 _
    refine congrArg (V c main_v1) (funext fun e => Fin.ext ?_)
    match e with
    | ⟨0, _⟩ => show win0_0.index t (0 : Fin 4) * 1 + 1 * 0 = t.val; omega
    | ⟨1, _⟩ => show win0_0.index t (1 : Fin 4) * 58 + 1 * a = a; omega
    | ⟨2, _⟩ => show win0_0.index t (2 : Fin 4) * 58 + 1 * b = b; omega
    | ⟨3, _⟩ => show win0_0.index t (3 : Fin 4) * 128 + 1 * ci = ci; omega
  · rw [dif_neg (fun hh => h hh.2), dif_neg (fun hh => h hh.2)]

/-- The weight block at any point, read at natural coordinates, is the weight stack read there. -/
theorem blk1_read (c : Dev nD) (t : Fin cfg0.N) :
    Cert.Spec.at3 (a := 9) (b := 128) (c := 256) (iblk0 V c 1 t) = Cert.Spec.at3 (a := 9) (b := 128) (c := 256) (V c main_v4) := by
  obtain ⟨-, -, -, -, e0, e1, e2, -⟩ := idx_facts t
  funext a b o
  unfold Cert.Spec.at3
  by_cases h : a < 9 ∧ b < 128 ∧ o < 256
  · rw [dif_pos h, dif_pos h]
    show V c main_v4 (((cfg0.win 1).blk t).view.emb _) = V c main_v4 _
    refine congrArg (V c main_v4) (funext fun e => Fin.ext ?_)
    match e with
    | ⟨0, _⟩ => show win0_1.index t (0 : Fin 3) * 9 + 1 * a = a; omega
    | ⟨1, _⟩ => show win0_1.index t (1 : Fin 3) * 128 + 1 * b = b; omega
    | ⟨2, _⟩ => show win0_1.index t (2 : Fin 3) * 256 + 1 * o = o; omega
  · rw [dif_neg h, dif_neg h]

/-! ## One point's values, over blocks that read as image n -/

section Point
variable (P : S32x58x58x128.Idx → EReal) (Q : S9x128x256.Idx → EReal)
  (x0 : Vec Ideal S1x58x58x128 .f32) (x1 : Vec Ideal S9x128x256 .f32) (n : ℕ)
  (h0 : Cert.Spec.at4 (a := 1) (b := 58) (c := 58) (d := 128) x0 0 = Cert.Spec.at4 (a := 32) (b := 58) (c := 58) (d := 128) P n)
  (h1 : Cert.Spec.at3 (a := 9) (b := 128) (c := 256) x1 = Cert.Spec.at3 (a := 9) (b := 128) (c := 256) Q)
include h0 h1

/-- The nine-tap value at (pixel p, output channel o) is the specification's at image n. -/
theorem accV_point (p : Fin 3136) (o : Fin 256) :
    accV x0 x1 (ix2 p o) = Cert.Spec.accTaps P Q n (p.val / 56) (p.val % 56) o.val := by
  rw [accV_apply, h0, h1, accTaps_eq]

/-- The stored value at block index j is the specification's at the array index i that sits n blocks down. -/
theorem y_point (j : S3136x256.Idx) (i : S100352x256.Idx) (hi0 : (i 0).val = n * 3136 + (j 0).val) (hi1 : (i 1).val = (j 1).val) :
    accV x0 x1 j = Cert.Spec.accTaps P Q ((i 0).val / 3136) ((i 0).val % 3136 / 56) ((i 0).val % 3136 % 56) (i 1).val := by
  obtain ⟨p, o, rfl⟩ : ∃ (p : Fin 3136) (o : Fin 256), j = ix2 p o := ⟨j 0, j 1, eq_ix2 j⟩
  have hp := p.isLt
  have hi0' : (i 0).val = n * 3136 + p.val := hi0
  have hi1' : (i 1).val = o.val := hi1
  have a : (i 0).val / 3136 = n := by omega
  have b : (i 0).val % 3136 = p.val := by omega
  rw [a, b, hi1']
  exact accV_point P Q x0 x1 n h0 h1 p o

/-- Row r of the statistics block at column o is the specification's sum over image n, of the value in row 0 and of
    its square in row 1. -/
theorem rows_point (r : ℕ) (o : Fin 256) :
    rowsV x0 x1 r o = Cert.Spec.imageSum (if r = 0 then (fun y => y) else (fun y => y * y)) P Q n o.val := by
  unfold rowsV Cert.Spec.imageSum
  by_cases hr : r = 0
  · rw [if_pos hr, if_pos hr]
    exact Finset.sum_congr rfl fun p _ => accV_point P Q x0 x1 n h0 h1 p o
  · rw [if_neg hr, if_neg hr]
    exact Finset.sum_congr rfl fun p _ => by rw [accV_point P Q x0 x1 n h0 h1 p o]

end Point

/-! ## The convolution array -/

/-- What the convolution array ends holding: at row i₀ and channel i₁, the nine taps at image i₀ / 3136 and pixel
    i₀ % 3136. -/
def yArr (c : Dev nD) : S100352x256.Idx → EReal := fun i =>
  Cert.Spec.accTaps (V c main_v1) (V c main_v4) ((i 0).val / 3136) ((i 0).val % 3136 / 56) ((i 0).val % 3136 % 56) (i 1).val

/-- What point t writes back is block t of it. -/
theorem flushed2_eq (c : Dev nD) (t : Fin cfg0.N) :
    (dat0 V c).flushed 2 t = ((cfg0.win 2).blk t).view.read (Elt Ideal) (yArr V c) := by
  show (cfg0.win 2).cut (grid0.coords t) ((dat0 V c).after 2 t) = _
  rw [after0_2, out0_2_eq]
  obtain ⟨-, -, -, -, -, -, -, e0, e1, -⟩ := idx_facts t
  funext j
  show accV (iblk0 V c 0 t) (iblk0 V c 1 t) j = yArr V c (((cfg0.win 2).blk t).view.emb j)
  refine y_point (V c main_v1) (V c main_v4) (iblk0 V c 0 t) (iblk0 V c 1 t) t.val (blk0_read V c t) (blk1_read V c t) j _ ?_ ?_
  · show win0_2.index t (0 : Fin 2) * 3136 + 1 * (j 0).val = t.val * 3136 + (j 0).val
    rw [e0]; omega
  · show win0_2.index t (1 : Fin 2) * 256 + 1 * (j 1).val = (j 1).val
    rw [e1]; omega

/-- An index of the convolution array is in point t's block iff each coordinate is in the block's range on its axis. -/
theorem mem_blk2 (t : Fin cfg0.N) (i : S100352x256.Idx) :
    i ∈ ((cfg0.win 2).blk t).view.set ↔ ∀ a : Fin 2, win0_2.index t a * S3136x256.size a ≤ (i a).val ∧ (i a).val < win0_2.index t a * S3136x256.size a + S3136x256.size a := by
  show i ∈ ((View.whole main_v7_0).slice (win0_2.rect t)).set ↔ _
  rw [View.set_slice_whole, Rect.mem_set_unit]
  exact Iff.rfl

/-- Row r of the array is in the block of point r / 3136. -/
theorem cover2 (i : S100352x256.Idx) : ∃ t : Fin cfg0.N, (cfg0.win 2).flush t = true ∧ i ∈ ((cfg0.win 2).blk t).view.set := by
  have hN : cfg0.N = 32 := N_0
  have hi0 : (i 0).val < 100352 := (i 0).isLt
  have hi1 : (i 1).val < 256 := (i 1).isLt
  obtain ⟨t, ht⟩ : ∃ t : Fin cfg0.N, t.val = (i 0).val / 3136 := ⟨⟨(i 0).val / 3136, Nat.lt_of_lt_of_eq (by omega) hN.symm⟩, rfl⟩
  obtain ⟨-, -, -, -, -, -, -, e0, e1, -⟩ := idx_facts t
  refine ⟨t, flush0_2 t, ?_⟩
  rw [mem_blk2]
  intro a
  match a with
  | ⟨0, _⟩ =>
    show win0_2.index t (0 : Fin 2) * 3136 ≤ (i 0).val ∧ (i 0).val < win0_2.index t (0 : Fin 2) * 3136 + 3136
    rw [e0, ht]; omega
  | ⟨1, _⟩ =>
    show win0_2.index t (1 : Fin 2) * 256 ≤ (i 1).val ∧ (i 1).val < win0_2.index t (1 : Fin 2) * 256 + 256
    rw [e1]; omega

/-- The convolution array after the region. -/
theorem yArr_final (c : Dev nD) : (dat0 (F := Ideal) V c).arrAt 2 cfg0.N = yArr V c :=
  (dat0 V c).arrAt_eq_of_cover 2 (yArr V c) (fun t _ => flushed2_eq V c t) (cover2)

/-! ## The statistics array -/

/-- What the statistics array ends holding: at image i₀, row i₁ and channel i₂, the sum over the image's pixels of
    the nine-tap value (row 0) or of its square (row 1). -/
def statsArr (c : Dev nD) : S32x2x256.Idx → EReal := fun i =>
  Cert.Spec.imageSum (if (i 1).val = 0 then (fun y => y) else (fun y => y * y)) (V c main_v1) (V c main_v4) (i 0).val (i 2).val

/-- What point t writes back is slab t of it. -/
theorem flushed3_eq (c : Dev nD) (t : Fin cfg0.N) :
    (dat0 V c).flushed 3 t = ((cfg0.win 3).blk t).view.read (Elt Ideal) (statsArr V c) := by
  show (cfg0.win 3).cut (grid0.coords t) ((dat0 V c).after 3 t) = _
  rw [after0_3]
  obtain ⟨-, -, -, -, -, -, -, -, -, e0, e1, e2⟩ := idx_facts t
  funext j
  show out0_3 (iblk0 V c 0 t) (iblk0 V c 1 t) j = statsArr V c (((cfg0.win 3).blk t).view.emb j)
  refine (out0_3_apply (iblk0 V c 0 t) (iblk0 V c 1 t) j).trans ?_
  refine (rows_point (V c main_v1) (V c main_v4) (iblk0 V c 0 t) (iblk0 V c 1 t) t.val (blk0_read V c t) (blk1_read V c t) (j 1).val (j 2)).trans ?_
  have hj0 : (j 0).val < 1 := (j 0).isLt
  have E0 : ((((cfg0.win 3).blk t).view.emb j) 0).val = t.val := by
    show win0_3.index t (0 : Fin 3) * 1 + 1 * (j 0).val = t.val
    rw [e0]; omega
  have E1 : ((((cfg0.win 3).blk t).view.emb j) 1).val = (j 1).val := by
    show win0_3.index t (1 : Fin 3) * 2 + 1 * (j 1).val = (j 1).val
    rw [e1]; omega
  have E2 : ((((cfg0.win 3).blk t).view.emb j) 2).val = (j 2).val := by
    show win0_3.index t (2 : Fin 3) * 256 + 1 * (j 2).val = (j 2).val
    rw [e2]; omega
  unfold statsArr
  rw [E0, E1, E2]

/-- An index of the statistics array is in point t's block iff each coordinate is in the block's range on its axis. -/
theorem mem_blk3 (t : Fin cfg0.N) (i : S32x2x256.Idx) :
    i ∈ ((cfg0.win 3).blk t).view.set ↔ ∀ a : Fin 3, win0_3.index t a * S1x2x256.size a ≤ (i a).val ∧ (i a).val < win0_3.index t a * S1x2x256.size a + S1x2x256.size a := by
  show i ∈ ((View.whole main_v7_1).slice (win0_3.rect t)).set ↔ _
  rw [View.set_slice_whole, Rect.mem_set_unit]
  exact Iff.rfl

/-- Slab n of the array is the block of point n. -/
theorem cover3 (i : S32x2x256.Idx) : ∃ t : Fin cfg0.N, (cfg0.win 3).flush t = true ∧ i ∈ ((cfg0.win 3).blk t).view.set := by
  have hN : cfg0.N = 32 := N_0
  have hi0 : (i 0).val < 32 := (i 0).isLt
  have hi1 : (i 1).val < 2 := (i 1).isLt
  have hi2 : (i 2).val < 256 := (i 2).isLt
  obtain ⟨t, ht⟩ : ∃ t : Fin cfg0.N, t.val = (i 0).val := ⟨⟨(i 0).val, Nat.lt_of_lt_of_eq hi0 hN.symm⟩, rfl⟩
  obtain ⟨-, -, -, -, -, -, -, -, -, e0, e1, e2⟩ := idx_facts t
  refine ⟨t, flush0_3 t, ?_⟩
  rw [mem_blk3]
  intro a
  match a with
  | ⟨0, _⟩ =>
    show win0_3.index t (0 : Fin 3) * 1 ≤ (i 0).val ∧ (i 0).val < win0_3.index t (0 : Fin 3) * 1 + 1
    rw [e0, ht]; omega
  | ⟨1, _⟩ =>
    show win0_3.index t (1 : Fin 3) * 2 ≤ (i 1).val ∧ (i 1).val < win0_3.index t (1 : Fin 3) * 2 + 2
    rw [e1]; omega
  | ⟨2, _⟩ =>
    show win0_3.index t (2 : Fin 3) * 256 ≤ (i 2).val ∧ (i 2).val < win0_3.index t (2 : Fin 3) * 256 + 256
    rw [e2]; omega

/-- The statistics array after the region. -/
theorem statsArr_final (c : Dev nD) : (dat0 (F := Ideal) V c).arrAt 3 cfg0.N = statsArr V c :=
  (dat0 V c).arrAt_eq_of_cover 3 (statsArr V c) (fun t _ => flushed3_eq V c t) (cover3)

end Cert.ReferenceIdeal.Conv

end
-- ==== Proof.RefConv.lean ====
/-
  The first pass of the reference program, read: after its 32 grid points the convolution array holds, at row i₀ and
  output channel i₁, the nine taps of the 3×3 stencil over the padded image i₀ / 3136 at pixel i₀ % 3136, added one
  after the other; and the statistics array holds, per image and output channel, the sum over the image's 3136 pixels
  of that value (row 0) and of its square (row 1).  Both for any contents of the padded image and of the weight stack
  when the pass is entered.
-/
import proofs.«143499_g2000705972228531_pallasbulk_146_16_alg».proof.Proof.RefConvArr

noncomputable section

namespace Cert.ReferenceIdeal.Conv

open Cert.ReferenceIdeal Cert.ReferenceIdeal.Gen Idealize.ShloMosaic Idealize.ShloMosaic.TcCoe Idealize.SL.Sem
open Idealize.ShloMosaic.ValueIdx

/-- The convolution array after the pass. -/
theorem y_final (V : (c : Dev nD) → (b : Ref sig .tc) → Buf (Elt Ideal) ((c : Thread nD τ).loc b)) (c : Dev nD) :
    (Gen.dat0 (F := Ideal) V c).arrAt 2 cfg0.N
      = fun i => Cert.Spec.accTaps (V c main_v1) (V c main_v4) ((i 0).val / 3136) ((i 0).val % 3136 / 56) ((i 0).val % 3136 % 56) (i 1).val :=
  yArr_final V c

/-- The statistics array after the pass. -/
theorem stats_final (V : (c : Dev nD) → (b : Ref sig .tc) → Buf (Elt Ideal) ((c : Thread nD τ).loc b)) (c : Dev nD) :
    (Gen.dat0 (F := Ideal) V c).arrAt 3 cfg0.N
      = fun i => Cert.Spec.imageSum (if (i 1).val = 0 then (fun y => y) else (fun y => y * y)) (V c main_v1) (V c main_v4) (i 0).val (i 2).val :=
  statsArr_final V c

end Cert.ReferenceIdeal.Conv

end
-- ==== Proof.RefTailPay.lean ====
/-
  The body of the normalisation pass is pointwise: at row p, column q of a block of 1024 rows it multiplies the
  block's entry by the scale row's entry of column q, adds the shift row's entry of column q, and applies the
  hard-swish z · min(6, max(0, z + 3)) · (1/6).  The scale and shift rows are one-row matrices repeated down the
  1024 rows of the block.
-/
import proofs.«143499_g2000705972228531_pallasbulk_146_16_alg».proof.Proof.Spec
import proofs.«143499_g2000705972228531_pallasbulk_146_16_alg».proof.Proof.Gen.ReferenceIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Tail

open Idealize.ShloMosaic Idealize.ShloMosaic.ValueIdx

/-- The stored value at row `p`, column `q` of a block: the hard-swish of entry × scale + shift, the scale and the
    shift read in their one row at column `q`. -/
theorem pay_apply (x0 : Vec Ideal S1024x256 .f32) (x1 x2 : Vec Ideal S1x256 .f32) (p : Fin 1024) (q : Fin 256) :
    Gen.k1_pay1 (F := Ideal) x0 x1 x2 (ix2 p q)
      = Cert.Spec.hsw (x0 (ix2 p q) * x1 (ix2 (0 : Fin 1) q) + x2 (ix2 (0 : Fin 1) q)) := by
  unfold Gen.k1_pay1
  have hb1 : broadcastTo S1024x256 (shapeCast S1x256 x1 Gen.shapeCasts_S1x256_S1x256) Gen.broadcasts_S1x256_S1024x256 (ix2 p q)
      = x1 (ix2 (0 : Fin 1) q) := by
    rw [shapeCast_self]; exact broadcastTo_1b_ab_apply x1 _ p q
  have hb2 : broadcastTo S1024x256 (shapeCast S1x256 x2 Gen.shapeCasts_S1x256_S1x256) Gen.broadcasts_S1x256_S1024x256 (ix2 p q)
      = x2 (ix2 (0 : Fin 1) q) := by
    rw [shapeCast_self]; exact broadcastTo_1b_ab_apply x2 _ p q
  simp only [mulf_apply, addf_apply, maximumf_apply, minimumf_apply, broadcast_apply, Ideal.ofBits_def]
  rw [hb1, hb2, shapeCast_self]
  unfold Cert.Spec.hsw Cert.Spec.six Cert.Spec.three Cert.Spec.sixth
  rw [Ideal.ofBits_zero_f32]

/-- The normalised and activated matrix as a function of the input matrix `X`, the scale row `G` and the shift row
    `B`: at row r, column o the hard-swish of X(r, o) · G(0, o) + B(0, o). -/
def normOf (X : S100352x256.Idx → EReal) (G B : S1x256.Idx → EReal) : S100352x256.Idx → EReal := fun i =>
  Cert.Spec.hsw (X i * G (ix2 (0 : Fin 1) (i 1)) + B (ix2 (0 : Fin 1) (i 1)))

theorem normOf_apply (X : S100352x256.Idx → EReal) (G B : S1x256.Idx → EReal) (i : S100352x256.Idx) :
    normOf X G B i = Cert.Spec.hsw (X i * G (ix2 (0 : Fin 1) (i 1)) + B (ix2 (0 : Fin 1) (i 1))) := rfl

end Cert.ReferenceIdeal.Tail

end
-- ==== Proof.RefTailBlocks.lean ====
/-
  From blocks to the array.  Point t of the 98 points of the normalisation pass reads rows 1024·t … 1024·t + 1023
  of the input matrix (all 256 columns) and the whole scale and shift rows, and writes the same rows of the output.
  98 · 1024 = 100352, so the blocks tile the output, and it ends holding, entry by entry, the hard-swish of
  input × scale + shift.
-/
import proofs.«143499_g2000705972228531_pallasbulk_146_16_alg».proof.Proof.Spec
import proofs.«143499_g2000705972228531_pallasbulk_146_16_alg».proof.Proof.Gen.ReferenceIdeal.Frame
import proofs.«143499_g2000705972228531_pallasbulk_146_16_alg».proof.Proof.RefTailPay
import Idealize.ShloMosaic.Lib.ValueIdx
import Idealize.ShloMosaic.Lib.Pipeline.Value

noncomputable section

namespace Cert.ReferenceIdeal.Tail

open Idealize.ShloMosaic Idealize.ShloMosaic.TcCoe Idealize.SL.Sem Idealize.ShloMosaic.ValueIdx
open Idealize.ShloMosaic.Pipeline (Dat)
open Cert.ReferenceIdeal Cert.ReferenceIdeal.Gen

variable (V : (c : Dev nD) → (b : Ref sig .tc) → Buf (Elt Ideal) ((c : Thread nD τ).loc b))

/-- The normalised and activated matrix over the arrays the region finds. -/
abbrev normed (c : Dev nD) : S100352x256.Idx → EReal :=
  normOf (V c main_v7_0) (V c main_v25) (V c main_v29)

theorem hz : (![0, 0] : Fin 2 → Nat) = fun _ => 0 := funext fun a => by fin_cases a <;> rfl

/-- The block indices over the grid: the input and output matrices move one block of rows per point, the scale and
    shift rows stay. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The input matrix's block at point t: row p of the block is row 1024·t + p of the matrix. -/
theorem iblk0_apply (c : Dev nD) (t : Fin cfg1.N) (p : Fin 1024) (q : Fin 256) (k : S100352x256.Idx)
    (hk0 : (k 0).val = 1024 * t.val + p.val) (hk1 : (k 1).val = q.val) :
    (Gen.iblk1 V c 0 t : Vec Ideal S1024x256 .f32) (ix2 p q) = (V c main_v7_0 : S100352x256.Idx → EReal) k := by
  obtain ⟨e0, e1, -⟩ := idx_facts t
  unfold Gen.iblk1
  rw [View.read_apply]
  show V c main_v7_0 _ = V c main_v7_0 _
  congr 1
  funext a
  apply Fin.ext
  match a with
  | ⟨0, _⟩ => show win1_0.index t 0 * 1024 + 1 * p.val = (k 0).val; rw [e0, hk0]; omega
  | ⟨1, _⟩ => show win1_0.index t 1 * 256 + 1 * q.val = (k 1).val; rw [e1, hk1]; omega

/-- The scale row's block at any point is the scale row. -/
theorem iblk1_apply (c : Dev nD) (t : Fin cfg1.N) (q : Fin 256) (k : S1x256.Idx)
    (hk0 : (k 0).val = 0) (hk1 : (k 1).val = q.val) :
    (Gen.iblk1 V c 1 t : Vec Ideal S1x256 .f32) (ix2 (0 : Fin 1) q) = (V c main_v25 : S1x256.Idx → EReal) k := by
  obtain ⟨-, -, e2, e3, -⟩ := idx_facts t
  unfold Gen.iblk1
  rw [View.read_apply]
  show V c main_v25 _ = V c main_v25 _
  congr 1
  funext a
  apply Fin.ext
  match a with
  | ⟨0, _⟩ => show win1_1.index t 0 * 1 + 1 * 0 = (k 0).val; rw [e2, hk0]
  | ⟨1, _⟩ => show win1_1.index t 1 * 256 + 1 * q.val = (k 1).val; rw [e3, hk1]; omega

/-- The shift row's block at any point is the shift row. -/
theorem iblk2_apply (c : Dev nD) (t : Fin cfg1.N) (q : Fin 256) (k : S1x256.Idx)
    (hk0 : (k 0).val = 0) (hk1 : (k 1).val = q.val) :
    (Gen.iblk1 V c 2 t : Vec Ideal S1x256 .f32) (ix2 (0 : Fin 1) q) = (V c main_v29 : S1x256.Idx → EReal) k := by
  obtain ⟨-, -, -, -, e4, e5, -⟩ := idx_facts t
  unfold Gen.iblk1
  rw [View.read_apply]
  show V c main_v29 _ = V c main_v29 _
  congr 1
  funext a
  apply Fin.ext
  match a with
  | ⟨0, _⟩ => show win1_2.index t 0 * 1 + 1 * 0 = (k 0).val; rw [e4, hk0]
  | ⟨1, _⟩ => show win1_2.index t 1 * 256 + 1 * q.val = (k 1).val; rw [e5, hk1]; omega

/-- What point t stores at row p, column q of its block is the normalised matrix at row 1024·t + p, column q. -/
theorem block_apply (c : Dev nD) (t : Fin cfg1.N) (p : Fin 1024) (q : Fin 256) (k : S100352x256.Idx)
    (hk0 : (k 0).val = 1024 * t.val + p.val) (hk1 : (k 1).val = q.val) :
    Gen.k1_pay1 (F := Ideal) (Gen.iblk1 V c 0 t) (Gen.iblk1 V c 1 t) (Gen.iblk1 V c 2 t) (ix2 p q) = normed V c k := by
  refine (pay_apply (Gen.iblk1 V c 0 t) (Gen.iblk1 V c 1 t) (Gen.iblk1 V c 2 t) p q).trans ?_
  rw [iblk0_apply V c t p q k hk0 hk1, iblk1_apply V c t q (ix2 (0 : Fin 1) (k 1)) rfl hk1,
    iblk2_apply V c t q (ix2 (0 : Fin 1) (k 1)) rfl hk1]
  rfl

/-- WHAT POINT t WRITES BACK is block t of the normalised matrix. -/
theorem flushed_eq (c : Dev nD) (t : Fin cfg1.N) :
    (Gen.dat1 (F := Ideal) V c).flushed 3 t = ((cfg1.win 3).blk t).view.read (Elt Ideal) (normed V c) := by
  show (cfg1.win 3).cut (grid1.coords t) ((Gen.dat1 V c).after 3 t) = _
  rw [Gen.after1_3]
  unfold Gen.out1_3
  rw [View.canon_unit_zero hz]
  simp only [View.ld_unit_zero (S := S1024x256) hz, View.ld_unit_zero (S := S1x256) hz]
  obtain ⟨-, -, -, -, -, -, e6, e7⟩ := idx_facts t
  funext j
  show Gen.k1_pay1 (F := Ideal) (Gen.iblk1 V c 0 t) (Gen.iblk1 V c 1 t) (Gen.iblk1 V c 2 t) (j : S1024x256.Idx)
    = normed V c (((cfg1.win 3).blk t).view.emb j)
  refine (congrArg (Gen.k1_pay1 (F := Ideal) (Gen.iblk1 V c 0 t) (Gen.iblk1 V c 1 t) (Gen.iblk1 V c 2 t))
    (eq_ix2 (n0 := 1024) (n1 := 256) j)).trans
    (block_apply V c t (j 0) (j 1) (((cfg1.win 3).blk t).view.emb j) ?_ ?_)
  · show win1_3.index t 0 * 1024 + 1 * (j 0).val = 1024 * t.val + (j 0).val
    rw [e6]; omega
  · show win1_3.index t 1 * 256 + 1 * (j 1).val = (j 1).val
    rw [e7]; omega

/-- An index of the matrix is in point t's block iff each coordinate is in the block's range on its axis. -/
theorem mem_blk (t : Fin cfg1.N) (i : S100352x256.Idx) :
    i ∈ ((cfg1.win 3).blk t).view.set ↔ ∀ a : Fin 2, win1_3.index t a * S1024x256.size a ≤ (i a).val
      ∧ (i a).val < win1_3.index t a * S1024x256.size a + S1024x256.size a := by
  show i ∈ ((View.whole main_v30).slice (win1_3.rect t)).set ↔ _
  rw [View.set_slice_whole, Rect.mem_set_unit]
  exact Iff.rfl

/-- Row r lies in the block of point r / 1024: the 98 blocks of 1024 rows tile the 100352 rows. -/
theorem cover (i : S100352x256.Idx) :
    ∃ t : Fin cfg1.N, (cfg1.win 3).flush t = true ∧ i ∈ ((cfg1.win 3).blk t).view.set := by
  have hi0 : (i 0).val < 100352 := (i 0).isLt
  have hi1 : (i 1).val < 256 := (i 1).isLt
  have hN : cfg1.N = 98 := Gen.N_1
  have ht : (i 0).val / 1024 < cfg1.N := by rw [hN]; omega
  obtain ⟨-, -, -, -, -, -, e6, e7⟩ := idx_facts ⟨(i 0).val / 1024, ht⟩
  refine ⟨⟨(i 0).val / 1024, ht⟩, Gen.flush1_3 _, ?_⟩
  rw [mem_blk]
  intro a
  match a with
  | ⟨0, _⟩ =>
    show win1_3.index ⟨(i 0).val / 1024, ht⟩ 0 * 1024 ≤ (i 0).val
      ∧ (i 0).val < win1_3.index ⟨(i 0).val / 1024, ht⟩ 0 * 1024 + 1024
    rw [e6]; show (i 0).val / 1024 * 1024 ≤ (i 0).val ∧ (i 0).val < (i 0).val / 1024 * 1024 + 1024; omega
  | ⟨1, _⟩ =>
    show win1_3.index ⟨(i 0).val / 1024, ht⟩ 1 * 256 ≤ (i 1).val
      ∧ (i 1).val < win1_3.index ⟨(i 0).val / 1024, ht⟩ 1 * 256 + 256
    rw [e7]; omega

/-- THE OUTPUT MATRIX after the pass: the normalised and activated matrix of the arrays the pass was entered with. -/
theorem out_final (c : Dev nD) :
    (Gen.dat1 (F := Ideal) V c).arrAt 3 cfg1.N = normOf (V c main_v7_0) (V c main_v25) (V c main_v29) :=
  (Gen.dat1 (F := Ideal) V c).arrAt_eq_of_cover 3 (normed V c) (fun t _ => flushed_eq V c t) cover

end Cert.ReferenceIdeal.Tail

end
-- ==== Proof.RefTailHost.lean ====
/-
  The tail after the normalisation pass only moves entries.  The [100352, 256] matrix is cut into 32 images of
  3136 rows, each image's rows into 56 × 56 pixels, and the channel axis is moved in front of the pixel axes:
  result (n, o, h, w) is row n·3136 + h·56 + w, column o of the matrix.
-/
import proofs.«143499_g2000705972228531_pallasbulk_146_16_alg».proof.Proof.Spec
import proofs.«143499_g2000705972228531_pallasbulk_146_16_alg».proof.Proof.Gen.ReferenceIdeal.Frame
import Idealize.ShloMosaic.Lib.ValueIdx
import Idealize.ShloMosaic.Lib.Pipeline.Value
import Idealize.ShloMosaic.Lib.StableHlo.Run

noncomputable section

namespace Cert.ReferenceIdeal.Tail

open Idealize.ShloMosaic Idealize.ShloMosaic.TcCoe Idealize.SL.Sem Idealize.ShloMosaic.ValueIdx
open Cert.ReferenceIdeal Cert.ReferenceIdeal.Gen

/-- The three moves as one function of the matrix. -/
def toImages (Y : S100352x256.Idx → EReal) : S32x256x56x56.Idx → EReal :=
  transpose S32x256x56x56 [0, 3, 1, 2]
    (shapeCast S32x56x56x256 (shapeCast S32x3136x256 Y Gen.shapeCasts_S100352x256_S32x3136x256)
      Gen.shapeCasts_S32x3136x256_S32x56x56x256)
    Gen.transposes_S32x56x56x256_S32x256x56x56_0_3_1_2

/-- The host operations after the pass leave `toImages` of the pass's output in the result buffer. -/
theorem tail_eq (W : Valuation τ sig (Elt Ideal)) :
    StableHlo.after (Gen.hostOps2 (F := Ideal)) W (Proc.devRef .tc main_v33)
      = toImages (W (Proc.devRef .tc main_v30)) := by
  unfold Gen.hostOps2
  after_results
  rfl

/-- `toImages` at (n, o, h, w) is the matrix at row n·3136 + h·56 + w, column o. -/
theorem toImages_apply (Y : S100352x256.Idx → EReal) (n : Fin 32) (o : Fin 256) (h w : Fin 56) :
    toImages Y (ix4 n o h w) = Cert.Spec.at2 Y (n.val * 3136 + h.val * 56 + w.val) o.val := by
  have hr : n.val * 3136 + h.val * 56 + w.val < 100352 := by omega
  unfold toImages
  refine (transpose_apply [0, 3, 1, 2] _ Gen.transposes_S32x56x56x256_S32x256x56x56_0_3_1_2 (ix4 n o h w) (ix4 n h w o) fun b => ?_).trans ?_
  · match b with
    | ⟨0, _⟩ => rfl
    | ⟨1, _⟩ => rfl
    | ⟨2, _⟩ => rfl
    | ⟨3, _⟩ => rfl
  refine (shapeCast_apply _ Gen.shapeCasts_S32x3136x256_S32x56x56x256 (ix4 n h w o) (ix3 n ⟨h.val * 56 + w.val, by omega⟩ o) ?_).trans ?_
  · rw [Shape.rowMajor_val_three, Shape.rowMajor_val_four]
    show (n.val * 3136 + (h.val * 56 + w.val)) * 256 + o.val = ((n.val * 56 + h.val) * 56 + w.val) * 256 + o.val
    omega
  refine (shapeCast_apply _ Gen.shapeCasts_S100352x256_S32x3136x256 (ix3 n ⟨h.val * 56 + w.val, by omega⟩ o) (ix2 ⟨n.val * 3136 + h.val * 56 + w.val, hr⟩ o) ?_).trans ?_
  · rw [Shape.rowMajor_val_two, Shape.rowMajor_val_three]
    show (n.val * 3136 + h.val * 56 + w.val) * 256 + o.val = (n.val * 3136 + (h.val * 56 + w.val)) * 256 + o.val
    omega
  exact (Cert.Spec.at2_fin Y ⟨n.val * 3136 + h.val * 56 + w.val, hr⟩ o).symm

variable (m : (ℓ : Loc nD τ sig) → Buf (Elt Ideal) ℓ) (ρ : Dev nD → PrngReg)

/-- The result buffer after the last stretch of host operations is `toImages` of the pass's output. -/
theorem result_images (c : Dev nD) :
    Gen.W12 (F := Ideal) m ρ c (Proc.devRef .tc main_v33)
      = toImages (Gen.W11 (F := Ideal) m ρ c (Proc.devRef .tc main_v30)) :=
  tail_eq (Gen.W11 m ρ c)

/-- The result at (n, o, h, w) is row n·3136 + h·56 + w, column o of the pass's output. -/
theorem result (c : Dev nD) :
    Gen.W12 (F := Ideal) m ρ c (Proc.devRef .tc main_v33)
      = fun i : S32x256x56x56.Idx => Cert.Spec.at2 (a := 100352) (b := 256) (Gen.W11 (F := Ideal) m ρ c (Proc.devRef .tc main_v30))
          ((i 0).val * 3136 + (i 2).val * 56 + (i 3).val) (i 1).val := by
  rw [result_images]
  funext i
  obtain ⟨n, o, h, w, rfl⟩ : ∃ (n : Fin 32) (o : Fin 256) (h w : Fin 56), i = ix4 n o h w := ⟨i 0, i 1, i 2, i 3, eq_ix4 i⟩
  exact toImages_apply _ n o h w

end Cert.ReferenceIdeal.Tail

end
-- ==== Proof.RefTail.lean ====
/-
  The reference's second pass and everything after it, put together: the result at (n, o, h, w) is the hard-swish of
  y · scale(o) + shift(o), where y is row n·3136 + h·56 + w, column o of the matrix the pass is entered with and
  scale, shift are the two rows it is entered with.
-/
import proofs.«143499_g2000705972228531_pallasbulk_146_16_alg».proof.Proof.Spec
import proofs.«143499_g2000705972228531_pallasbulk_146_16_alg».proof.Proof.Gen.ReferenceIdeal.Frame
import proofs.«143499_g2000705972228531_pallasbulk_146_16_alg».proof.Proof.RefTailPay
import proofs.«143499_g2000705972228531_pallasbulk_146_16_alg».proof.Proof.RefTailBlocks
import proofs.«143499_g2000705972228531_pallasbulk_146_16_alg».proof.Proof.RefTailHost

noncomputable section

namespace Cert.ReferenceIdeal.Tail

open Idealize.ShloMosaic Idealize.ShloMosaic.TcCoe Idealize.SL.Sem Idealize.ShloMosaic.ValueIdx
open Cert.ReferenceIdeal Cert.ReferenceIdeal.Gen

variable (m : (ℓ : Loc nD τ sig) → Buf (Elt Ideal) ℓ) (ρ : Dev nD → PrngReg)

/-- The pass's output buffer when the pass is left: the normalised and activated matrix of the arrays it was entered
    with. -/
theorem out_at_exit (c : Dev nD) :
    Gen.W11 (F := Ideal) m ρ c (Proc.devRef .tc main_v30)
      = normOf (Gen.V10 (F := Ideal) m ρ c main_v7_0) (Gen.V10 (F := Ideal) m ρ c main_v25) (Gen.V10 (F := Ideal) m ρ c main_v29) :=
  (Gen.W11_arr m ρ c 3).trans (out_final (Gen.V10 m ρ) c)

/-- The result buffer at the end of the run, as one function of the arrays the pass was entered with. -/
theorem result_normed (c : Dev nD) :
    Gen.W12 (F := Ideal) m ρ c (Proc.devRef .tc main_v33)
      = toImages (normOf (Gen.V10 (F := Ideal) m ρ c main_v7_0) (Gen.V10 (F := Ideal) m ρ c main_v25) (Gen.V10 (F := Ideal) m ρ c main_v29)) :=
  (result_images m ρ c).trans (congrArg toImages (out_at_exit m ρ c))

/-- The same entry by entry. -/
theorem result_normed_apply (c : Dev nD) (n : Fin 32) (o : Fin 256) (h w : Fin 56) :
    (Gen.W12 (F := Ideal) m ρ c (Proc.devRef .tc main_v33) : S32x256x56x56.Idx → EReal) (ix4 n o h w)
      = Cert.Spec.hsw
          (Cert.Spec.at2 (a := 100352) (b := 256) (Gen.V10 (F := Ideal) m ρ c main_v7_0) (n.val * 3136 + h.val * 56 + w.val) o.val
              * Cert.Spec.at2 (a := 1) (b := 256) (Gen.V10 (F := Ideal) m ρ c main_v25) 0 o.val
            + Cert.Spec.at2 (a := 1) (b := 256) (Gen.V10 (F := Ideal) m ρ c main_v29) 0 o.val) := by
  have hr : n.val * 3136 + h.val * 56 + w.val < 100352 := by omega
  have e := Cert.Spec.at2_fin
    (normOf (Gen.V10 (F := Ideal) m ρ c main_v7_0) (Gen.V10 (F := Ideal) m ρ c main_v25) (Gen.V10 (F := Ideal) m ρ c main_v29))
    (⟨n.val * 3136 + h.val * 56 + w.val, hr⟩ : Fin 100352) o
  have eX := Cert.Spec.at2_fin (a := 100352) (b := 256) (Gen.V10 (F := Ideal) m ρ c main_v7_0)
    (⟨n.val * 3136 + h.val * 56 + w.val, hr⟩ : Fin 100352) o
  have eG := Cert.Spec.at2_fin (a := 1) (b := 256) (Gen.V10 (F := Ideal) m ρ c main_v25) (0 : Fin 1) o
  have eB := Cert.Spec.at2_fin (a := 1) (b := 256) (Gen.V10 (F := Ideal) m ρ c main_v29) (0 : Fin 1) o
  rw [result_normed, toImages_apply]
  exact e.trans (congrArg Cert.Spec.hsw (congrArg₂ (· + ·) (congrArg₂ (· * ·) eX.symm eG.symm) eB.symm))

end Cert.ReferenceIdeal.Tail

end
-- ==== Proof.RefValue.lean ====
/-
  The reference program computes the block's output.

  The result buffer at (image n, channel o, row h, column w) is the second pass's array at row
  n·3136 + h·56 + w, column o.  The second pass leaves there the hard-swish of  y · scale + shift,  with y the
  first pass's convolution array at the same row and column, and scale, shift the two rows computed between the
  passes from the first pass's per-image sums.  The convolution array at that row is the nine taps over the padded
  image and the nine weight matrices, which are the convolution of the arguments at (n, h, w, o); the per-image
  sums add up, image by image and pixel by pixel, to the sums of the convolution and of its square over all
  images and pixels.  Put together this is the block's output with the statistics grouped image by image and the
  shift associated as β − (mean · γ) · istd.
-/
import proofs.«143499_g2000705972228531_pallasbulk_146_16_alg».proof.Proof.RefRun
import proofs.«143499_g2000705972228531_pallasbulk_146_16_alg».proof.Proof.RefRunEntry0
import proofs.«143499_g2000705972228531_pallasbulk_146_16_alg».proof.Proof.RefRunEntry1
import proofs.«143499_g2000705972228531_pallasbulk_146_16_alg».proof.Proof.RefConv
import proofs.«143499_g2000705972228531_pallasbulk_146_16_alg».proof.Proof.RefTail
import proofs.«143499_g2000705972228531_pallasbulk_146_16_alg».proof.Proof.Spec
import Idealize.ShloMosaic.Lib.ValueIdx

set_option maxRecDepth 16384

noncomputable section

namespace Cert.ReferenceIdeal.RefValue

open Idealize.ShloMosaic Idealize.ShloMosaic.TcCoe Idealize.ShloMosaic.Tactic
open Idealize.ShloMosaic.ValueIdx
open Cert.ReferenceIdeal.Gen
open Cert.ReferenceIdeal.RefRunEntry0 (X Wt Gm Bt accTaps_eq)
open Cert.ReferenceIdeal.RefRunEntry1 (St scale_at shift_at V10_v7_0)

/-- The TensorCore's buffer contents at a pass's entry. -/
abbrev Entry : Type := (c : Dev nD) → (b : Ref sig .tc) → Buf (Elt Ideal) ((c : Thread nD τ).loc b)

/-- The first pass leaves, at row r and column o of its first result, the nine taps at image r / 3136, pixel
    (r % 3136 / 56, r % 3136 % 56), channel o, over the padded image and the matrices it was handed. -/
abbrev ConvLeaves : Prop := ∀ (V : Entry) (c : Dev nD),
  (dat0 (F := Ideal) V c).arrAt 2 cfg0.N = fun i =>
    Spec.accTaps (V c main_v1) (V c main_v4) ((i 0).val / 3136) ((i 0).val % 3136 / 56) ((i 0).val % 3136 % 56) (i 1).val

/-- The first pass leaves, at (image n, row 0 or 1, channel o) of its second result, the sum over the image's
    pixels of the taps (row 0) or of their squares (row 1). -/
abbrev StatsLeaves : Prop := ∀ (V : Entry) (c : Dev nD),
  (dat0 (F := Ideal) V c).arrAt 3 cfg0.N = fun i =>
    Spec.imageSum (if (i 1).val = 0 then (fun y => y) else (fun y => y * y)) (V c main_v1) (V c main_v4) (i 0).val (i 2).val

/-- The hard-swish of y · scale + shift, column by column. -/
abbrev normOut (y : S100352x256.Idx → EReal) (a b : S1x256.Idx → EReal) : S100352x256.Idx → EReal :=
  fun i => Spec.hsw (y i * a (ix2 0 (i 1)) + b (ix2 0 (i 1)))

/-- The second pass leaves the hard-swish of y · scale + shift, column by column. -/
abbrev NormLeaves : Prop := ∀ (V : Entry) (c : Dev nD),
  (dat1 (F := Ideal) V c).arrAt 3 cfg1.N = normOut (V c main_v7_0) (V c main_v25) (V c main_v29)

/-- The operations after the second pass only rearrange its array into (image, channel, row, column). -/
abbrev TailReads : Prop := ∀ (m : (ℓ : Loc nD τ sig) → Buf (Elt Ideal) ℓ) (ρ : Dev nD → PrngReg) (c : Dev nD),
  W12 (F := Ideal) m ρ c (Proc.devRef .tc main_v33) = fun i =>
    Spec.at2 (W11 (F := Ideal) m ρ c (Proc.devRef .tc main_v30)) ((i 0).val * 3136 + (i 2).val * 56 + (i 3).val) (i 1).val

variable (m : (ℓ : Loc nD τ sig) → Buf (Elt Ideal) ℓ) (ρ : Dev nD → PrngReg)

/-- The convolution array the second pass reads, at row n·3136 + h·56 + w and column o, is the convolution of the
    arguments at (n, h, w, o). -/
theorem conv_at (hy : ConvLeaves) (c : Dev nD) (n : Fin 32) (o : Fin 256) (h w : Fin 56)
    (r : Fin 100352) (hr : r.val = n.val * 3136 + h.val * 56 + w.val) :
    (V10 (F := Ideal) m ρ c main_v7_0 : S100352x256.Idx → EReal) (ix2 r o)
      = Spec.convTaps (X m c) (Wt m c) n.val h.val w.val o.val := by
  have e : (V10 (F := Ideal) m ρ c main_v7_0 : S100352x256.Idx → EReal) = _ :=
    (V10_v7_0 m ρ c).trans ((W9_arr m ρ c 2).trans (hy (V8 m ρ) c))
  rw [e]
  show Spec.accTaps (V8 (F := Ideal) m ρ c main_v1) (V8 (F := Ideal) m ρ c main_v4) (r.val / 3136) (r.val % 3136 / 56)
    (r.val % 3136 % 56) o.val = _
  have hn := n.isLt
  have hh := h.isLt
  have hw := w.isLt
  rw [show r.val / 3136 = n.val by omega, show r.val % 3136 / 56 = h.val by omega, show r.val % 3136 % 56 = w.val by omega]
  exact accTaps_eq m ρ c n.val h.val w.val o.val n.isLt h.isLt w.isLt o.isLt

/-- The per-image sums add up to the sum of the convolution over all images and pixels. -/
theorem sum_at (hs : StatsLeaves) (c : Dev nD) (o : Fin 256) :
    (∑ n : Fin 32, St m ρ c (ix3 n 0 o)) = Spec.sumByImage (fun y => y) (X m c) (Wt m c) o.val := by
  have e : St m ρ c = _ := (W9_arr m ρ c 3).trans (hs (V8 m ρ) c)
  rw [e]
  unfold Spec.sumByImage
  refine Finset.sum_congr rfl (fun n _ => ?_)
  show Spec.imageSum (if (0 : ℕ) = 0 then (fun y => y) else (fun y => y * y)) (V8 (F := Ideal) m ρ c main_v1)
    (V8 (F := Ideal) m ρ c main_v4) n.val o.val = _
  rw [if_pos rfl]
  unfold Spec.imageSum
  refine Finset.sum_congr rfl (fun p _ => ?_)
  have hp := p.isLt
  rw [accTaps_eq m ρ c n.val (p.val / 56) (p.val % 56) o.val n.isLt (by omega) (by omega) o.isLt]

/-- The per-image sums of squares add up to the sum of the convolution's square over all images and pixels. -/
theorem sumsq_at (hs : StatsLeaves) (c : Dev nD) (o : Fin 256) :
    (∑ n : Fin 32, St m ρ c (ix3 n 1 o)) = Spec.sumByImage (fun y => y * y) (X m c) (Wt m c) o.val := by
  have e : St m ρ c = _ := (W9_arr m ρ c 3).trans (hs (V8 m ρ) c)
  rw [e]
  unfold Spec.sumByImage
  refine Finset.sum_congr rfl (fun n _ => ?_)
  show Spec.imageSum (if (1 : ℕ) = 0 then (fun y => y) else (fun y => y * y)) (V8 (F := Ideal) m ρ c main_v1)
    (V8 (F := Ideal) m ρ c main_v4) n.val o.val = _
  rw [if_neg (by decide)]
  unfold Spec.imageSum
  refine Finset.sum_congr rfl (fun p _ => ?_)
  have hp := p.isLt
  rw [accTaps_eq m ρ c n.val (p.val / 56) (p.val % 56) o.val n.isLt (by omega) (by omega) o.isLt]

/-- The result buffer holds the block's output. -/
theorem value_of (hy : ConvLeaves) (hs : StatsLeaves) (ho : NormLeaves) (ht : TailReads) (c : Dev nD) :
    W12 (F := Ideal) m ρ c (Proc.devRef .tc main_v33) = Spec.outByImage (X m c) (Wt m c) (Gm m c) (Bt m c) := by
  rw [ht m ρ c]
  funext i
  obtain ⟨n, o, h, w, rfl⟩ : ∃ (n : Fin 32) (o : Fin 256) (h w : Fin 56), i = ix4 n o h w :=
    ⟨i 0, i 1, i 2, i 3, eq_ix4 i⟩
  have hn := n.isLt
  have hh := h.isLt
  have hw := w.isLt
  have hrow : n.val * 3136 + h.val * 56 + w.val < 100352 := by omega
  have e30 : (W11 (F := Ideal) m ρ c (Proc.devRef .tc main_v30) : S100352x256.Idx → EReal) = _ :=
    (W11_arr m ρ c 3).trans (ho (V10 m ρ) c)
  show Spec.at2 (W11 (F := Ideal) m ρ c (Proc.devRef .tc main_v30) : S100352x256.Idx → EReal)
    (n.val * 3136 + h.val * 56 + w.val) o.val = _
  rw [e30]
  refine (Spec.at2_fin _ (⟨n.val * 3136 + h.val * 56 + w.val, hrow⟩ : Fin 100352) o).trans ?_
  show normOut (V10 (F := Ideal) m ρ c main_v7_0) (V10 (F := Ideal) m ρ c main_v25) (V10 (F := Ideal) m ρ c main_v29)
        (ix2 (⟨n.val * 3136 + h.val * 56 + w.val, hrow⟩ : Fin 100352) o)
    = Spec.hsw (Spec.convTaps (X m c) (Wt m c) n.val h.val w.val o.val
        * (Spec.at1 (Gm m c) o.val * Spec.istd (Spec.sumByImage (fun y => y) (X m c) (Wt m c) o.val)
            (Spec.sumByImage (fun y => y * y) (X m c) (Wt m c) o.val))
      + (Spec.at1 (Bt m c) o.val - Spec.mean (Spec.sumByImage (fun y => y) (X m c) (Wt m c) o.val) * Spec.at1 (Gm m c) o.val
          * Spec.istd (Spec.sumByImage (fun y => y) (X m c) (Wt m c) o.val)
              (Spec.sumByImage (fun y => y * y) (X m c) (Wt m c) o.val)))
  refine congrArg Spec.hsw ?_
  refine congrArg₂ (fun a b : EReal => a + b) (congrArg₂ (fun a b : EReal => a * b) ?_ ?_) ?_
  · exact conv_at m ρ hy c n o h w ⟨n.val * 3136 + h.val * 56 + w.val, hrow⟩ rfl
  · refine (scale_at m ρ c o).trans ?_
    rw [sum_at m ρ hs c o, sumsq_at m ρ hs c o]
  · refine (shift_at m ρ c o).trans ?_
    rw [sum_at m ρ hs c o, sumsq_at m ρ hs c o]

/-- The reference's run: it terminates, its result is the block's output, its arguments are as launched. -/
theorem run_of (hy : ConvLeaves) (hs : StatsLeaves) (ho : NormLeaves) (ht : TailReads) :
    θ_run (Cert.ReferenceIdeal.defs (F := Ideal)) (onTc (τ := τ) (main (F := Ideal))) ⟨m, fun _ => 0, ρ⟩ (fun r => ∀ c : Dev nD,
      r.2.mem ((c.tc : Thread nD τ).loc main_v33)
          = Cert.Spec.outByImage (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run _ _ _).mono (fun r h c => ⟨(h c).1.trans (value_of m ρ hy hs ho ht c), (h c).2⟩)
    (Cert.ReferenceIdeal.RefRun.run_named (F := Ideal) m ρ)

/-- The reference's run with both passes' values in place: every weakly fair execution terminates, the result buffer
    holds the block's output of the four argument arrays, and the arguments are as launched. -/
theorem run :
    θ_run (Cert.ReferenceIdeal.defs (F := Ideal)) (onTc (τ := τ) (main (F := Ideal))) ⟨m, fun _ => 0, ρ⟩ (fun r => ∀ c : Dev nD,
      r.2.mem ((c.tc : Thread nD τ).loc main_v33)
          = Cert.Spec.outByImage (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  run_of m ρ (fun V c => Cert.ReferenceIdeal.Conv.y_final V c) (fun V c => Cert.ReferenceIdeal.Conv.stats_final V c)
    (fun V c => Cert.ReferenceIdeal.Tail.out_final V c) (fun m ρ c => Cert.ReferenceIdeal.Tail.result m ρ c)

end Cert.ReferenceIdeal.RefValue

end
-- ==== Proof.lean ====
/-
  A 3×3 convolution (stride 1, zero padding 1) followed by batch normalisation with batch statistics and a
  hard-swish, computed by two programs, each in two passes over the image.

  One program pads each image inside its first pass, gathers the nine shifted copies of it into a patch matrix with
  1152 columns and multiplies once by the 1152 × 256 weight matrix; it sums the convolution and its square over pairs
  of images, and its second pass adds the 16 pairs, derives mean, variance, scale and shift, and applies them with the
  activation.  The other pads the image beforehand, multiplies nine 128-column slices by nine 128 × 256 weight
  matrices and adds the nine products; it sums image by image, adds the 32 images between the passes, derives scale
  and shift there, and its second pass only applies them.

  Over the extended reals both compute one function of the four arguments (Spec.lean): the single sum over 1152
  positions is the nine taps' sums added in order, the sums over 16 pairs of 6272 rows are the sums over 32 images of
  3136 pixels, and β − mean·(γ·istd) is β − (mean·γ)·istd (SpecAlgebra.lean: re-indexing and associativity only, so no
  finiteness of the inputs is used).  Each program's result is read back from its run — the contents at every
  boundary between host operations and passes, each pass' output arrays from its blocks — in the modules
  Ker*.lean (the kernel) and Ref*.lean (the reference).  The three frames are the generated ones; the idealization
  rewrote nothing, so its ledger is empty.
-/
import proofs.«143499_g2000705972228531_pallasbulk_146_16_alg».proof.Defs
import proofs.«143499_g2000705972228531_pallasbulk_146_16_alg».proof.Proof.Gen.Kernel
import proofs.«143499_g2000705972228531_pallasbulk_146_16_alg».proof.Proof.Gen.Kernel.Skeleton
import proofs.«143499_g2000705972228531_pallasbulk_146_16_alg».proof.Proof.Gen.Kernel.Launch
import proofs.«143499_g2000705972228531_pallasbulk_146_16_alg».proof.Proof.Gen.Kernel.Points
import proofs.«143499_g2000705972228531_pallasbulk_146_16_alg».proof.Proof.Gen.Kernel.Frame
import proofs.«143499_g2000705972228531_pallasbulk_146_16_alg».proof.Proof.Gen.KernelIdeal
import proofs.«143499_g2000705972228531_pallasbulk_146_16_alg».proof.Proof.Gen.KernelIdeal.Skeleton
import proofs.«143499_g2000705972228531_pallasbulk_146_16_alg».proof.Proof.Gen.KernelIdeal.Launch
import proofs.«143499_g2000705972228531_pallasbulk_146_16_alg».proof.Proof.Gen.KernelIdeal.Points
import proofs.«143499_g2000705972228531_pallasbulk_146_16_alg».proof.Proof.Gen.KernelIdeal.Frame
import proofs.«143499_g2000705972228531_pallasbulk_146_16_alg».proof.Proof.Gen.ReferenceIdeal
import proofs.«143499_g2000705972228531_pallasbulk_146_16_alg».proof.Proof.Gen.ReferenceIdeal.Skeleton
import proofs.«143499_g2000705972228531_pallasbulk_146_16_alg».proof.Proof.Gen.ReferenceIdeal.Launch
import proofs.«143499_g2000705972228531_pallasbulk_146_16_alg».proof.Proof.Gen.ReferenceIdeal.Points
import proofs.«143499_g2000705972228531_pallasbulk_146_16_alg».proof.Proof.Gen.ReferenceIdeal.Frame
import proofs.«143499_g2000705972228531_pallasbulk_146_16_alg».proof.Proof.Gen.Pre_finite_inputs
import proofs.«143499_g2000705972228531_pallasbulk_146_16_alg».proof.Proof.SpecAlgebra
import proofs.«143499_g2000705972228531_pallasbulk_146_16_alg».proof.Proof.KerValue
import proofs.«143499_g2000705972228531_pallasbulk_146_16_alg».proof.Proof.KerConv
import proofs.«143499_g2000705972228531_pallasbulk_146_16_alg».proof.Proof.KerNormBlocks
import proofs.«143499_g2000705972228531_pallasbulk_146_16_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_k : Cert.frame_Kernel (hKernel := Cert.Kernel.Gen.facts) (hPre_finite_inputs := Cert.Pre_finite_inputs.Gen.facts) :=
  fun m ρ _ => Cert.Kernel.Gen.frame m ρ

/-- So does the idealized kernel. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- So does the idealized reference. -/
theorem frame_ri : Cert.frame_ReferenceIdeal (hReferenceIdeal := Cert.ReferenceIdeal.Gen.facts) (hPre_finite_inputs := Cert.Pre_finite_inputs.Gen.facts) :=
  fun m ρ _ => Cert.ReferenceIdeal.Gen.frame m ρ

/-- The idealized kernel's run ends with the result array at the block's output, statistics grouped by pairs of
    images, of the four arguments. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v9)
          = Cert.Spec.outByPair (m ((c.tc : Thread Cert.KernelIdeal.nD Cert.KernelIdeal.τ).loc Cert.KernelIdeal.main_arg0))
              (m ((c.tc : Thread Cert.KernelIdeal.nD Cert.KernelIdeal.τ).loc Cert.KernelIdeal.main_arg1))
              (m ((c.tc : Thread Cert.KernelIdeal.nD Cert.KernelIdeal.τ).loc Cert.KernelIdeal.main_arg2))
              (m ((c.tc : Thread Cert.KernelIdeal.nD Cert.KernelIdeal.τ).loc Cert.KernelIdeal.main_arg3))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)) :=
  (θ_run (Cert.KernelIdeal.defs (F := Ideal)) _ _).mono
    (fun r h c => ⟨(h c).1.trans (funext (Cert.KernelIdeal.Value.result_of m ρ c
        Cert.KernelIdeal.Conv.y_final Cert.KernelIdeal.Conv.stats_final Cert.KernelIdeal.Norm.out_final)), (h c).2⟩)
    (Cert.KernelIdeal.Gen.run_named (F := Ideal) m ρ)

/-- The two idealized programs, run from memories that agree on the arguments, end with equal results. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, kernel_run m ρ, ?_⟩
  refine (θ_run (Cert.ReferenceIdeal.defs (F := Ideal)) _ _).mono (fun r h c => ⟨(h c).1.trans ?_, (h c).2⟩)
    (Cert.ReferenceIdeal.RefValue.run m' ρ')
  rw [(hagree c).1, (hagree c).2.1, (hagree c).2.2.1, (hagree c).2.2.2]
  exact (Cert.Spec.outByPair_eq_outByImage _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
